-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x256x2 : Shape := ⟨5, ![4, 256, 128, 256, 2]⟩
abbrev S4x16x16 : Shape := ⟨3, ![4, 16, 16]⟩
abbrev S4x16 : Shape := ⟨2, ![4, 16]⟩
abbrev S_ : Shape := ⟨0, ![]⟩

class Facts : Prop where
  bcast_S_S4x256x128x256x2 : S_.BroadcastsInDim S4x256x128x256x2 (![] : Fin 0 → Fin S4x256x128x256x2.rank)
  reducesTo_S4x256x128x256x2_S_d0_1_2_3_4 : S4x256x128x256x2.ReducesTo [0, 1, 2, 3, 4] S_
  h_S_ : 0 < S_.numel
  bcast_S_S4x16x16 : S_.BroadcastsInDim S4x16x16 (![] : Fin 0 → Fin S4x16x16.rank)
  reducesTo_S4x16x16_S_d0_1_2 : S4x16x16.ReducesTo [0, 1, 2] S_
  bcast_S_S4x16 : S_.BroadcastsInDim S4x16 (![] : Fin 0 → Fin S4x16.rank)
  reducesTo_S4x16_S_d0_1 : S4x16.ReducesTo [0, 1] S_

variable [Facts]

def fn_part1 {F : FTy → Type} [FloatOps F] (main_arg4 : FVec F S4x16 .f32) (main_v13 : IVec S_ 1) (main_v16 : IVec S4x16x16 1) : IVec S_ 1 :=
  let main_c_5 : IVec S_ 1 := constantI S_ 1 1#1
  let main_v17 : IVec S_ 1 := (fun x v => Host.reduce IntOp.andi x v reducesTo_S4x16x16_S_d0_1_2 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  main_v23

def fn {F : FTy → Type} [FloatOps F] (main_arg0 : FVec F S4x256x128x256x2 .f32) (main_arg1 : FVec F S4x16x16 .f32) (main_arg2 : FVec F S4x16 .f32) (main_arg3 : FVec F S4x16x16 .f32) (main_arg4 : FVec F S4x16 .f32) : IVec S_ 1 :=
  let main_v0 : FVec F S4x256x128x256x2 .f32 := Host.absf main_arg0
  let main_cst : FVec F S_ .f32 := constant S_ .f32 0x7F800000#32
  let main_v1 : FVec F S4x256x128x256x2 .f32 := broadcastInDim S4x256x128x256x2 ![] bcast_S_S4x256x128x256x2 main_cst
  let main_v2 : IVec S4x256x128x256x2 1 := cmpf .olt main_v0 main_v1
  let main_c : IVec S_ 1 := constantI S_ 1 1#1
  let main_v3 : IVec S_ 1 := (fun x v => Host.reduce IntOp.andi x v reducesTo_S4x256x128x256x2_S_d0_1_2_3_4 h_S_) main_v2 main_c
  let main_v4 : FVec F S4x16x16 .f32 := Host.absf main_arg1
  let main_cst_0 : FVec F S_ .f32 := constant S_ .f32 0x7F800000#32
  let main_v5 : FVec F S4x16x16 .f32 := broadcastInDim S4x16x16 ![] bcast_S_S4x16x16 main_cst_0
  let main_v6 : IVec S4x16x16 1 := cmpf .olt main_v4 main_v5
  let main_c_1 : IVec S_ 1 := constantI S_ 1 1#1
  let main_v7 : IVec S_ 1 := (fun x v => Host.reduce IntOp.andi x v reducesTo_S4x16x16_S_d0_1_2 h_S_) main_v6 main_c_1
  let main_v8 : IVec S_ 1 := andi main_v3 main_v7
  let main_v9 : FVec F S4x16 .f32 := Host.absf main_arg2
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S4x16x16 .f32 := Host.absf main_arg3
  let main_cst_4 : FVec F S_ .f32 := constant S_ .f32 0x7F800000#32
  let main_v15 : FVec F S4x16x16 .f32 := broadcastInDim S4x16x16 ![] bcast_S_S4x16x16 main_cst_4
  let main_v16 : IVec S4x16x16 1 := cmpf .olt main_v14 main_v15
  fn_part1 (F := F) main_arg4 main_v13 main_v16
-- ==== Kernel.lean ====
abbrev S4x256x128x256x2 : Shape := ⟨5, ![4, 256, 128, 256, 2]⟩
abbrev S4x16x16 : Shape := ⟨3, ![4, 16, 16]⟩
abbrev S4x16 : Shape := ⟨2, ![4, 16]⟩
abbrev S48x16 : Shape := ⟨2, ![48, 16]⟩
abbrev S80x16 : Shape := ⟨2, ![80, 16]⟩
abbrev S112x16 : Shape := ⟨2, ![112, 16]⟩
abbrev S2x256x4x128x256 : Shape := ⟨5, ![2, 256, 4, 128, 256]⟩
abbrev S2x256x131072 : Shape := ⟨3, ![2, 256, 131072]⟩
abbrev S3x16x16 : Shape := ⟨3, ![3, 16, 16]⟩
abbrev S3x16 : Shape := ⟨2, ![3, 16]⟩
abbrev S2x256x2048 : Shape := ⟨3, ![2, 256, 2048]⟩
abbrev S1x16x2048 : Shape := ⟨3, ![1, 16, 2048]⟩
abbrev S16x2048 : Shape := ⟨2, ![16, 2048]⟩
abbrev S1x16x16 : Shape := ⟨3, ![1, 16, 16]⟩
abbrev S16x16 : Shape := ⟨2, ![16, 16]⟩
abbrev S1x16 : Shape := ⟨2, ![1, 16]⟩
abbrev S16 : Shape := ⟨1, ![16]⟩
abbrev S16x1 : Shape := ⟨2, ![16, 1]⟩
abbrev S16x48 : Shape := ⟨2, ![16, 48]⟩
abbrev S1x48x2048 : Shape := ⟨3, ![1, 48, 2048]⟩
abbrev S48x2048 : Shape := ⟨2, ![48, 2048]⟩
abbrev S16x80 : Shape := ⟨2, ![16, 80]⟩
abbrev S1x80x2048 : Shape := ⟨3, ![1, 80, 2048]⟩
abbrev S80x2048 : Shape := ⟨2, ![80, 2048]⟩
abbrev S16x112 : Shape := ⟨2, ![16, 112]⟩
abbrev S1x112x2048 : Shape := ⟨3, ![1, 112, 2048]⟩
abbrev S112x2048 : Shape := ⟨2, ![112, 2048]⟩

abbrev nBuf : Space → Nat
  | .hbm => 17
  | .vmem => 11
  | .smem => 0
  | _ => 0

abbrev bufTy : (tb : Table) → Fin (tcTables nBuf tb) → BufTy
  | .hbm, ⟨0, _⟩ => ⟨S4x256x128x256x2, .f32⟩
  | .hbm, ⟨1, _⟩ => ⟨S4x16x16, .f32⟩
  | .hbm, ⟨2, _⟩ => ⟨S4x16, .f32⟩
  | .hbm, ⟨3, _⟩ => ⟨S4x16x16, .f32⟩
  | .hbm, ⟨4, _⟩ => ⟨S4x16, .f32⟩
  | .hbm, ⟨5, _⟩ => ⟨S48x16, .f32⟩
  | .hbm, ⟨6, _⟩ => ⟨S80x16, .f32⟩
  | .hbm, ⟨7, _⟩ => ⟨S112x16, .f32⟩
  | .hbm, ⟨8, _⟩ => ⟨S2x256x4x128x256, .f32⟩
  | .hbm, ⟨9, _⟩ => ⟨S2x256x131072, .f32⟩
  | .hbm, ⟨10, _⟩ => ⟨S3x16x16, .f32⟩
  | .hbm, ⟨11, _⟩ => ⟨S3x16x16, .f32⟩
  | .hbm, ⟨12, _⟩ => ⟨S3x16, .f32⟩
  | .hbm, ⟨13, _⟩ => ⟨S3x16, .f32⟩
  | .hbm, ⟨14, _⟩ => ⟨S2x256x131072, .f32⟩
  | .hbm, ⟨15, _⟩ => ⟨S2x256x4x128x256, .f32⟩
  | .hbm, ⟨16, _⟩ => ⟨S4x256x128x256x2, .f32⟩
  | .local _ .vmem, ⟨0, _⟩ => ⟨S2x256x2048, .f32⟩
  | .local _ .vmem, ⟨1, _⟩ => ⟨S2x256x2048, .f32⟩
  | .local _ .vmem, ⟨2, _⟩ => ⟨S3x16x16, .f32⟩
  | .local _ .vmem, ⟨3, _⟩ => ⟨S3x16x16, .f32⟩
  | .local _ .vmem, ⟨4, _⟩ => ⟨S3x16, .f32⟩
  | .local _ .vmem, ⟨5, _⟩ => ⟨S3x16, .f32⟩
  | .local _ .vmem, ⟨6, _⟩ => ⟨S48x16, .f32⟩
  | .local _ .vmem, ⟨7, _⟩ => ⟨S80x16, .f32⟩
  | .local _ .vmem, ⟨8, _⟩ => ⟨S112x16, .f32⟩
  | .local _ .vmem, ⟨9, _⟩ => ⟨S2x256x2048, .f32⟩
  | .local _ .vmem, ⟨10, _⟩ => ⟨S2x256x2048, .f32⟩
  | _, _ => ⟨S4x256x128x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S112x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x256x128x256x2_S2x256x4x128x256_4_1_0_2_3 : S4x256x128x256x2.Transposes [4, 1, 0, 2, 3] S2x256x4x128x256
  shapeCasts_S2x256x4x128x256_S2x256x131072 : S2x256x4x128x256.ShapeCasts S2x256x131072
  slices_S4x16x16_S3x16x16_1_0_0 : S4x16x16.Slices ![1, 0, 0] S3x16x16
  slices_S4x16_S3x16_1_0 : S4x16.Slices ![1, 0] S3x16
  inb_S2x256x2048_S1x16x2048_0_0_0 : ∀ a, (![0, 0, 0] : Fin 3 → Nat) a + S1x16x2048.size a ≤ S2x256x2048.size a
  h_S1x16x2048 : 0 < S1x16x2048.numel
  shapeCasts_S1x16x2048_S16x2048 : S1x16x2048.ShapeCasts S16x2048
  inb_S2x256x2048_S1x16x2048_1_0_0 : ∀ a, (![1, 0, 0] : Fin 3 → Nat) a + S1x16x2048.size a ≤ S2x256x2048.size a
  shapeCasts_S16x2048_S1x16x2048 : S16x2048.ShapeCasts S1x16x2048
  inb_S3x16x16_S1x16x16_0_0_0 : ∀ a, (![0, 0, 0] : Fin 3 → Nat) a + S1x16x16.size a ≤ S3x16x16.size a
  h_S1x16x16 : 0 < S1x16x16.numel
  shapeCasts_S1x16x16_S16x16 : S1x16x16.ShapeCasts S16x16
  inb_S3x16_S1x16_0_0 : ∀ a, (![0, 0] : Fin 2 → Nat) a + S1x16.size a ≤ S3x16.size a
  h_S1x16 : 0 < S1x16.numel
  shapeCasts_S1x16_S16 : S1x16.ShapeCasts S16
  shapeCasts_S16_S16x1 : S16.ShapeCasts S16x1
  inb_S48x16_S48x16_0_0 : ∀ a, (![0, 0] : Fin 2 → Nat) a + S48x16.size a ≤ S48x16.size a
  h_S48x16 : 0 < S48x16.numel
  transposes_S48x16_p1_0_S16x48 : S48x16.Transposes [1, 0] S16x48
  bitsLt_bf16_f32 : FTy.bits .bf16 < FTy.bits .f32
  broadcasts_S16x1_S16x2048 : S16x1.Broadcasts S16x2048
  inb_S2x256x2048_S1x48x2048_0_16_0 : ∀ a, (![0, 16, 0] : Fin 3 → Nat) a + S1x48x2048.size a ≤ S2x256x2048.size a
  h_S1x48x2048 : 0 < S1x48x2048.numel
  shapeCasts_S1x48x2048_S48x2048 : S1x48x2048.ShapeCasts S48x2048
  inb_S2x256x2048_S1x48x2048_1_16_0 : ∀ a, (![1, 16, 0] : Fin 3 → Nat) a + S1x48x2048.size a ≤ S2x256x2048.size a
  shapeCasts_S48x2048_S1x48x2048 : S48x2048.ShapeCasts S1x48x2048
  inb_S3x16x16_S1x16x16_1_0_0 : ∀ a, (![1, 0, 0] : Fin 3 → Nat) a + S1x16x16.size a ≤ S3x16x16.size a
  inb_S3x16_S1x16_1_0 : ∀ a, (![1, 0] : Fin 2 → Nat) a + S1x16.size a ≤ S3x16.size a
  inb_S80x16_S80x16_0_0 : ∀ a, (![0, 0] : Fin 2 → Nat) a + S80x16.size a ≤ S80x16.size a
  h_S80x16 : 0 < S80x16.numel
  transposes_S80x16_p1_0_S16x80 : S80x16.Transposes [1, 0] S16x80
  inb_S2x256x2048_S1x80x2048_0_64_0 : ∀ a, (![0, 64, 0] : Fin 3 → Nat) a + S1x80x2048.size a ≤ S2x256x2048.size a
  h_S1x80x2048 : 0 < S1x80x2048.numel
  shapeCasts_S1x80x2048_S80x2048 : S1x80x2048.ShapeCasts S80x2048
  inb_S2x256x2048_S1x80x2048_1_64_0 : ∀ a, (![1, 64, 0] : Fin 3 → Nat) a + S1x80x2048.size a ≤ S2x256x2048.size a
  shapeCasts_S80x2048_S1x80x2048 : S80x2048.ShapeCasts S1x80x2048
  inb_S3x16x16_S1x16x16_2_0_0 : ∀ a, (![2, 0, 0] : Fin 3 → Nat) a + S1x16x16.size a ≤ S3x16x16.size a
  inb_S3x16_S1x16_2_0 : ∀ a, (![2, 0] : Fin 2 → Nat) a + S1x16.size a ≤ S3x16.size a
  inb_S112x16_S112x16_0_0 : ∀ a, (![0, 0] : Fin 2 → Nat) a + S112x16.size a ≤ S112x16.size a
  h_S112x16 : 0 < S112x16.numel
  transposes_S112x16_p1_0_S16x112 : S112x16.Transposes [1, 0] S16x112
  inb_S2x256x2048_S1x112x2048_0_144_0 : ∀ a, (![0, 144, 0] : Fin 3 → Nat) a + S1x112x2048.size a ≤ S2x256x2048.size a
  h_S1x112x2048 : 0 < S1x112x2048.numel
  shapeCasts_S1x112x2048_S112x2048 : S1x112x2048.ShapeCasts S112x2048
  inb_S2x256x2048_S1x112x2048_1_144_0 : ∀ a, (![1, 144, 0] : Fin 3 → Nat) a + S1x112x2048.size a ≤ S2x256x2048.size a
  shapeCasts_S112x2048_S1x112x2048 : S112x2048.ShapeCasts S1x112x2048
  shapeCasts_S2x256x131072_S2x256x4x128x256 : S2x256x131072.ShapeCasts S2x256x4x128x256
  transposes_S2x256x4x128x256_S4x256x128x256x2_2_1_3_4_0 : S2x256x4x128x256.Transposes [2, 1, 3, 4, 0] S4x256x128x256x2
  dot_S16x16_S16x2048_S16x2048_1_0_0_1_n_n_wf : DotDims.WF S16x16 S16x2048 S16x2048 [1] [0] [0] [1] [] []
  dot_S48x16_S16x2048_S48x2048_1_0_0_1_n_n_wf : DotDims.WF S48x16 S16x2048 S48x2048 [1] [0] [0] [1] [] []
  dot_S16x48_S48x2048_S16x2048_1_0_0_1_n_n_wf : DotDims.WF S16x48 S48x2048 S16x2048 [1] [0] [0] [1] [] []
  dot_S80x16_S16x2048_S80x2048_1_0_0_1_n_n_wf : DotDims.WF S80x16 S16x2048 S80x2048 [1] [0] [0] [1] [] []
  dot_S16x80_S80x2048_S16x2048_1_0_0_1_n_n_wf : DotDims.WF S16x80 S80x2048 S16x2048 [1] [0] [0] [1] [] []
  dot_S112x16_S16x2048_S112x2048_1_0_0_1_n_n_wf : DotDims.WF S112x16 S16x2048 S112x2048 [1] [0] [0] [1] [] []
  dot_S16x112_S112x2048_S16x2048_1_0_0_1_n_n_wf : DotDims.WF S16x112 S112x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2048.size a ≤ S2x256x131072.size a
  hwx0_0 : ∀ i : grid0.Coords, EltTy.bits .f32 = 32 ∨ (Rect.block (s := S2x256x131072) S2x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16x16.size a ≤ S3x16x16.size a
  hwx0_1 : ∀ i : grid0.Coords, EltTy.bits .f32 = 32 ∨ (Rect.block (s := S3x16x16) S3x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x16x16.size a ≤ S3x16x16.size a
  hwx0_2 : ∀ i : grid0.Coords, EltTy.bits .f32 = 32 ∨ (Rect.block (s := S3x16x16) S3x16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x16.size a ≤ S3x16.size a
  hwx0_4 : ∀ i : grid0.Coords, EltTy.bits .f32 = 32 ∨ (Rect.block (s := S3x16) S3x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x16.size a ≤ S48x16.size a
  hwx0_5 : ∀ i : grid0.Coords, EltTy.bits .f32 = 32 ∨ (Rect.block (s := S48x16) S48x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x16.size a ≤ S80x16.size a
  hwx0_6 : ∀ i : grid0.Coords, EltTy.bits .f32 = 32 ∨ (Rect.block (s := S80x16) S80x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S112x16.size a ≤ S112x16.size a
  hwx0_7 : ∀ i : grid0.Coords, EltTy.bits .f32 = 32 ∨ (Rect.block (s := S112x16) S112x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x256x2048.size a ≤ S2x256x131072.size a
  hwx0_8 : ∀ i : grid0.Coords, EltTy.bits .f32 = 32 ∨ (Rect.block (s := S2x256x131072) S2x256x2048.size (cc0_transform_8 i) (hinb0_8 i)).WholeWords (EltTy.packing .f32)

variable [Facts₀]

def dot_S16x16_S16x2048_S16x2048_1_0_0_1_n_n : DotDims S16x16 S16x2048 S16x2048 where
  lhsContracting := [1]
  rhsContracting := [0]
  lhsNonContracting := [0]
  rhsNonContracting := [1]
  lhsBatch := []
  rhsBatch := []
  wf := dot_S16x16_S16x2048_S16x2048_1_0_0_1_n_n_wf
def dot_S48x16_S16x2048_S48x2048_1_0_0_1_n_n : DotDims S48x16 S16x2048 S48x2048 where
  lhsContracting := [1]
  rhsContracting := [0]
  lhsNonContracting := [0]
  rhsNonContracting := [1]
  lhsBatch := []
  rhsBatch := []
  wf := dot_S48x16_S16x2048_S48x2048_1_0_0_1_n_n_wf
def dot_S16x48_S48x2048_S16x2048_1_0_0_1_n_n : DotDims S16x48 S48x2048 S16x2048 where
  lhsContracting := [1]
  rhsContracting := [0]
  lhsNonContracting := [0]
  rhsNonContracting := [1]
  lhsBatch := []
  rhsBatch := []
  wf := dot_S16x48_S48x2048_S16x2048_1_0_0_1_n_n_wf
def dot_S80x16_S16x2048_S80x2048_1_0_0_1_n_n : DotDims S80x16 S16x2048 S80x2048 where
  lhsContracting := [1]
  rhsContracting := [0]
  lhsNonContracting := [0]
  rhsNonContracting := [1]
  lhsBatch := []
  rhsBatch := []
  wf := dot_S80x16_S16x2048_S80x2048_1_0_0_1_n_n_wf
def dot_S16x80_S80x2048_S16x2048_1_0_0_1_n_n : DotDims S16x80 S80x2048 S16x2048 where
  lhsContracting := [1]
  rhsContracting := [0]
  lhsNonContracting := [0]
  rhsNonContracting := [1]
  lhsBatch := []
  rhsBatch := []
  wf := dot_S16x80_S80x2048_S16x2048_1_0_0_1_n_n_wf
def dot_S112x16_S16x2048_S112x2048_1_0_0_1_n_n : DotDims S112x16 S16x2048 S112x2048 where
  lhsContracting := [1]
  rhsContracting := [0]
  lhsNonContracting := [0]
  rhsNonContracting := [1]
  lhsBatch := []
  rhsBatch := []
  wf := dot_S112x16_S16x2048_S112x2048_1_0_0_1_n_n_wf
def dot_S16x112_S112x2048_S16x2048_1_0_0_1_n_n : DotDims S16x112 S112x2048 S16x2048 where
  lhsContracting := [1]
  rhsContracting := [0]
  lhsNonContracting := [0]
  rhsNonContracting := [1]
  lhsBatch := []
  rhsBatch := []
  wf := dot_S16x112_S112x2048_S16x2048_1_0_0_1_n_n_wf

abbrev win0_0 : Pipeline.Window sig grid0 :=
  Pipeline.Window.ofSpec (Memref.whole main_v1) S2x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst) S48x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst_0) S80x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_1) S112x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2x256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x256x128x256x2 : Shape := ⟨5, ![4, 256, 128, 256, 2]⟩
abbrev S4x16x16 : Shape := ⟨3, ![4, 16, 16]⟩
abbrev S4x16 : Shape := ⟨2, ![4, 16]⟩
abbrev S4x128x256x256x2 : Shape := ⟨5, ![4, 128, 256, 256, 2]⟩
abbrev S131072x256x2 : Shape := ⟨3, ![131072, 256, 2]⟩
abbrev S131072x16x2 : Shape := ⟨3, ![131072, 16, 2]⟩
abbrev S131072x16x1 : Shape := ⟨3, ![131072, 16, 1]⟩
abbrev S131072x16 : Shape := ⟨2, ![131072, 16]⟩
abbrev S131072x48x2 : Shape := ⟨3, ![131072, 48, 2]⟩
abbrev S131072x16x3x2 : Shape := ⟨4, ![131072, 16, 3, 2]⟩
abbrev S1x16x16 : Shape := ⟨3, ![1, 16, 16]⟩
abbrev S16x16 : Shape := ⟨2, ![16, 16]⟩
abbrev S1x16 : Shape := ⟨2, ![1, 16]⟩
abbrev S16 : Shape := ⟨1, ![16]⟩
abbrev S131072x16x3x1 : Shape := ⟨4, ![131072, 16, 3, 1]⟩
abbrev S131072x16x3 : Shape := ⟨3, ![131072, 16, 3]⟩
abbrev S_ : Shape := ⟨0, ![]⟩
abbrev S131072x16x1x1 : Shape := ⟨4, ![131072, 16, 1, 1]⟩
abbrev S131072x80x2 : Shape := ⟨3, ![131072, 80, 2]⟩
abbrev S131072x16x5x2 : Shape := ⟨4, ![131072, 16, 5, 2]⟩
abbrev S131072x16x5x1 : Shape := ⟨4, ![131072, 16, 5, 1]⟩
abbrev S131072x16x5 : Shape := ⟨3, ![131072, 16, 5]⟩
abbrev S131072x112x2 : Shape := ⟨3, ![131072, 112, 2]⟩
abbrev S131072x16x7x2 : Shape := ⟨4, ![131072, 16, 7, 2]⟩
abbrev S131072x16x7x1 : Shape := ⟨4, ![131072, 16, 7, 1]⟩
abbrev S131072x16x7 : Shape := ⟨3, ![131072, 16, 7]⟩

abbrev nBuf : Space → Nat
  | .hbm => 240
  | .vmem => 0
  | .smem => 0
  | _ => 0

abbrev hbmTy0_0 (i : Nat) : BufTy := match i % 128 with
  | 0 => ⟨S4x256x128x256x2, .f32⟩
  | 1 => ⟨S4x16x16, .f32⟩
  | 2 => ⟨S4x16, .f32⟩
  | 3 => ⟨S4x16x16, .f32⟩
  | 4 => ⟨S4x16, .f32⟩
  | 5 => ⟨S4x128x256x256x2, .f32⟩
  | 6 => ⟨S131072x256x2, .f32⟩
  | 7 => ⟨S131072x16x2, .f32⟩
  | 8 => ⟨S131072x16x1, .f32⟩
  | 9 => ⟨S131072x16, .f32⟩
  | 10 => ⟨S131072x16x1, .f32⟩
  | 11 => ⟨S131072x16, .f32⟩
  | 12 => ⟨S131072x48x2, .f32⟩
  | 13 => ⟨S131072x16x3x2, .f32⟩
  | 14 => ⟨S1x16x16, .f32⟩
  | 15 => ⟨S16x16, .f32⟩
  | 16 => ⟨S16x16, .f32⟩
  | 17 => ⟨S131072x16, .f32⟩
  | 18 => ⟨S1x16, .f32⟩
  | 19 => ⟨S16, .f32⟩
  | 20 => ⟨S1x16, .f32⟩
  | 21 => ⟨S131072x16, .f32⟩
  | 22 => ⟨S131072x16, .f32⟩
  | 23 => ⟨S1x16x16, .f32⟩
  | 24 => ⟨S16x16, .f32⟩
  | 25 => ⟨S16x16, .f32⟩
  | 26 => ⟨S131072x16, .f32⟩
  | 27 => ⟨S1x16, .f32⟩
  | 28 => ⟨S16, .f32⟩
  | 29 => ⟨S1x16, .f32⟩
  | 30 => ⟨S131072x16, .f32⟩
  | 31 => ⟨S131072x16, .f32⟩
  | 32 => ⟨S1x16x16, .f32⟩
  | 33 => ⟨S16x16, .f32⟩
  | 34 => ⟨S16x16, .f32⟩
  | 35 => ⟨S131072x16, .f32⟩
  | 36 => ⟨S1x16, .f32⟩
  | 37 => ⟨S16, .f32⟩
  | 38 => ⟨S1x16, .f32⟩
  | 39 => ⟨S131072x16, .f32⟩
  | 40 => ⟨S131072x16, .f32⟩
  | 41 => ⟨S1x16x16, .f32⟩
  | 42 => ⟨S16x16, .f32⟩
  | 43 => ⟨S16x16, .f32⟩
  | 44 => ⟨S131072x16, .f32⟩
  | 45 => ⟨S1x16, .f32⟩
  | 46 => ⟨S16, .f32⟩
  | 47 => ⟨S1x16, .f32⟩
  | 48 => ⟨S131072x16, .f32⟩
  | 49 => ⟨S131072x16, .f32⟩
  | 50 => ⟨S131072x16, .f32⟩
  | 51 => ⟨S131072x16x1, .f32⟩
  | 52 => ⟨S131072x16, .f32⟩
  | 53 => ⟨S131072x16x1, .f32⟩
  | 54 => ⟨S131072x16x3x1, .f32⟩
  | 55 => ⟨S131072x16x3, .f32⟩
  | 56 => ⟨S131072x16x3, .f32⟩
  | 57 => ⟨S131072x16x3, .f32⟩
  | 58 => ⟨S131072x16x3x1, .f32⟩
  | 59 => ⟨S131072x16x3, .f32⟩
  | 60 => ⟨S131072x16x3, .f32⟩
  | 61 => ⟨S131072x16x3, .f32⟩
  | 62 => ⟨S131072x16x3, .f32⟩
  | 63 => ⟨S131072x16x3x1, .f32⟩
  | 64 => ⟨S131072x16x3, .f32⟩
  | 65 => ⟨S131072x16x3, .f32⟩
  | 66 => ⟨S131072x16x3, .f32⟩
  | 67 => ⟨S131072x16x3x1, .f32⟩
  | 68 => ⟨S131072x16x3, .f32⟩
  | 69 => ⟨S131072x16x3, .f32⟩
  | 70 => ⟨S131072x16x3, .f32⟩
  | 71 => ⟨S131072x16x3, .f32⟩
  | 72 => ⟨S131072x16x3x1, .f32⟩
  | 73 => ⟨S131072x16x3x1, .f32⟩
  | 74 => ⟨S131072x16x3x2, .f32⟩
  | 75 => ⟨S131072x16x3x2, .f32⟩
  | 76 => ⟨S_, .f32⟩
  | 77 => ⟨S131072x16, .f32⟩
  | 78 => ⟨S131072x16, .f32⟩
  | 79 => ⟨S131072x16, .f32⟩
  | 80 => ⟨S131072x16x1x1, .f32⟩
  | 81 => ⟨S_, .f32⟩
  | 82 => ⟨S131072x16x1x1, .f32⟩
  | 83 => ⟨S131072x16x1x1, .f32⟩
  | 84 => ⟨S131072x16x3x2, .f32⟩
  | 85 => ⟨S131072x16x3x2, .f32⟩
  | 86 => ⟨S131072x48x2, .f32⟩
  | 87 => ⟨S131072x80x2, .f32⟩
  | 88 => ⟨S131072x16x5x2, .f32⟩
  | 89 => ⟨S1x16x16, .f32⟩
  | 90 => ⟨S16x16, .f32⟩
  | 91 => ⟨S16x16, .f32⟩
  | 92 => ⟨S131072x16, .f32⟩
  | 93 => ⟨S1x16, .f32⟩
  | 94 => ⟨S16, .f32⟩
  | 95 => ⟨S1x16, .f32⟩
  | 96 => ⟨S131072x16, .f32⟩
  | 97 => ⟨S131072x16, .f32⟩
  | 98 => ⟨S1x16x16, .f32⟩
  | 99 => ⟨S16x16, .f32⟩
  | 100 => ⟨S16x16, .f32⟩
  | 101 => ⟨S131072x16, .f32⟩
  | 102 => ⟨S1x16, .f32⟩
  | 103 => ⟨S16, .f32⟩
  | 104 => ⟨S1x16, .f32⟩
  | 105 => ⟨S131072x16, .f32⟩
  | 106 => ⟨S131072x16, .f32⟩
  | 107 => ⟨S1x16x16, .f32⟩
  | 108 => ⟨S16x16, .f32⟩
  | 109 => ⟨S16x16, .f32⟩
  | 110 => ⟨S131072x16, .f32⟩
  | 111 => ⟨S1x16, .f32⟩
  | 112 => ⟨S16, .f32⟩
  | 113 => ⟨S1x16, .f32⟩
  | 114 => ⟨S131072x16, .f32⟩
  | 115 => ⟨S131072x16, .f32⟩
  | 116 => ⟨S1x16x16, .f32⟩
  | 117 => ⟨S16x16, .f32⟩
  | 118 => ⟨S16x16, .f32⟩
  | 119 => ⟨S131072x16, .f32⟩
  | 120 => ⟨S1x16, .f32⟩
  | 121 => ⟨S16, .f32⟩
  | 122 => ⟨S1x16, .f32⟩
  | 123 => ⟨S131072x16, .f32⟩
  | 124 => ⟨S131072x16, .f32⟩
  | 125 => ⟨S131072x16, .f32⟩
  | 126 => ⟨S131072x16x1, .f32⟩
  | 127 => ⟨S131072x16, .f32⟩
  | _ => ⟨S4x256x128x256x2, .f32⟩

abbrev hbmTy0_1 (i : Nat) : BufTy := match i % 128 with
  | 0 => ⟨S131072x16x1, .f32⟩
  | 1 => ⟨S131072x16x5x1, .f32⟩
  | 2 => ⟨S131072x16x5, .f32⟩
  | 3 => ⟨S131072x16x5, .f32⟩
  | 4 => ⟨S131072x16x5, .f32⟩
  | 5 => ⟨S131072x16x5x1, .f32⟩
  | 6 => ⟨S131072x16x5, .f32⟩
  | 7 => ⟨S131072x16x5, .f32⟩
  | 8 => ⟨S131072x16x5, .f32⟩
  | 9 => ⟨S131072x16x5, .f32⟩
  | 10 => ⟨S131072x16x5x1, .f32⟩
  | 11 => ⟨S131072x16x5, .f32⟩
  | 12 => ⟨S131072x16x5, .f32⟩
  | 13 => ⟨S131072x16x5, .f32⟩
  | 14 => ⟨S131072x16x5x1, .f32⟩
  | 15 => ⟨S131072x16x5, .f32⟩
  | 16 => ⟨S131072x16x5, .f32⟩
  | 17 => ⟨S131072x16x5, .f32⟩
  | 18 => ⟨S131072x16x5, .f32⟩
  | 19 => ⟨S131072x16x5x1, .f32⟩
  | 20 => ⟨S131072x16x5x1, .f32⟩
  | 21 => ⟨S131072x16x5x2, .f32⟩
  | 22 => ⟨S131072x16x5x2, .f32⟩
  | 23 => ⟨S_, .f32⟩
  | 24 => ⟨S131072x16, .f32⟩
  | 25 => ⟨S131072x16, .f32⟩
  | 26 => ⟨S131072x16, .f32⟩
  | 27 => ⟨S131072x16x1x1, .f32⟩
  | 28 => ⟨S_, .f32⟩
  | 29 => ⟨S131072x16x1x1, .f32⟩
  | 30 => ⟨S131072x16x1x1, .f32⟩
  | 31 => ⟨S131072x16x5x2, .f32⟩
  | 32 => ⟨S131072x16x5x2, .f32⟩
  | 33 => ⟨S131072x80x2, .f32⟩
  | 34 => ⟨S131072x112x2, .f32⟩
  | 35 => ⟨S131072x16x7x2, .f32⟩
  | 36 => ⟨S1x16x16, .f32⟩
  | 37 => ⟨S16x16, .f32⟩
  | 38 => ⟨S16x16, .f32⟩
  | 39 => ⟨S131072x16, .f32⟩
  | 40 => ⟨S1x16, .f32⟩
  | 41 => ⟨S16, .f32⟩
  | 42 => ⟨S1x16, .f32⟩
  | 43 => ⟨S131072x16, .f32⟩
  | 44 => ⟨S131072x16, .f32⟩
  | 45 => ⟨S1x16x16, .f32⟩
  | 46 => ⟨S16x16, .f32⟩
  | 47 => ⟨S16x16, .f32⟩
  | 48 => ⟨S131072x16, .f32⟩
  | 49 => ⟨S1x16, .f32⟩
  | 50 => ⟨S16, .f32⟩
  | 51 => ⟨S1x16, .f32⟩
  | 52 => ⟨S131072x16, .f32⟩
  | 53 => ⟨S131072x16, .f32⟩
  | 54 => ⟨S1x16x16, .f32⟩
  | 55 => ⟨S16x16, .f32⟩
  | 56 => ⟨S16x16, .f32⟩
  | 57 => ⟨S131072x16, .f32⟩
  | 58 => ⟨S1x16, .f32⟩
  | 59 => ⟨S16, .f32⟩
  | 60 => ⟨S1x16, .f32⟩
  | 61 => ⟨S131072x16, .f32⟩
  | 62 => ⟨S131072x16, .f32⟩
  | 63 => ⟨S1x16x16, .f32⟩
  | 64 => ⟨S16x16, .f32⟩
  | 65 => ⟨S16x16, .f32⟩
  | 66 => ⟨S131072x16, .f32⟩
  | 67 => ⟨S1x16, .f32⟩
  | 68 => ⟨S16, .f32⟩
  | 69 => ⟨S1x16, .f32⟩
  | 70 => ⟨S131072x16, .f32⟩
  | 71 => ⟨S131072x16, .f32⟩
  | 72 => ⟨S131072x16, .f32⟩
  | 73 => ⟨S131072x16x1, .f32⟩
  | 74 => ⟨S131072x16, .f32⟩
  | 75 => ⟨S131072x16x1, .f32⟩
  | 76 => ⟨S131072x16x7x1, .f32⟩
  | 77 => ⟨S131072x16x7, .f32⟩
  | 78 => ⟨S131072x16x7, .f32⟩
  | 79 => ⟨S131072x16x7, .f32⟩
  | 80 => ⟨S131072x16x7x1, .f32⟩
  | 81 => ⟨S131072x16x7, .f32⟩
  | 82 => ⟨S131072x16x7, .f32⟩
  | 83 => ⟨S131072x16x7, .f32⟩
  | 84 => ⟨S131072x16x7, .f32⟩
  | 85 => ⟨S131072x16x7x1, .f32⟩
  | 86 => ⟨S131072x16x7, .f32⟩
  | 87 => ⟨S131072x16x7, .f32⟩
  | 88 => ⟨S131072x16x7, .f32⟩
  | 89 => ⟨S131072x16x7x1, .f32⟩
  | 90 => ⟨S131072x16x7, .f32⟩
  | 91 => ⟨S131072x16x7, .f32⟩
  | 92 => ⟨S131072x16x7, .f32⟩
  | 93 => ⟨S131072x16x7, .f32⟩
  | 94 => ⟨S131072x16x7x1, .f32⟩
  | 95 => ⟨S131072x16x7x1, .f32⟩
  | 96 => ⟨S131072x16x7x2, .f32⟩
  | 97 => ⟨S131072x16x7x2, .f32⟩
  | 98 => ⟨S_, .f32⟩
  | 99 => ⟨S131072x16, .f32⟩
  | 100 => ⟨S131072x16, .f32⟩
  | 101 => ⟨S131072x16, .f32⟩
  | 102 => ⟨S131072x16x1x1, .f32⟩
  | 103 => ⟨S_, .f32⟩
  | 104 => ⟨S131072x16x1x1, .f32⟩
  | 105 => ⟨S131072x16x1x1, .f32⟩
  | 106 => ⟨S131072x16x7x2, .f32⟩
  | 107 => ⟨S131072x16x7x2, .f32⟩
  | 108 => ⟨S131072x112x2, .f32⟩
  | 109 => ⟨S131072x256x2, .f32⟩
  | 110 => ⟨S4x128x256x256x2, .f32⟩
  | 111 => ⟨S4x256x128x256x2, .f32⟩
  | _ => ⟨S4x256x128x256x2, .f32⟩

abbrev hbmTy (i : Nat) : BufTy := match i / 128 with
  | 0 => hbmTy0_0 i
  | 1 => hbmTy0_1 i
  | _ => ⟨S4x256x128x256x2, .f32⟩

abbrev bufTy : (tb : Table) → Fin (tcTables nBuf tb) → BufTy
  | .hbm, ⟨i, _⟩ => hbmTy i
  | _, _ => ⟨S4x256x128x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_cst : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_0 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_cst_1 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_cst_2 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_cst_3 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_cst_4 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩

abbrev nD : Nat := 1
abbrev τ : Topo := Topo.v7x

variable {F : FTy → Type} [FloatOps F]

class Facts₀ : Prop where
  transposes_S4x256x128x256x2_S4x128x256x256x2_0_2_3_1_4 : S4x256x128x256x2.Transposes [0, 2, 3, 1, 4] S4x128x256x256x2
  shapeCasts_S4x128x256x256x2_S131072x256x2 : S4x128x256x256x2.ShapeCasts S131072x256x2
  slices_S131072x256x2_S131072x16x2_0_0_0 : S131072x256x2.Slices ![0, 0, 0] S131072x16x2
  slices_S131072x16x2_S131072x16x1_0_0_0 : S131072x16x2.Slices ![0, 0, 0] S131072x16x1
  shapeCasts_S131072x16x1_S131072x16 : S131072x16x1.ShapeCasts S131072x16
  slices_S131072x16x2_S131072x16x1_0_0_1 : S131072x16x2.Slices ![0, 0, 1] S131072x16x1
  slices_S131072x256x2_S131072x48x2_0_16_0 : S131072x256x2.Slices ![0, 16, 0] S131072x48x2
  shapeCasts_S131072x48x2_S131072x16x3x2 : S131072x48x2.ShapeCasts S131072x16x3x2
  slices_S4x16x16_S1x16x16_1_0_0 : S4x16x16.Slices ![1, 0, 0] S1x16x16
  shapeCasts_S1x16x16_S16x16 : S1x16x16.ShapeCasts S16x16
  transposes_S16x16_S16x16_1_0 : S16x16.Transposes [1, 0] S16x16
  slices_S4x16_S1x16_1_0 : S4x16.Slices ![1, 0] S1x16
  shapeCasts_S1x16_S16 : S1x16.ShapeCasts S16
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S131072x16_S131072x16x1_0_1 : S131072x16.BroadcastsInDim S131072x16x1 (![0, 1] : Fin 2 → Fin S131072x16x1.rank)
  slices_S131072x16x3x2_S131072x16x3x1_0_0_0_0 : S131072x16x3x2.Slices ![0, 0, 0, 0] S131072x16x3x1
  shapeCasts_S131072x16x3x1_S131072x16x3 : S131072x16x3x1.ShapeCasts S131072x16x3
  bcast_S131072x16x1_S131072x16x3_0_1_2 : S131072x16x1.BroadcastsInDim S131072x16x3 (![0, 1, 2] : Fin 3 → Fin S131072x16x3.rank)
  slices_S131072x16x3x2_S131072x16x3x1_0_0_0_1 : S131072x16x3x2.Slices ![0, 0, 0, 1] S131072x16x3x1
  bcast_S131072x16x3_S131072x16x3x1_0_1_2 : S131072x16x3.BroadcastsInDim S131072x16x3x1 (![0, 1, 2] : Fin 3 → Fin S131072x16x3x1.rank)
  concatenates_S131072x16x3x1_S131072x16x3x1_S131072x16x3x2_d3 : Shape.Concatenates [S131072x16x3x1, S131072x16x3x1] S131072x16x3x2 3
  reducesTo_S131072x16x3x2_S131072x16_d2_3 : S131072x16x3x2.ReducesTo [2, 3] S131072x16
  h_S_ : 0 < S_.numel
  bcast_S131072x16_S131072x16x1x1_0_1 : S131072x16.BroadcastsInDim S131072x16x1x1 (![0, 1] : Fin 2 → Fin S131072x16x1x1.rank)
  bcast_S_S131072x16x1x1 : S_.BroadcastsInDim S131072x16x1x1 (![] : Fin 0 → Fin S131072x16x1x1.rank)
  bcast_S131072x16x1x1_S131072x16x3x2_0_1_2_3 : S131072x16x1x1.BroadcastsInDim S131072x16x3x2 (![0, 1, 2, 3] : Fin 4 → Fin S131072x16x3x2.rank)
  shapeCasts_S131072x16x3x2_S131072x48x2 : S131072x16x3x2.ShapeCasts S131072x48x2
  slices_S131072x256x2_S131072x80x2_0_64_0 : S131072x256x2.Slices ![0, 64, 0] S131072x80x2
  shapeCasts_S131072x80x2_S131072x16x5x2 : S131072x80x2.ShapeCasts S131072x16x5x2
  slices_S4x16x16_S1x16x16_2_0_0 : S4x16x16.Slices ![2, 0, 0] S1x16x16
  slices_S4x16_S1x16_2_0 : S4x16.Slices ![2, 0] S1x16
  slices_S131072x16x5x2_S131072x16x5x1_0_0_0_0 : S131072x16x5x2.Slices ![0, 0, 0, 0] S131072x16x5x1
  shapeCasts_S131072x16x5x1_S131072x16x5 : S131072x16x5x1.ShapeCasts S131072x16x5
  bcast_S131072x16x1_S131072x16x5_0_1_2 : S131072x16x1.BroadcastsInDim S131072x16x5 (![0, 1, 2] : Fin 3 → Fin S131072x16x5.rank)
  slices_S131072x16x5x2_S131072x16x5x1_0_0_0_1 : S131072x16x5x2.Slices ![0, 0, 0, 1] S131072x16x5x1
  bcast_S131072x16x5_S131072x16x5x1_0_1_2 : S131072x16x5.BroadcastsInDim S131072x16x5x1 (![0, 1, 2] : Fin 3 → Fin S131072x16x5x1.rank)
  concatenates_S131072x16x5x1_S131072x16x5x1_S131072x16x5x2_d3 : Shape.Concatenates [S131072x16x5x1, S131072x16x5x1] S131072x16x5x2 3
  reducesTo_S131072x16x5x2_S131072x16_d2_3 : S131072x16x5x2.ReducesTo [2, 3] S131072x16
  bcast_S131072x16x1x1_S131072x16x5x2_0_1_2_3 : S131072x16x1x1.BroadcastsInDim S131072x16x5x2 (![0, 1, 2, 3] : Fin 4 → Fin S131072x16x5x2.rank)
  shapeCasts_S131072x16x5x2_S131072x80x2 : S131072x16x5x2.ShapeCasts S131072x80x2
  slices_S131072x256x2_S131072x112x2_0_144_0 : S131072x256x2.Slices ![0, 144, 0] S131072x112x2
  shapeCasts_S131072x112x2_S131072x16x7x2 : S131072x112x2.ShapeCasts S131072x16x7x2
  slices_S4x16x16_S1x16x16_3_0_0 : S4x16x16.Slices ![3, 0, 0] S1x16x16
  slices_S4x16_S1x16_3_0 : S4x16.Slices ![3, 0] S1x16
  slices_S131072x16x7x2_S131072x16x7x1_0_0_0_0 : S131072x16x7x2.Slices ![0, 0, 0, 0] S131072x16x7x1
  shapeCasts_S131072x16x7x1_S131072x16x7 : S131072x16x7x1.ShapeCasts S131072x16x7
  bcast_S131072x16x1_S131072x16x7_0_1_2 : S131072x16x1.BroadcastsInDim S131072x16x7 (![0, 1, 2] : Fin 3 → Fin S131072x16x7.rank)
  slices_S131072x16x7x2_S131072x16x7x1_0_0_0_1 : S131072x16x7x2.Slices ![0, 0, 0, 1] S131072x16x7x1
  bcast_S131072x16x7_S131072x16x7x1_0_1_2 : S131072x16x7.BroadcastsInDim S131072x16x7x1 (![0, 1, 2] : Fin 3 → Fin S131072x16x7x1.rank)
  concatenates_S131072x16x7x1_S131072x16x7x1_S131072x16x7x2_d3 : Shape.Concatenates [S131072x16x7x1, S131072x16x7x1] S131072x16x7x2 3
  reducesTo_S131072x16x7x2_S131072x16_d2_3 : S131072x16x7x2.ReducesTo [2, 3] S131072x16
  bcast_S131072x16x1x1_S131072x16x7x2_0_1_2_3 : S131072x16x1x1.BroadcastsInDim S131072x16x7x2 (![0, 1, 2, 3] : Fin 4 → Fin S131072x16x7x2.rank)
  shapeCasts_S131072x16x7x2_S131072x112x2 : S131072x16x7x2.ShapeCasts S131072x112x2
  concatenates_S131072x16x2_S131072x48x2_S131072x80x2_S131072x112x2_S131072x256x2_d1 : Shape.Concatenates [S131072x16x2, S131072x48x2, S131072x80x2, S131072x112x2] S131072x256x2 1
  shapeCasts_S131072x256x2_S4x128x256x256x2 : S131072x256x2.ShapeCasts S4x128x256x256x2
  transposes_S4x128x256x256x2_S4x256x128x256x2_0_3_1_2_4 : S4x128x256x256x2.Transposes [0, 3, 1, 2, 4] S4x256x128x256x2
  dot_S131072x16_S16x16_S131072x16_1_0_0_1_n_n_wf : DotDims.WF S131072x16 S16x16 S131072x16 [1] [0] [0] [1] [] []

variable [Facts₀]

def dot_S131072x16_S16x16_S131072x16_1_0_0_1_n_n : DotDims S131072x16 S16x16 S131072x16 where
  lhsContracting := [1]
  rhsContracting := [0]
  lhsNonContracting := [0]
  rhsNonContracting := [1]
  lhsBatch := []
  rhsBatch := []
  wf := dot_S131072x16_S16x16_S131072x16_1_0_0_1_n_n_wf

class Facts : Prop extends Facts₀ where

variable [Facts]
-- ==== Proof.Spec.lean ====
/-
  The function both programs compute, token by token.

  A token carries 256 complex channels. The first sixteen (the scalar features) pass through unchanged. The other
  240 fall into three groups of sixteen features with 3, 5 and 7 components each (channels 16…63, 64…143, 144…255,
  feature-major). For a group, two affine 16→16 layers applied to the real and to the imaginary parts of the scalar
  features give one complex gate per feature,  a = (L_re(re x₀) − L_im(im x₀)) + i·(L_im(re x₀) + L_re(im x₀));
  every component of the feature is multiplied by the gate as a complex number, and the feature is then divided by
  ε plus the fourth root of its energy (the sum over its components of |y|²).
-/
import Idealize.ShloMosaic.PureOps.Ideal
import Idealize.ShloMosaic.Lib.ValueIdx

noncomputable section

open scoped BigOperators

namespace Cert.Spec

open Idealize.ShloMosaic

/-- The stabiliser ε added to the fourth root of a feature's energy (the binary32 value nearest 1e-5). -/
def eps : EReal := Ideal.ofBits .f32 0x3727C5AC#32

/-- A 16→16 affine layer on a token's sixteen scalar features: output feature `k` is Σ_i v i · W k i + b k. -/
def lin (W : Fin 16 → Fin 16 → EReal) (b : Fin 16 → EReal) (v : Fin 16 → EReal) (k : Fin 16) : EReal :=
  (∑ i : Fin 16, v i * W k i) + b k

/-- The gate's real part for feature `k`. -/
def gateRe (Wre Wim : Fin 16 → Fin 16 → EReal) (bre bim : Fin 16 → EReal) (rex imx : Fin 16 → EReal) (k : Fin 16) : EReal :=
  lin Wre bre rex k - lin Wim bim imx k

/-- The gate's imaginary part for feature `k`. -/
def gateIm (Wre Wim : Fin 16 → Fin 16 → EReal) (bre bim : Fin 16 → EReal) (rex imx : Fin 16 → EReal) (k : Fin 16) : EReal :=
  lin Wim bim rex k + lin Wre bre imx k

/-- Real part of (xr + i·xi)(are + i·aim). -/
def modRe (are aim xr xi : EReal) : EReal := xr * are - xi * aim

/-- Imaginary part of (xr + i·xi)(are + i·aim). -/
def modIm (are aim xr xi : EReal) : EReal := xi * are + xr * aim

/-- The energy of a feature: the sum over its components of re² + im² of the modulated value. -/
def energy {m : ℕ} (are aim : EReal) (xr xi : Fin m → EReal) : EReal :=
  ∑ j : Fin m, (modRe are aim (xr j) (xi j) * modRe are aim (xr j) (xi j)
    + modIm are aim (xr j) (xi j) * modIm are aim (xr j) (xi j))

/-- What a feature is divided by: ε plus the fourth root of its energy. -/
def denom {m : ℕ} (are aim : EReal) (xr xi : Fin m → EReal) : EReal :=
  eps + Ideal.sqrt (Ideal.sqrt (energy are aim xr xi))

/-- One output entry of a group: component `j` of feature `k`, real (`c = 0`) or imaginary part. -/
def tokOut {m : ℕ} (Wre Wim : Fin 16 → Fin 16 → EReal) (bre bim : Fin 16 → EReal) (rex imx : Fin 16 → EReal)
    (xr xi : Fin 16 → Fin m → EReal) (k : Fin 16) (j : Fin m) (c : Fin 2) : EReal :=
  Ideal.div
    (if c.val = 0 then modRe (gateRe Wre Wim bre bim rex imx k) (gateIm Wre Wim bre bim rex imx k) (xr k j) (xi k j)
      else modIm (gateRe Wre Wim bre bim rex imx k) (gateIm Wre Wim bre bim rex imx k) (xr k j) (xi k j))
    (denom (gateRe Wre Wim bre bim rex imx k) (gateIm Wre Wim bre bim rex imx k) (xr k) (xi k))

/-- Component `j` of feature `k` of the group starting at channel `base` is channel `base + k·m + j`. -/
theorem chan_lt {m base : ℕ} (h : base + 16 * m ≤ 256) (k : Fin 16) (j : Fin m) : base + k.val * m + j.val < 256 := by
  have hk := k.isLt
  have hj := j.isLt
  have h1 : (k.val + 1) * m ≤ 16 * m := Nat.mul_le_mul_right m (by omega)
  rw [Nat.add_mul, Nat.one_mul] at h1
  omega

/-- The channel of component `j` of feature `k`. -/
def chan {m base : ℕ} (h : base + 16 * m ≤ 256) (k : Fin 16) (j : Fin m) : Fin 256 :=
  ⟨base + k.val * m + j.val, chan_lt h k j⟩

theorem lt256_of_lt16 (i : Fin 16) : i.val < 256 := by have := i.isLt; omega

/-- A group's output entry as a function of the token-major input `X n ch c`, of the layer `g` of the weights, and of
    the group's geometry (`m` components per feature, first channel `base`). -/
def grp (m base : ℕ) (h : base + 16 * m ≤ 256) (g : Fin 4)
    (X : Fin 131072 → Fin 256 → Fin 2 → EReal) (Wre Wim : Fin 4 → Fin 16 → Fin 16 → EReal) (bre bim : Fin 4 → Fin 16 → EReal)
    (n : Fin 131072) (k : Fin 16) (j : Fin m) (c : Fin 2) : EReal :=
  tokOut (Wre g) (Wim g) (bre g) (bim g)
    (fun i => X n ⟨i.val, lt256_of_lt16 i⟩ 0) (fun i => X n ⟨i.val, lt256_of_lt16 i⟩ 1)
    (fun k j => X n (chan h k j) 0) (fun k j => X n (chan h k j) 1) k j c

/-- THE RESULT, token-major: entry (n, ch, c). -/
def Out (X : Fin 131072 → Fin 256 → Fin 2 → EReal) (Wre Wim : Fin 4 → Fin 16 → Fin 16 → EReal) (bre bim : Fin 4 → Fin 16 → EReal)
    (n : Fin 131072) (ch : Fin 256) (c : Fin 2) : EReal :=
  if ch.val < 16 then X n ch c
  else if h1 : ch.val < 64 then
    grp 3 16 (by decide) 1 X Wre Wim bre bim n ⟨(ch.val - 16) / 3, by omega⟩ ⟨(ch.val - 16) % 3, Nat.mod_lt _ (by decide)⟩ c
  else if h2 : ch.val < 144 then
    grp 5 64 (by decide) 2 X Wre Wim bre bim n ⟨(ch.val - 64) / 5, by omega⟩ ⟨(ch.val - 64) % 5, Nat.mod_lt _ (by decide)⟩ c
  else
    grp 7 144 (by decide) 3 X Wre Wim bre bim n ⟨(ch.val - 144) / 7, by have := ch.isLt; omega⟩ ⟨(ch.val - 144) % 7, Nat.mod_lt _ (by decide)⟩ c

/-- The scalar features pass through. -/
theorem Out_scalar (X : Fin 131072 → Fin 256 → Fin 2 → EReal) (Wre Wim : Fin 4 → Fin 16 → Fin 16 → EReal) (bre bim : Fin 4 → Fin 16 → EReal)
    (n : Fin 131072) (ch : Fin 256) (c : Fin 2) (h : ch.val < 16) : Out X Wre Wim bre bim n ch c = X n ch c := by
  unfold Out; rw [if_pos h]

/-- The first group: channel 16 + 3k + j. -/
theorem Out_g1 (X : Fin 131072 → Fin 256 → Fin 2 → EReal) (Wre Wim : Fin 4 → Fin 16 → Fin 16 → EReal) (bre bim : Fin 4 → Fin 16 → EReal)
    (n : Fin 131072) (k : Fin 16) (j : Fin 3) (c : Fin 2) :
    Out X Wre Wim bre bim n (chan (m := 3) (base := 16) (by decide) k j) c = grp 3 16 (by decide) 1 X Wre Wim bre bim n k j c := by
  have hk := k.isLt; have hj := j.isLt
  unfold Out
  have e : (chan (m := 3) (base := 16) (by decide) k j).val = 16 + k.val * 3 + j.val := rfl
  rw [if_neg (by rw [e]; omega), dif_pos (by rw [e]; omega)]
  congr 1
  · exact Fin.ext (by show (16 + k.val * 3 + j.val - 16) / 3 = k.val; omega)
  · exact Fin.ext (by show (16 + k.val * 3 + j.val - 16) % 3 = j.val; omega)

/-- The second group: channel 64 + 5k + j. -/
theorem Out_g2 (X : Fin 131072 → Fin 256 → Fin 2 → EReal) (Wre Wim : Fin 4 → Fin 16 → Fin 16 → EReal) (bre bim : Fin 4 → Fin 16 → EReal)
    (n : Fin 131072) (k : Fin 16) (j : Fin 5) (c : Fin 2) :
    Out X Wre Wim bre bim n (chan (m := 5) (base := 64) (by decide) k j) c = grp 5 64 (by decide) 2 X Wre Wim bre bim n k j c := by
  have hk := k.isLt; have hj := j.isLt
  unfold Out
  have e : (chan (m := 5) (base := 64) (by decide) k j).val = 64 + k.val * 5 + j.val := rfl
  rw [if_neg (by rw [e]; omega), dif_neg (by rw [e]; omega), dif_pos (by rw [e]; omega)]
  congr 1
  · exact Fin.ext (by show (64 + k.val * 5 + j.val - 64) / 5 = k.val; omega)
  · exact Fin.ext (by show (64 + k.val * 5 + j.val - 64) % 5 = j.val; omega)

/-- The third group: channel 144 + 7k + j. -/
theorem Out_g3 (X : Fin 131072 → Fin 256 → Fin 2 → EReal) (Wre Wim : Fin 4 → Fin 16 → Fin 16 → EReal) (bre bim : Fin 4 → Fin 16 → EReal)
    (n : Fin 131072) (k : Fin 16) (j : Fin 7) (c : Fin 2) :
    Out X Wre Wim bre bim n (chan (m := 7) (base := 144) (by decide) k j) c = grp 7 144 (by decide) 3 X Wre Wim bre bim n k j c := by
  have hk := k.isLt; have hj := j.isLt
  unfold Out
  have e : (chan (m := 7) (base := 144) (by decide) k j).val = 144 + k.val * 7 + j.val := rfl
  rw [if_neg (by rw [e]; omega), dif_neg (by rw [e]; omega), dif_neg (by rw [e]; omega)]
  congr 1
  · exact Fin.ext (by show (144 + k.val * 7 + j.val - 144) / 7 = k.val; omega)
  · exact Fin.ext (by show (144 + k.val * 7 + j.val - 144) % 7 = j.val; omega)

/-- Every channel is a scalar feature or a component of a feature of one of the three groups. -/
theorem chan_cases (ch : Fin 256) :
    ch.val < 16 ∨ (∃ (k : Fin 16) (j : Fin 3), ch = chan (m := 3) (base := 16) (by decide) k j)
      ∨ (∃ (k : Fin 16) (j : Fin 5), ch = chan (m := 5) (base := 64) (by decide) k j)
      ∨ (∃ (k : Fin 16) (j : Fin 7), ch = chan (m := 7) (base := 144) (by decide) k j) := by
  have hc := ch.isLt
  by_cases h0 : ch.val < 16
  · exact Or.inl h0
  by_cases h1 : ch.val < 64
  · exact Or.inr (Or.inl ⟨⟨(ch.val - 16) / 3, by omega⟩, ⟨(ch.val - 16) % 3, Nat.mod_lt _ (by decide)⟩,
      Fin.ext (by show ch.val = 16 + (ch.val - 16) / 3 * 3 + (ch.val - 16) % 3; omega)⟩)
  by_cases h2 : ch.val < 144
  · exact Or.inr (Or.inr (Or.inl ⟨⟨(ch.val - 64) / 5, by omega⟩, ⟨(ch.val - 64) % 5, Nat.mod_lt _ (by decide)⟩,
      Fin.ext (by show ch.val = 64 + (ch.val - 64) / 5 * 5 + (ch.val - 64) % 5; omega)⟩))
  · exact Or.inr (Or.inr (Or.inr ⟨⟨(ch.val - 144) / 7, by omega⟩, ⟨(ch.val - 144) % 7, Nat.mod_lt _ (by decide)⟩,
      Fin.ext (by show ch.val = 144 + (ch.val - 144) / 7 * 7 + (ch.val - 144) % 7; omega)⟩))

end Cert.Spec

end
-- ==== Proof.Tokens.lean ====
/-
  Tokens. The input x has shape [4, 256, 128, 256, 2] = [batch, channel, time, frequency, re/im]. A token is a triple
  (batch b, time t, frequency f); tokens are numbered row-major, n = (b·128 + t)·256 + f < 131072. Both programs move the
  token axes together and work on a token-major view of x; the result is stated here once, as a function of the five
  argument arrays, through that numbering.
-/
import proofs.«132330_j16243566313947_1_alg».proof.Proof.Spec

noncomputable section

namespace Cert.Spec

open Idealize.ShloMosaic Idealize.ShloMosaic.ValueIdx

/-- The number of the token (b, t, f). -/
def tok (b : Fin 4) (t : Fin 128) (f : Fin 256) : Fin 131072 :=
  ⟨(b.val * 128 + t.val) * 256 + f.val, by have := b.isLt; have := t.isLt; have := f.isLt; omega⟩

theorem tok_val (b : Fin 4) (t : Fin 128) (f : Fin 256) : (tok b t f).val = (b.val * 128 + t.val) * 256 + f.val := rfl

/-- The batch, time and frequency of token `n`. -/
def tokB (n : Fin 131072) : Fin 4 := ⟨n.val / 32768, by have := n.isLt; omega⟩
def tokT (n : Fin 131072) : Fin 128 := ⟨n.val / 256 % 128, Nat.mod_lt _ (by decide)⟩
def tokF (n : Fin 131072) : Fin 256 := ⟨n.val % 256, Nat.mod_lt _ (by decide)⟩

theorem tokB_val (n : Fin 131072) : (tokB n).val = n.val / 32768 := rfl
theorem tokT_val (n : Fin 131072) : (tokT n).val = n.val / 256 % 128 := rfl
theorem tokF_val (n : Fin 131072) : (tokF n).val = n.val % 256 := rfl

theorem tok_decode (n : Fin 131072) : tok (tokB n) (tokT n) (tokF n) = n :=
  Fin.ext (by show (n.val / 32768 * 128 + n.val / 256 % 128) * 256 + n.val % 256 = n.val; omega)

theorem tokB_tok (b : Fin 4) (t : Fin 128) (f : Fin 256) : tokB (tok b t f) = b :=
  Fin.ext (by have := b.isLt; have := t.isLt; have := f.isLt; show ((b.val * 128 + t.val) * 256 + f.val) / 32768 = b.val; omega)
theorem tokT_tok (b : Fin 4) (t : Fin 128) (f : Fin 256) : tokT (tok b t f) = t :=
  Fin.ext (by have := b.isLt; have := t.isLt; have := f.isLt; show ((b.val * 128 + t.val) * 256 + f.val) / 256 % 128 = t.val; omega)
theorem tokF_tok (b : Fin 4) (t : Fin 128) (f : Fin 256) : tokF (tok b t f) = f :=
  Fin.ext (by have := b.isLt; have := t.isLt; have := f.isLt; show ((b.val * 128 + t.val) * 256 + f.val) % 256 = f.val; omega)

/-- The token-major view of x: entry (n, ch, c) is x at (batch of n, ch, time of n, frequency of n, c). -/
def Xof (x : (⟨5, ![4, 256, 128, 256, 2]⟩ : Shape).Idx → EReal) : Fin 131072 → Fin 256 → Fin 2 → EReal :=
  fun n ch c => x (ix5 (tokB n) ch (tokT n) (tokF n) c)

/-- A stack of four 16×16 weight matrices, and of four bias vectors, as functions of (layer, output feature, input feature). -/
def W3 (w : (⟨3, ![4, 16, 16]⟩ : Shape).Idx → EReal) : Fin 4 → Fin 16 → Fin 16 → EReal := fun g k i => w (ix3 g k i)
def B2 (b : (⟨2, ![4, 16]⟩ : Shape).Idx → EReal) : Fin 4 → Fin 16 → EReal := fun g k => b (ix2 g k)

/-- THE RESULT as a function of the five argument arrays (x, Wre, bre, Wim, bim), in x's own layout. -/
def ResultOf (x : (⟨5, ![4, 256, 128, 256, 2]⟩ : Shape).Idx → EReal)
    (wre : (⟨3, ![4, 16, 16]⟩ : Shape).Idx → EReal) (bre : (⟨2, ![4, 16]⟩ : Shape).Idx → EReal)
    (wim : (⟨3, ![4, 16, 16]⟩ : Shape).Idx → EReal) (bim : (⟨2, ![4, 16]⟩ : Shape).Idx → EReal) :
    (⟨5, ![4, 256, 128, 256, 2]⟩ : Shape).Idx → EReal :=
  fun i => Out (Xof x) (W3 wre) (W3 wim) (B2 bre) (B2 bim) (tok (i 0) (i 2) (i 3)) (i 1) (i 4)

end Cert.Spec

end
-- ==== Proof.KerGlueOut.lean ====
/-
  What the lines after the region make of the region's output array.

  The region writes an array O of shape [2, 256, 131072] = [re/im, channel, token]. The result is O with the token
  axis split back into batch, time and frequency and the axes moved back to x's own order: entry (b, ch, t, f, c) of
  the result is O at (c, ch, n) for the token n = (b·128 + t)·256 + f.
-/
import proofs.«132330_j16243566313947_1_alg».proof.Proof.Gen.KernelIdeal.Frame
import proofs.«132330_j16243566313947_1_alg».proof.Proof.Tokens
import Idealize.ShloMosaic.Lib.Pipeline.Value

noncomputable section

namespace Cert.KerGlue

open Idealize.ShloMosaic Idealize.ShloMosaic.TcCoe Idealize.ShloMosaic.ValueIdx
open Cert.KernelIdeal Cert.KernelIdeal.Gen

/-- O reshaped to [2, 256, 4, 128, 256] and transposed by [2, 1, 3, 4, 0], at an index i = (b, ch, t, f, c): the
    transpose reads the reshaped array at (c, ch, b, t, f), whose row-major position is that of (c, ch, n) in O for the
    token n of (b, t, f). -/
theorem unview_apply (O : (⟨3, ![2, 256, 131072]⟩ : Shape).Idx → EReal)
    (hc : (⟨3, ![2, 256, 131072]⟩ : Shape).ShapeCasts ⟨5, ![2, 256, 4, 128, 256]⟩)
    (ht : (⟨5, ![2, 256, 4, 128, 256]⟩ : Shape).Transposes [2, 1, 3, 4, 0] ⟨5, ![4, 256, 128, 256, 2]⟩)
    (i : (⟨5, ![4, 256, 128, 256, 2]⟩ : Shape).Idx) :
    transpose ⟨5, ![4, 256, 128, 256, 2]⟩ [2, 1, 3, 4, 0] (shapeCast ⟨5, ![2, 256, 4, 128, 256]⟩ O hc) ht i
      = O (ix3 (i 4) (i 1) (Cert.Spec.tok (i 0) (i 2) (i 3))) := by
  have h0 := (i 0).isLt; have h1 := (i 1).isLt; have h2 := (i 2).isLt; have h3 := (i 3).isLt; have h4 := (i 4).isLt
  refine (transpose_apply [2, 1, 3, 4, 0] _ ht i (ix5 (i 4) (i 1) (i 0) (i 2) (i 3)) fun b => ?_).trans ?_
  · match b with
    | ⟨0, _⟩ => rfl
    | ⟨1, _⟩ => rfl
    | ⟨2, _⟩ => rfl
    | ⟨3, _⟩ => rfl
    | ⟨4, _⟩ => rfl
  · refine shapeCast_apply O hc _ (ix3 (i 4) (i 1) (Cert.Spec.tok (i 0) (i 2) (i 3))) ?_
    rw [Shape.rowMajor_val_five, Shape.rowMajor_val_three]
    show ((i 4).val * 256 + (i 1).val) * 131072 + (((i 0).val * 128 + (i 2).val) * 256 + (i 3).val)
      = (((((i 4).val * 256 + (i 1).val) * 4 + (i 0).val) * 128 + (i 2).val) * 256 + (i 3).val)
    omega

variable (m : (ℓ : Loc nD τ sig) → Buf (Elt Ideal) ℓ)

/-- The result buffer after the whole program, given the array O the region leaves in its output window:
    entry (b, ch, t, f, c) is O at (c, ch, token of (b, t, f)). -/
theorem tail_v8 (c : Dev nD) (O : S2x256x131072.Idx → EReal)
    (hO : ((dats m 0 c).arrAt 8 cfg0.N : S2x256x131072.Idx → EReal) = O) :
    (Pipeline.afterTail₀ cfgs (dats m) 0 (V0 m) [hostOps1] c main_v8 : S4x256x128x256x2.Idx → EReal)
      = fun i => O (ix3 (i 4) (i 1) (Cert.Spec.tok (i 0) (i 2) (i 3))) := by
  have hw : Pipeline.withArrays (cfgs 0).spec c (V0 m c) (fun w => (dats m 0 c).arrAt w (cfgs 0).N)
      (Proc.devRef .tc main_v6) = O :=
    (Pipeline.withArrays_arr spec0 launch0.win.arr_inj c _ _ 8).trans hO
  have e : (Pipeline.afterTail₀ cfgs (dats m) 0 (V0 m) [hostOps1] c main_v8 : S4x256x128x256x2.Idx → EReal)
      = transpose S4x256x128x256x2 [2, 1, 3, 4, 0]
          (shapeCast S2x256x4x128x256 O shapeCasts_S2x256x131072_S2x256x4x128x256)
          transposes_S2x256x4x128x256_S4x256x128x256x2_2_1_3_4_0 := by
    unfold Pipeline.afterTail₀
    show StableHlo.after hostOps1 _ (Proc.devRef .tc main_v8) = _
    after_results
    rw [hw]
    rfl
  rw [e]
  funext i
  exact unview_apply O _ _ i

end Cert.KerGlue

end
-- ==== Proof.KerGlueConst.lean ====
/-
  The three group-membership matrices the kernel is given as dense constants.

  A group of sixteen features with r components each (r = 3, 5, 7) occupies 16·r consecutive channels, feature-major:
  channel i of the group belongs to feature i / r. The kernel sums a feature's components, and spreads a feature's
  value back over its components, by multiplying with the 0/1 matrix R of shape [16·r, 16] whose entry (i, k) is 1
  exactly when k = i / r. The matrices are printed as tables of binary32 words in row-major order; entry (i, k) is
  word number 16·i + k. The tables are decided word by word, and the two words that occur are the extended reals 1 and 0.
-/
import proofs.«132330_j16243566313947_1_alg».proof.Proof.Gen.KernelIdeal.Frame
import Idealize.ShloMosaic.Lib.IdealHost
import Idealize.ShloMosaic.PureOps.Ideal.Laws

noncomputable section

namespace Cert.KerGlue

open Idealize.ShloMosaic Idealize.ShloMosaic.TcCoe Idealize.ShloMosaic.ValueIdx
open Cert.KernelIdeal Cert.KernelIdeal.Gen

/-- Word n of the first table is the pattern of 1 when n mod 16 = (n / 16) / 3, and of 0 otherwise. -/
theorem lit0_table : ∀ n : Fin 768, lit0 n = if n.val % 16 = n.val / 16 / 3 then 0x3F800000#32 else 0x00000000#32 := by
  decide +kernel

/-- Word n of the second table: 1 when n mod 16 = (n / 16) / 5. -/
theorem lit1_table : ∀ n : Fin 1280, lit1 n = if n.val % 16 = n.val / 16 / 5 then 0x3F800000#32 else 0x00000000#32 := by
  decide +kernel

/-- Word n of the third table: 1 when n mod 16 = (n / 16) / 7. -/
theorem lit2_table : ∀ n : Fin 1792, lit2 n = if n.val % 16 = n.val / 16 / 7 then 0x3F800000#32 else 0x00000000#32 := by
  decide +kernel

/-- Entry (i, k) of the first matrix, as a word. -/
theorem cst_word (i : Fin 48) (k : Fin 16) :
    lit0 (S48x16.rowMajor (ix2 i k)) = if k.val = i.val / 3 then 0x3F800000#32 else 0x00000000#32 := by
  have hi := i.isLt; have hk := k.isLt
  have e : S48x16.rowMajor (ix2 i k) = (⟨i.val * 16 + k.val, by omega⟩ : Fin 768) :=
    Fin.ext (by rw [Shape.rowMajor_val_two]; rfl)
  rw [e, lit0_table]
  have h1 : (i.val * 16 + k.val) % 16 = k.val := by omega
  have h2 : (i.val * 16 + k.val) / 16 = i.val := by omega
  show (if (i.val * 16 + k.val) % 16 = (i.val * 16 + k.val) / 16 / 3 then _ else _) = _
  rw [h1, h2]

/-- Entry (i, k) of the second matrix, as a word. -/
theorem cst0_word (i : Fin 80) (k : Fin 16) :
    lit1 (S80x16.rowMajor (ix2 i k)) = if k.val = i.val / 5 then 0x3F800000#32 else 0x00000000#32 := by
  have hi := i.isLt; have hk := k.isLt
  have e : S80x16.rowMajor (ix2 i k) = (⟨i.val * 16 + k.val, by omega⟩ : Fin 1280) :=
    Fin.ext (by rw [Shape.rowMajor_val_two]; rfl)
  rw [e, lit1_table]
  have h1 : (i.val * 16 + k.val) % 16 = k.val := by omega
  have h2 : (i.val * 16 + k.val) / 16 = i.val := by omega
  show (if (i.val * 16 + k.val) % 16 = (i.val * 16 + k.val) / 16 / 5 then _ else _) = _
  rw [h1, h2]

/-- Entry (i, k) of the third matrix, as a word. -/
theorem cst1_word (i : Fin 112) (k : Fin 16) :
    lit2 (S112x16.rowMajor (ix2 i k)) = if k.val = i.val / 7 then 0x3F800000#32 else 0x00000000#32 := by
  have hi := i.isLt; have hk := k.isLt
  have e : S112x16.rowMajor (ix2 i k) = (⟨i.val * 16 + k.val, by omega⟩ : Fin 1792) :=
    Fin.ext (by rw [Shape.rowMajor_val_two]; rfl)
  rw [e, lit2_table]
  have h1 : (i.val * 16 + k.val) % 16 = k.val := by omega
  have h2 : (i.val * 16 + k.val) / 16 = i.val := by omega
  show (if (i.val * 16 + k.val) % 16 = (i.val * 16 + k.val) / 16 / 7 then _ else _) = _
  rw [h1, h2]

/-- The two words as extended reals. -/
theorem word_val (p : Prop) [Decidable p] :
    Ideal.ofBits .f32 (if p then 0x3F800000#32 else 0x00000000#32) = if p then (1 : EReal) else 0 := by
  split
  · exact Ideal.ofBits_one_f32
  · exact Ideal.ofBits_zero_f32

variable (m : (ℓ : Loc nD τ sig) → Buf (Elt Ideal) ℓ)

/-- The first membership matrix as the region finds it: entry (i, k) is 1 when feature k owns channel i of the
    three-component group, else 0. -/
theorem V_cst (c : Dev nD) (i : Fin 48) (k : Fin 16) :
    (V m c main_cst : S48x16.Idx → EReal) (ix2 i k) = (if k.val = i.val / 3 then (1 : EReal) else 0) := by
  have e : (V m c main_cst : S48x16.Idx → EReal) = fun j => Ideal.ofBits .f32 (lit0 (S48x16.rowMajor j)) := by
    show StableHlo.after hostOps0 (fun b => m (c, b)) (Proc.devRef .tc main_cst) = _
    after_results
    rfl
  rw [e]
  show Ideal.ofBits .f32 (lit0 (S48x16.rowMajor (ix2 i k))) = _
  rw [cst_word, word_val]

/-- The second membership matrix: entry (i, k) is 1 when k = i / 5. -/
theorem V_cst0 (c : Dev nD) (i : Fin 80) (k : Fin 16) :
    (V m c main_cst_0 : S80x16.Idx → EReal) (ix2 i k) = (if k.val = i.val / 5 then (1 : EReal) else 0) := by
  have e : (V m c main_cst_0 : S80x16.Idx → EReal) = fun j => Ideal.ofBits .f32 (lit1 (S80x16.rowMajor j)) := by
    show StableHlo.after hostOps0 (fun b => m (c, b)) (Proc.devRef .tc main_cst_0) = _
    after_results
    rfl
  rw [e]
  show Ideal.ofBits .f32 (lit1 (S80x16.rowMajor (ix2 i k))) = _
  rw [cst0_word, word_val]

/-- The third membership matrix: entry (i, k) is 1 when k = i / 7. -/
theorem V_cst1 (c : Dev nD) (i : Fin 112) (k : Fin 16) :
    (V m c main_cst_1 : S112x16.Idx → EReal) (ix2 i k) = (if k.val = i.val / 7 then (1 : EReal) else 0) := by
  have e : (V m c main_cst_1 : S112x16.Idx → EReal) = fun j => Ideal.ofBits .f32 (lit2 (S112x16.rowMajor j)) := by
    show StableHlo.after hostOps0 (fun b => m (c, b)) (Proc.devRef .tc main_cst_1) = _
    after_results
    rfl
  rw [e]
  show Ideal.ofBits .f32 (lit2 (S112x16.rowMajor (ix2 i k))) = _
  rw [cst1_word, word_val]

end Cert.KerGlue

end
-- ==== Proof.KerGlueIn.lean ====
/-
  What the region finds in the arrays that the lines before it prepared.

  The first window's array is x with its axes moved — re/im first, then the channel, then batch, time and frequency —
  and the last three merged into one token axis: entry (c, ch, n) is x at (batch of n, ch, time of n, frequency of n, c),
  the token-major view of x. The four parameter windows' arrays are layers 1, 2, 3 of the stacked weights and biases:
  entry (g, …) of a slice is entry (g + 1, …) of the stack.
-/
import proofs.«132330_j16243566313947_1_alg».proof.Proof.Gen.KernelIdeal.Frame
import proofs.«132330_j16243566313947_1_alg».proof.Proof.Tokens
import Idealize.ShloMosaic.Lib.Pipeline.Value

noncomputable section

namespace Cert.KerGlue

open Idealize.ShloMosaic Idealize.ShloMosaic.TcCoe Idealize.ShloMosaic.ValueIdx
open Cert.KernelIdeal Cert.KernelIdeal.Gen

/-- x transposed by [4, 1, 0, 2, 3] and reshaped to [2, 256, 131072], at (c, ch, n): the reshape keeps the row-major
    position, which for the token n = (b·128 + t)·256 + f is that of (c, ch, b, t, f); the transpose reads x at (b, ch, t, f, c). -/
theorem view_apply (x : (⟨5, ![4, 256, 128, 256, 2]⟩ : Shape).Idx → EReal)
    (ht : (⟨5, ![4, 256, 128, 256, 2]⟩ : Shape).Transposes [4, 1, 0, 2, 3] ⟨5, ![2, 256, 4, 128, 256]⟩)
    (hc : (⟨5, ![2, 256, 4, 128, 256]⟩ : Shape).ShapeCasts ⟨3, ![2, 256, 131072]⟩)
    (cc : Fin 2) (ch : Fin 256) (n : Fin 131072) :
    shapeCast ⟨3, ![2, 256, 131072]⟩ (transpose ⟨5, ![2, 256, 4, 128, 256]⟩ [4, 1, 0, 2, 3] x ht) hc (ix3 cc ch n)
      = Cert.Spec.Xof x n ch cc := by
  have hn := n.isLt
  refine (shapeCast_apply _ hc (ix3 cc ch n) (ix5 cc ch (Cert.Spec.tokB n) (Cert.Spec.tokT n) (Cert.Spec.tokF n)) ?_).trans ?_
  · rw [Shape.rowMajor_val_five, Shape.rowMajor_val_three]
    show ((((cc.val * 256 + ch.val) * 4 + n.val / 32768) * 128 + n.val / 256 % 128) * 256 + n.val % 256)
      = (cc.val * 256 + ch.val) * 131072 + n.val
    omega
  · refine transpose_apply [4, 1, 0, 2, 3] x ht _
      (ix5 (Cert.Spec.tokB n) ch (Cert.Spec.tokT n) (Cert.Spec.tokF n) cc) fun b => ?_
    match b with
    | ⟨0, _⟩ => rfl
    | ⟨1, _⟩ => rfl
    | ⟨2, _⟩ => rfl
    | ⟨3, _⟩ => rfl
    | ⟨4, _⟩ => rfl

/-- Layers 1…3 of a stack of four 16×16 matrices: entry (g, k, i) of the slice is entry (g + 1, k, i) of the stack. -/
theorem slice3_apply (w : (⟨3, ![4, 16, 16]⟩ : Shape).Idx → EReal)
    (hs : (⟨3, ![4, 16, 16]⟩ : Shape).Slices ![1, 0, 0] ⟨3, ![3, 16, 16]⟩) (g : Fin 3) (k i : Fin 16) :
    extractStridedSlice ⟨3, ![3, 16, 16]⟩ ![1, 0, 0] w hs (ix3 g k i)
      = w (ix3 (⟨g.val + 1, by omega⟩ : Fin 4) k i) := by
  refine extractStridedSlice_apply ![1, 0, 0] w hs (ix3 g k i) _ fun a => ?_
  match a with
  | ⟨0, _⟩ => show g.val + 1 = 1 + g.val; omega
  | ⟨1, _⟩ => show k.val = 0 + k.val; omega
  | ⟨2, _⟩ => show i.val = 0 + i.val; omega

/-- Layers 1…3 of a stack of four bias vectors: entry (g, k) of the slice is entry (g + 1, k) of the stack. -/
theorem slice2_apply (b : (⟨2, ![4, 16]⟩ : Shape).Idx → EReal)
    (hs : (⟨2, ![4, 16]⟩ : Shape).Slices ![1, 0] ⟨2, ![3, 16]⟩) (g : Fin 3) (k : Fin 16) :
    extractStridedSlice ⟨2, ![3, 16]⟩ ![1, 0] b hs (ix2 g k)
      = b (ix2 (⟨g.val + 1, by omega⟩ : Fin 4) k) := by
  refine extractStridedSlice_apply ![1, 0] b hs (ix2 g k) _ fun a => ?_
  match a with
  | ⟨0, _⟩ => show g.val + 1 = 1 + g.val; omega
  | ⟨1, _⟩ => show k.val = 0 + k.val; omega

variable (m : (ℓ : Loc nD τ sig) → Buf (Elt Ideal) ℓ)

/-- The first window's array is the token-major view of x. -/
theorem V_v1 (c : Dev nD) (cc : Fin 2) (ch : Fin 256) (n : Fin 131072) :
    (V m c main_v1 : S2x256x131072.Idx → EReal) (ix3 cc ch n)
      = Cert.Spec.Xof (m ((c : Thread nD τ).loc main_arg0)) n ch cc := by
  have e : (V m c main_v1 : S2x256x131072.Idx → EReal)
      = shapeCast S2x256x131072 (transpose S2x256x4x128x256 [4, 1, 0, 2, 3]
          (m ((c : Thread nD τ).loc main_arg0) : S4x256x128x256x2.Idx → EReal)
          transposes_S4x256x128x256x2_S2x256x4x128x256_4_1_0_2_3) shapeCasts_S2x256x4x128x256_S2x256x131072 := by
    show StableHlo.after hostOps0 (fun b => m (c, b)) (Proc.devRef .tc main_v1) = _
    after_results
    rfl
  rw [e]
  exact view_apply _ _ _ cc ch n

/-- The real weights' window holds layers 1…3 of the real weight stack. -/
theorem V_v2 (c : Dev nD) (g : Fin 3) (k i : Fin 16) :
    (V m c main_v2 : S3x16x16.Idx → EReal) (ix3 g k i)
      = (m ((c : Thread nD τ).loc main_arg1) : S4x16x16.Idx → EReal) (ix3 (⟨g.val + 1, by omega⟩ : Fin 4) k i) := by
  have e : (V m c main_v2 : S3x16x16.Idx → EReal)
      = extractStridedSlice S3x16x16 ![1, 0, 0] (m ((c : Thread nD τ).loc main_arg1) : S4x16x16.Idx → EReal)
          slices_S4x16x16_S3x16x16_1_0_0 := by
    show StableHlo.after hostOps0 (fun b => m (c, b)) (Proc.devRef .tc main_v2) = _
    after_results
  rw [e]
  exact slice3_apply _ _ g k i

/-- The imaginary weights' window holds layers 1…3 of the imaginary weight stack. -/
theorem V_v3 (c : Dev nD) (g : Fin 3) (k i : Fin 16) :
    (V m c main_v3 : S3x16x16.Idx → EReal) (ix3 g k i)
      = (m ((c : Thread nD τ).loc main_arg3) : S4x16x16.Idx → EReal) (ix3 (⟨g.val + 1, by omega⟩ : Fin 4) k i) := by
  have e : (V m c main_v3 : S3x16x16.Idx → EReal)
      = extractStridedSlice S3x16x16 ![1, 0, 0] (m ((c : Thread nD τ).loc main_arg3) : S4x16x16.Idx → EReal)
          slices_S4x16x16_S3x16x16_1_0_0 := by
    show StableHlo.after hostOps0 (fun b => m (c, b)) (Proc.devRef .tc main_v3) = _
    after_results
  rw [e]
  exact slice3_apply _ _ g k i

/-- The real biases' window holds layers 1…3 of the real bias stack. -/
theorem V_v4 (c : Dev nD) (g : Fin 3) (k : Fin 16) :
    (V m c main_v4 : S3x16.Idx → EReal) (ix2 g k)
      = (m ((c : Thread nD τ).loc main_arg2) : S4x16.Idx → EReal) (ix2 (⟨g.val + 1, by omega⟩ : Fin 4) k) := by
  have e : (V m c main_v4 : S3x16.Idx → EReal)
      = extractStridedSlice S3x16 ![1, 0] (m ((c : Thread nD τ).loc main_arg2) : S4x16.Idx → EReal)
          slices_S4x16_S3x16_1_0 := by
    show StableHlo.after hostOps0 (fun b => m (c, b)) (Proc.devRef .tc main_v4) = _
    after_results
  rw [e]
  exact slice2_apply _ _ g k

/-- The imaginary biases' window holds layers 1…3 of the imaginary bias stack. -/
theorem V_v5 (c : Dev nD) (g : Fin 3) (k : Fin 16) :
    (V m c main_v5 : S3x16.Idx → EReal) (ix2 g k)
      = (m ((c : Thread nD τ).loc main_arg4) : S4x16.Idx → EReal) (ix2 (⟨g.val + 1, by omega⟩ : Fin 4) k) := by
  have e : (V m c main_v5 : S3x16.Idx → EReal)
      = extractStridedSlice S3x16 ![1, 0] (m ((c : Thread nD τ).loc main_arg4) : S4x16.Idx → EReal)
          slices_S4x16_S3x16_1_0 := by
    show StableHlo.after hostOps0 (fun b => m (c, b)) (Proc.devRef .tc main_v5) = _
    after_results
  rw [e]
  exact slice2_apply _ _ g k

end Cert.KerGlue

end
-- ==== Proof.LibIndicatorSums.lean ====
/-
  Sums against a 0/1 membership matrix, over the extended reals.

  Sixteen features of m components each are laid out feature-major on sz = 16·m rows: row p belongs to feature p / m,
  and feature k owns the rows k·m, …, k·m + m − 1. For the membership matrix R (R p k = 1 if row p belongs to
  feature k, else 0):
    Σ_k R p k · a k   = a (p / m)                     (spreading a per-feature value over the rows), and
    Σ_p R p k · s p   = Σ_{j < m} s (k·m + j)         (summing a per-row value over a feature's rows).
  Only 0·x = 0, 1·x = x and re-indexing of a finite sum are used, so both hold for every extended-real a and s.
-/
import Mathlib.Data.EReal.Basic
import Mathlib.Algebra.BigOperators.Fin
import Mathlib.Logic.Equiv.Fin.Basic

noncomputable section

open scoped BigOperators

namespace Cert.LibIndicatorSums

variable {sz m : ℕ}

/-- Row `p`'s feature. -/
def feat (hsz : sz = 16 * m) (hm : 0 < m) (p : Fin sz) : Fin 16 :=
  ⟨p.val / m, by have h := p.isLt; have h2 : p.val < m * 16 := (by omega); exact Nat.div_lt_of_lt_mul h2⟩

/-- Component `j` of feature `k` sits on row `k·m + j`. -/
def row (hsz : sz = 16 * m) (k : Fin 16) (j : Fin m) : Fin sz :=
  ⟨k.val * m + j.val, by
    have hk := k.isLt; have hj := j.isLt
    have h1 : (k.val + 1) * m ≤ 16 * m := Nat.mul_le_mul_right m (by omega)
    rw [Nat.add_mul, Nat.one_mul] at h1
    omega⟩

theorem feat_row (hsz : sz = 16 * m) (hm : 0 < m) (k : Fin 16) (j : Fin m) : feat hsz hm (row hsz k j) = k :=
  Fin.ext (by
    show (k.val * m + j.val) / m = k.val
    rw [Nat.mul_comm, Nat.mul_add_div hm, Nat.div_eq_of_lt j.isLt, Nat.add_zero])

/-- Spreading: against row `p` of the membership matrix a per-feature value is read at `p`'s feature. -/
theorem sum_spread (hsz : sz = 16 * m) (hm : 0 < m) (R : Fin sz → Fin 16 → EReal)
    (hR : ∀ p k, R p k = if k.val = p.val / m then 1 else 0) (a : Fin 16 → EReal) (p : Fin sz) :
    ∑ k : Fin 16, R p k * a k = a (feat hsz hm p) := by
  rw [Finset.sum_eq_single (feat hsz hm p)]
  · rw [hR, if_pos (show (feat hsz hm p).val = p.val / m from rfl), one_mul]
  · intro k _ hk
    rw [hR, if_neg (fun h : k.val = p.val / m => hk (Fin.ext h)), zero_mul]
  · intro h; exact absurd (Finset.mem_univ _) h

/-- Every row is a component of a feature. -/
theorem exists_row (hsz : sz = 16 * m) (hm : 0 < m) (p : Fin sz) : ∃ (k : Fin 16) (j : Fin m), p = row hsz k j :=
  ⟨feat hsz hm p, ⟨p.val % m, Nat.mod_lt _ hm⟩, Fin.ext (by
    show p.val = p.val / m * m + p.val % m
    rw [Nat.mul_comm]; exact (Nat.div_add_mod p.val m).symm)⟩

theorem row_inj (hsz : sz = 16 * m) (k : Fin 16) : Function.Injective (row hsz k : Fin m → Fin sz) := by
  intro j j' h
  have := congrArg Fin.val h
  exact Fin.ext (by simp only [row] at this; omega)

/-- Gathering: against column `k` of the membership matrix a per-row value is summed over feature `k`'s rows. -/
theorem sum_gather (hsz : sz = 16 * m) (hm : 0 < m) (R : Fin sz → Fin 16 → EReal)
    (hR : ∀ p k, R p k = if k.val = p.val / m then 1 else 0) (s : Fin sz → EReal) (k : Fin 16) :
    ∑ p : Fin sz, R p k * s p = ∑ j : Fin m, s (row hsz k j) := by
  rw [← Finset.sum_subset (Finset.subset_univ (Finset.univ.image (row hsz k)))]
  · rw [Finset.sum_image (fun j _ j' _ h => row_inj hsz k h)]
    refine Finset.sum_congr rfl fun j _ => ?_
    rw [hR, if_pos (by
      show k.val = (k.val * m + j.val) / m
      rw [Nat.mul_comm, Nat.mul_add_div hm, Nat.div_eq_of_lt j.isLt, Nat.add_zero]), one_mul]
  · intro p _ hp
    rw [hR, if_neg, zero_mul]
    intro hk
    apply hp
    obtain ⟨k', j, rfl⟩ := exists_row hsz hm p
    have : k' = k := by
      have h2 := feat_row hsz hm k' j
      exact (Fin.ext (by rw [← h2]; exact hk.symm ▸ rfl) : k' = k)
    subst this
    exact Finset.mem_image_of_mem _ (Finset.mem_univ j)

end Cert.LibIndicatorSums

end
-- ==== Proof.KerForm.lean ====
/-
  The group computation in the form the kernel spells it, and its reduction to the per-token function.

  The kernel keeps a group's sz = 16·m rows (feature-major) as the rows of matrices and moves between per-feature and
  per-row quantities by products with the 0/1 membership matrix R (row p belongs to feature p / m): the gate is spread
  over the rows as R·a, the energy of a feature is gathered as Rᵀ·(re² + im²), and the divisor is spread again as R·d.
  With R the membership matrix these products are plain reads and plain sums over a feature's rows
  (LibIndicatorSums), so the kernel's entries are the per-token function of Spec.lean; the affine layers differ from
  the reference's only in the order of each product's two factors.
-/
import proofs.«132330_j16243566313947_1_alg».proof.Proof.Spec
import proofs.«132330_j16243566313947_1_alg».proof.Proof.LibIndicatorSums

noncomputable section

open scoped BigOperators

namespace Cert.KerForm

open Idealize.ShloMosaic Cert.Spec Cert.LibIndicatorSums

variable {sz m : ℕ}

/-- The affine layer as the kernel multiplies it: weights on the left. -/
def kLin (W : Fin 16 → Fin 16 → EReal) (b : Fin 16 → EReal) (v : Fin 16 → EReal) (k : Fin 16) : EReal :=
  (∑ i : Fin 16, W k i * v i) + b k

theorem kLin_eq (W : Fin 16 → Fin 16 → EReal) (b : Fin 16 → EReal) (v : Fin 16 → EReal) (k : Fin 16) :
    kLin W b v k = lin W b v k := by
  unfold kLin lin
  exact congrArg (· + b k) (Finset.sum_congr rfl fun i _ => mul_comm _ _)

/-- The gate, from the kernel's affine layers. -/
def kGateRe (Wre Wim : Fin 16 → Fin 16 → EReal) (bre bim : Fin 16 → EReal) (rex imx : Fin 16 → EReal) (k : Fin 16) : EReal :=
  kLin Wre bre rex k - kLin Wim bim imx k

def kGateIm (Wre Wim : Fin 16 → Fin 16 → EReal) (bre bim : Fin 16 → EReal) (rex imx : Fin 16 → EReal) (k : Fin 16) : EReal :=
  kLin Wim bim rex k + kLin Wre bre imx k

theorem kGateRe_eq (Wre Wim : Fin 16 → Fin 16 → EReal) (bre bim : Fin 16 → EReal) (rex imx : Fin 16 → EReal) (k : Fin 16) :
    kGateRe Wre Wim bre bim rex imx k = gateRe Wre Wim bre bim rex imx k := by
  unfold kGateRe gateRe; rw [kLin_eq, kLin_eq]

theorem kGateIm_eq (Wre Wim : Fin 16 → Fin 16 → EReal) (bre bim : Fin 16 → EReal) (rex imx : Fin 16 → EReal) (k : Fin 16) :
    kGateIm Wre Wim bre bim rex imx k = gateIm Wre Wim bre bim rex imx k := by
  unfold kGateIm gateIm; rw [kLin_eq, kLin_eq]

/-- A per-feature value spread over the rows: R·a. -/
def kSpread (R : Fin sz → Fin 16 → EReal) (a : Fin 16 → EReal) (p : Fin sz) : EReal := ∑ k : Fin 16, R p k * a k

/-- The modulated value on row p, real and imaginary part. -/
def kYre (R : Fin sz → Fin 16 → EReal) (are aim : Fin 16 → EReal) (xr xi : Fin sz → EReal) (p : Fin sz) : EReal :=
  xr p * kSpread R are p - xi p * kSpread R aim p

def kYim (R : Fin sz → Fin 16 → EReal) (are aim : Fin 16 → EReal) (xr xi : Fin sz → EReal) (p : Fin sz) : EReal :=
  xi p * kSpread R are p + xr p * kSpread R aim p

/-- A feature's energy gathered from its rows: Rᵀ·(re² + im²). -/
def kNorm (R : Fin sz → Fin 16 → EReal) (are aim : Fin 16 → EReal) (xr xi : Fin sz → EReal) (k : Fin 16) : EReal :=
  ∑ p : Fin sz, R p k * (kYre R are aim xr xi p * kYre R are aim xr xi p + kYim R are aim xr xi p * kYim R are aim xr xi p)

/-- The divisor per feature. -/
def kDen (R : Fin sz → Fin 16 → EReal) (are aim : Fin 16 → EReal) (xr xi : Fin sz → EReal) (k : Fin 16) : EReal :=
  eps + Ideal.sqrt (Ideal.sqrt (kNorm R are aim xr xi k))

/-- The kernel's output entries on row p. -/
def kOutRe (R : Fin sz → Fin 16 → EReal) (are aim : Fin 16 → EReal) (xr xi : Fin sz → EReal) (p : Fin sz) : EReal :=
  Ideal.div (kYre R are aim xr xi p) (kSpread R (kDen R are aim xr xi) p)

def kOutIm (R : Fin sz → Fin 16 → EReal) (are aim : Fin 16 → EReal) (xr xi : Fin sz → EReal) (p : Fin sz) : EReal :=
  Ideal.div (kYim R are aim xr xi p) (kSpread R (kDen R are aim xr xi) p)

section Membership

variable (hsz : sz = 16 * m) (hm : 0 < m) (R : Fin sz → Fin 16 → EReal)
  (hR : ∀ p k, R p k = if k.val = p.val / m then 1 else 0)
include hm hR

theorem kSpread_row (a : Fin 16 → EReal) (k : Fin 16) (j : Fin m) : kSpread R a (row hsz k j) = a k := by
  unfold kSpread; rw [sum_spread hsz hm R hR, feat_row]

theorem kYre_row (are aim : Fin 16 → EReal) (xr xi : Fin sz → EReal) (k : Fin 16) (j : Fin m) :
    kYre R are aim xr xi (row hsz k j) = modRe (are k) (aim k) (xr (row hsz k j)) (xi (row hsz k j)) := by
  unfold kYre modRe; rw [kSpread_row hsz hm R hR, kSpread_row hsz hm R hR]

theorem kYim_row (are aim : Fin 16 → EReal) (xr xi : Fin sz → EReal) (k : Fin 16) (j : Fin m) :
    kYim R are aim xr xi (row hsz k j) = modIm (are k) (aim k) (xr (row hsz k j)) (xi (row hsz k j)) := by
  unfold kYim modIm; rw [kSpread_row hsz hm R hR, kSpread_row hsz hm R hR]

theorem kNorm_eq (are aim : Fin 16 → EReal) (xr xi : Fin sz → EReal) (k : Fin 16) :
    kNorm R are aim xr xi k = energy (are k) (aim k) (fun j => xr (row hsz k j)) (fun j => xi (row hsz k j)) := by
  unfold kNorm energy
  rw [sum_gather hsz hm R hR]
  exact Finset.sum_congr rfl fun j _ => by rw [kYre_row hsz hm R hR, kYim_row hsz hm R hR]

theorem kDen_eq (are aim : Fin 16 → EReal) (xr xi : Fin sz → EReal) (k : Fin 16) :
    kDen R are aim xr xi k = denom (are k) (aim k) (fun j => xr (row hsz k j)) (fun j => xi (row hsz k j)) := by
  unfold kDen denom; rw [kNorm_eq hsz hm R hR]

/-- The kernel's real output entry on component j of feature k is the per-token function's. -/
theorem kOutRe_row (Wre Wim : Fin 16 → Fin 16 → EReal) (bre bim : Fin 16 → EReal) (rex imx : Fin 16 → EReal)
    (xr xi : Fin sz → EReal) (k : Fin 16) (j : Fin m) :
    kOutRe R (kGateRe Wre Wim bre bim rex imx) (kGateIm Wre Wim bre bim rex imx) xr xi (row hsz k j)
      = tokOut Wre Wim bre bim rex imx (fun k j => xr (row hsz k j)) (fun k j => xi (row hsz k j)) k j 0 := by
  unfold kOutRe tokOut
  rw [kYre_row hsz hm R hR, kSpread_row hsz hm R hR, kDen_eq hsz hm R hR, kGateRe_eq, kGateIm_eq,
    if_pos (show (0 : Fin 2).val = 0 from rfl)]

/-- The kernel's imaginary output entry likewise. -/
theorem kOutIm_row (Wre Wim : Fin 16 → Fin 16 → EReal) (bre bim : Fin 16 → EReal) (rex imx : Fin 16 → EReal)
    (xr xi : Fin sz → EReal) (k : Fin 16) (j : Fin m) :
    kOutIm R (kGateRe Wre Wim bre bim rex imx) (kGateIm Wre Wim bre bim rex imx) xr xi (row hsz k j)
      = tokOut Wre Wim bre bim rex imx (fun k j => xr (row hsz k j)) (fun k j => xi (row hsz k j)) k j 1 := by
  unfold kOutIm tokOut
  rw [kYim_row hsz hm R hR, kSpread_row hsz hm R hR, kDen_eq hsz hm R hR, kGateRe_eq, kGateIm_eq,
    if_neg (show ¬ (1 : Fin 2).val = 0 by decide)]

end Membership

end Cert.KerForm

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.KerEntry.lean ====
/-
  Reading the kernel's vector operations at an entry, at the exact values.

  A product accumulated into the zero matrix is, at (p, q), the sum over the contracted axis of the operands'
  products; a bias vector reshaped to a column and spread over the 2048 lanes reads the vector at the row; a change
  of float format is the identity; the elementwise operations act entry by entry.
-/
import proofs.«132330_j16243566313947_1_alg».proof.Proof.Gen.KernelIdeal.Skeleton
import proofs.«132330_j16243566313947_1_alg».proof.Proof.LibMatmulPlain
import proofs.«132330_j16243566313947_1_alg».proof.Proof.LibColumns
import proofs.«132330_j16243566313947_1_alg».proof.Proof.KerForm
import Idealize.ShloMosaic.Lib.ValueLayout

noncomputable section

open scoped BigOperators

namespace Cert.KerEntry

open Idealize.ShloMosaic Idealize.ShloMosaic.ValueIdx Cert.KernelIdeal Cert.KernelIdeal.Gen Cert.LibMatmulPlain

theorem sqrt_apply {s : Shape} {φ : FTy} (v : FVec Ideal s φ) (i : s.Idx) : sqrt v i = Ideal.sqrt (v i) := rfl

/-- The 16×16 by 16×2048 product (an affine layer on a block of 2048 tokens). -/
theorem mm_lin {φ₁ φ₂ : FTy} (A : FVec Ideal S16x16 φ₁) (B : FVec Ideal S16x2048 φ₂) (p : Fin 16) (q : Fin 2048) :
    matmul dot_S16x16_S16x2048_S16x2048_1_0_0_1_n_n none A B (constant (F := Ideal) S16x2048 .f32 0x00000000#32) (ix2 p q)
      = ∑ k : Fin 16, A (ix2 p k) * B (ix2 k q) :=
  matmul_plain_zero_apply _ rfl none A B p q

/-- Spreading over the rows of a group: sz×16 by 16×2048. -/
theorem mm_spread48 {φ₁ φ₂ : FTy} (A : FVec Ideal S48x16 φ₁) (B : FVec Ideal S16x2048 φ₂) (p : Fin 48) (q : Fin 2048) :
    matmul dot_S48x16_S16x2048_S48x2048_1_0_0_1_n_n none A B (constant (F := Ideal) S48x2048 .f32 0x00000000#32) (ix2 p q)
      = ∑ k : Fin 16, A (ix2 p k) * B (ix2 k q) :=
  matmul_plain_zero_apply _ rfl none A B p q

theorem mm_spread80 {φ₁ φ₂ : FTy} (A : FVec Ideal S80x16 φ₁) (B : FVec Ideal S16x2048 φ₂) (p : Fin 80) (q : Fin 2048) :
    matmul dot_S80x16_S16x2048_S80x2048_1_0_0_1_n_n none A B (constant (F := Ideal) S80x2048 .f32 0x00000000#32) (ix2 p q)
      = ∑ k : Fin 16, A (ix2 p k) * B (ix2 k q) :=
  matmul_plain_zero_apply _ rfl none A B p q

theorem mm_spread112 {φ₁ φ₂ : FTy} (A : FVec Ideal S112x16 φ₁) (B : FVec Ideal S16x2048 φ₂) (p : Fin 112) (q : Fin 2048) :
    matmul dot_S112x16_S16x2048_S112x2048_1_0_0_1_n_n none A B (constant (F := Ideal) S112x2048 .f32 0x00000000#32) (ix2 p q)
      = ∑ k : Fin 16, A (ix2 p k) * B (ix2 k q) :=
  matmul_plain_zero_apply _ rfl none A B p q

/-- Gathering over the rows of a group: 16×sz by sz×2048. -/
theorem mm_gather48 {φ₁ φ₂ : FTy} (A : FVec Ideal S16x48 φ₁) (B : FVec Ideal S48x2048 φ₂) (p : Fin 16) (q : Fin 2048) :
    matmul dot_S16x48_S48x2048_S16x2048_1_0_0_1_n_n none A B (constant (F := Ideal) S16x2048 .f32 0x00000000#32) (ix2 p q)
      = ∑ k : Fin 48, A (ix2 p k) * B (ix2 k q) :=
  matmul_plain_zero_apply _ rfl none A B p q

theorem mm_gather80 {φ₁ φ₂ : FTy} (A : FVec Ideal S16x80 φ₁) (B : FVec Ideal S80x2048 φ₂) (p : Fin 16) (q : Fin 2048) :
    matmul dot_S16x80_S80x2048_S16x2048_1_0_0_1_n_n none A B (constant (F := Ideal) S16x2048 .f32 0x00000000#32) (ix2 p q)
      = ∑ k : Fin 80, A (ix2 p k) * B (ix2 k q) :=
  matmul_plain_zero_apply _ rfl none A B p q

theorem mm_gather112 {φ₁ φ₂ : FTy} (A : FVec Ideal S16x112 φ₁) (B : FVec Ideal S112x2048 φ₂) (p : Fin 16) (q : Fin 2048) :
    matmul dot_S16x112_S112x2048_S16x2048_1_0_0_1_n_n none A B (constant (F := Ideal) S16x2048 .f32 0x00000000#32) (ix2 p q)
      = ∑ k : Fin 112, A (ix2 p k) * B (ix2 k q) :=
  matmul_plain_zero_apply _ rfl none A B p q

/-- A [1, 16] slice of the biases, as a column spread over the lanes, reads the bias of the row. -/
theorem bias_col (v : Vec Ideal S1x16 .f32) (k : Fin 16) (q : Fin 2048) :
    broadcastTo S16x2048 (shapeCast S16x1 (shapeCast S16 v shapeCasts_S1x16_S16) shapeCasts_S16_S16x1) broadcasts_S16x1_S16x2048 (ix2 k q)
      = v (ix2 (0 : Fin 1) k) := by
  rw [Cert.Columns.broadcastTo_a1_ab_apply, Cert.Columns.shapeCast_a_a1_apply, shapeCast_1a_a_apply]

/-- The bias columns of the three layers, spread over the lanes. -/
theorem col14 (v : Vec Ideal S1x16 .f32) (k : Fin 16) (q : Fin 2048) :
    broadcastTo S16x2048 (k0_pay14 v) broadcasts_S16x1_S16x2048 (ix2 k q) = v (ix2 (0 : Fin 1) k) := bias_col v k q
theorem col15 (v : Vec Ideal S1x16 .f32) (k : Fin 16) (q : Fin 2048) :
    broadcastTo S16x2048 (k0_pay15 v) broadcasts_S16x1_S16x2048 (ix2 k q) = v (ix2 (0 : Fin 1) k) := bias_col v k q
theorem col19 (v : Vec Ideal S1x16 .f32) (k : Fin 16) (q : Fin 2048) :
    k0_pay19 v (ix2 k q) = v (ix2 (0 : Fin 1) k) := bias_col v k q
theorem col32 (v : Vec Ideal S1x16 .f32) (k : Fin 16) (q : Fin 2048) :
    broadcastTo S16x2048 (k0_pay32 v) broadcasts_S16x1_S16x2048 (ix2 k q) = v (ix2 (0 : Fin 1) k) := bias_col v k q
theorem col33 (v : Vec Ideal S1x16 .f32) (k : Fin 16) (q : Fin 2048) :
    broadcastTo S16x2048 (k0_pay33 v) broadcasts_S16x1_S16x2048 (ix2 k q) = v (ix2 (0 : Fin 1) k) := bias_col v k q
theorem col49 (v : Vec Ideal S1x16 .f32) (k : Fin 16) (q : Fin 2048) :
    broadcastTo S16x2048 (k0_pay49 v) broadcasts_S16x1_S16x2048 (ix2 k q) = v (ix2 (0 : Fin 1) k) := bias_col v k q
theorem col50 (v : Vec Ideal S1x16 .f32) (k : Fin 16) (q : Fin 2048) :
    broadcastTo S16x2048 (k0_pay50 v) broadcasts_S16x1_S16x2048 (ix2 k q) = v (ix2 (0 : Fin 1) k) := bias_col v k q

/-- The membership matrices transposed. -/
theorem tr16 (R : Vec Ideal S48x16 .f32) (k : Fin 16) (p : Fin 48) : k0_pay16 R (ix2 k p) = R (ix2 p k) :=
  transpose_ix2_apply R transposes_S48x16_p1_0_S16x48 k p
theorem tr34 (R : Vec Ideal S80x16 .f32) (k : Fin 16) (p : Fin 80) : k0_pay34 R (ix2 k p) = R (ix2 p k) :=
  transpose_ix2_apply R transposes_S80x16_p1_0_S16x80 k p
theorem tr51 (R : Vec Ideal S112x16 .f32) (k : Fin 16) (p : Fin 112) : k0_pay51 R (ix2 k p) = R (ix2 p k) :=
  transpose_ix2_apply R transposes_S112x16_p1_0_S16x112 k p

/-- A leading unit axis dropped from a loaded piece, or added to a stored one. -/
theorem drop8 (v : Vec Ideal S1x16x2048 .f32) (i : Fin 16) (q : Fin 2048) : k0_pay8 v (ix2 i q) = v (ix3 (0 : Fin 1) i q) :=
  shapeCast_1ab_ab_apply v shapeCasts_S1x16x2048_S16x2048 i q
theorem drop9 (v : Vec Ideal S1x16x2048 .f32) (i : Fin 16) (q : Fin 2048) : k0_pay9 v (ix2 i q) = v (ix3 (0 : Fin 1) i q) :=
  shapeCast_1ab_ab_apply v shapeCasts_S1x16x2048_S16x2048 i q

end Cert.KerEntry

end
-- ==== Proof.KerG1.lean ====
/-
  The first group (3 components per feature, channels 16…63) as the kernel computes it on a block of 2048 tokens:
  every entry of its two stored pieces is the kernel-form output (KerForm) of the loaded weights, biases, membership
  matrix, scalar features and the group's own rows.
-/
import proofs.«132330_j16243566313947_1_alg».proof.Proof.KerEntry

set_option maxRecDepth 16384

noncomputable section

open scoped BigOperators

namespace Cert.KerG1

open Idealize.ShloMosaic Idealize.ShloMosaic.ValueIdx Cert.KernelIdeal Cert.KernelIdeal.Gen Cert.KerEntry Cert.KerForm

variable (L0 L1 : Vec Ideal S1x16x2048 .f32) (A B : Vec Ideal S1x16x16 .f32) (C D : Vec Ideal S1x16 .f32)
  (R : Vec Ideal S48x16 .f32) (XR XI : Vec Ideal S1x48x2048 .f32)

/-- The real parts stored on channels 16…63. -/
theorem re_apply (u : Fin 1) (p : Fin 48) (q : Fin 2048) :
    k0_pay28 (k0_pay27 (k0_pay9 L1) (k0_pay12 A) (k0_pay13 B) (k0_pay14 C) (k0_pay15 D) R (k0_pay16 R) (k0_pay17 L0 A C)
        (k0_pay18 L0 B) (k0_pay19 D) XR XI) (ix3 u p q)
      = kOutRe (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay28, k0_pay27, k0_pay26, k0_pay25, k0_pay24, k0_pay23, k0_pay22, k0_pay21, k0_pay20, k0_pay18,
    k0_pay17, k0_pay13, k0_pay12, drop8, drop9, col14, col15, col19, tr16,
    shapeCast_ab_1ab_apply, shapeCast_1ab_ab_apply, divf_apply, subf_apply, addf_apply, mulf_apply, truncf_apply, sqrt_apply,
    broadcast_apply, mm_lin, mm_spread48, mm_gather48]
  rfl

/-- The imaginary parts stored on channels 16…63. -/
theorem im_apply (u : Fin 1) (p : Fin 48) (q : Fin 2048) :
    k0_pay29 (k0_pay25 (k0_pay9 L1) (k0_pay12 A) (k0_pay13 B) (k0_pay14 C) (k0_pay15 D) R (k0_pay17 L0 A C)
        (k0_pay18 L0 B) (k0_pay19 D) XR XI)
      (k0_pay26 (k0_pay9 L1) (k0_pay12 A) (k0_pay13 B) (k0_pay14 C) (k0_pay15 D) R (k0_pay16 R) (k0_pay17 L0 A C)
        (k0_pay18 L0 B) (k0_pay19 D) XR XI) (ix3 u p q)
      = kOutIm (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay29, k0_pay26, k0_pay25, k0_pay24, k0_pay23, k0_pay22, k0_pay21, k0_pay20, k0_pay18,
    k0_pay17, k0_pay13, k0_pay12, drop8, drop9, col14, col15, col19, tr16,
    shapeCast_ab_1ab_apply, shapeCast_1ab_ab_apply, divf_apply, subf_apply, addf_apply, mulf_apply, truncf_apply, sqrt_apply,
    broadcast_apply, mm_lin, mm_spread48, mm_gather48]
  rfl

end Cert.KerG1

end
-- ==== Proof.KerG2.lean ====
/-
  The second group (5 components per feature, channels 64…143) as the kernel computes it on a block of 2048 tokens.
-/
import proofs.«132330_j16243566313947_1_alg».proof.Proof.KerEntry

set_option maxRecDepth 16384

noncomputable section

open scoped BigOperators

namespace Cert.KerG2

open Idealize.ShloMosaic Idealize.ShloMosaic.ValueIdx Cert.KernelIdeal Cert.KernelIdeal.Gen Cert.KerEntry Cert.KerForm

variable (L0 L1 : Vec Ideal S1x16x2048 .f32) (A B : Vec Ideal S1x16x16 .f32) (C D : Vec Ideal S1x16 .f32)
  (R : Vec Ideal S80x16 .f32) (XR XI : Vec Ideal S1x80x2048 .f32)

/-- The real parts stored on channels 64…143. -/
theorem re_apply (u : Fin 1) (p : Fin 80) (q : Fin 2048) :
    k0_pay45 R (k0_pay34 R) (k0_pay35 (k0_pay8 L0) B D) (k0_pay36 (k0_pay9 L1) A C) (k0_pay37 (k0_pay8 L0) (k0_pay9 L1) A B C D) XR XI (ix3 u p q)
      = kOutRe (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay45, k0_pay44, k0_pay43, k0_pay42, k0_pay41, k0_pay40, k0_pay39, k0_pay38, k0_pay37, k0_pay36, k0_pay35,
    k0_pay31, k0_pay30, drop8, drop9, col32, col33, tr34,
    shapeCast_ab_1ab_apply, shapeCast_1ab_ab_apply, divf_apply, subf_apply, addf_apply, mulf_apply, truncf_apply, sqrt_apply,
    broadcast_apply, mm_lin, mm_spread80, mm_gather80]
  rfl

/-- The imaginary parts stored on channels 64…143. -/
theorem im_apply (u : Fin 1) (p : Fin 80) (q : Fin 2048) :
    k0_pay46 R (k0_pay34 R) (k0_pay35 (k0_pay8 L0) B D) (k0_pay36 (k0_pay9 L1) A C) (k0_pay37 (k0_pay8 L0) (k0_pay9 L1) A B C D) XR XI (ix3 u p q)
      = kOutIm (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay46, k0_pay44, k0_pay43, k0_pay42, k0_pay41, k0_pay40, k0_pay39, k0_pay38, k0_pay37, k0_pay36, k0_pay35,
    k0_pay31, k0_pay30, drop8, drop9, col32, col33, tr34,
    shapeCast_ab_1ab_apply, shapeCast_1ab_ab_apply, divf_apply, subf_apply, addf_apply, mulf_apply, truncf_apply, sqrt_apply,
    broadcast_apply, mm_lin, mm_spread80, mm_gather80]
  rfl

end Cert.KerG2

end
-- ==== Proof.KerG3.lean ====
/-
  The third group (7 components per feature, channels 144…255) as the kernel computes it on a block of 2048 tokens.
-/
import proofs.«132330_j16243566313947_1_alg».proof.Proof.KerEntry

set_option maxRecDepth 16384

noncomputable section

open scoped BigOperators

namespace Cert.KerG3

open Idealize.ShloMosaic Idealize.ShloMosaic.ValueIdx Cert.KernelIdeal Cert.KernelIdeal.Gen Cert.KerEntry Cert.KerForm

variable (L0 L1 : Vec Ideal S1x16x2048 .f32) (A B : Vec Ideal S1x16x16 .f32) (C D : Vec Ideal S1x16 .f32)
  (R : Vec Ideal S112x16 .f32) (XR XI : Vec Ideal S1x112x2048 .f32)

/-- The real parts stored on channels 144…255. -/
theorem re_apply (u : Fin 1) (p : Fin 112) (q : Fin 2048) :
    k0_pay6 R (k0_pay51 R) (k0_pay52 (k0_pay8 L0) (k0_pay9 L1) A B C D) (k0_pay53 XR) (k0_pay54 XI) (k0_pay55 R)
        (k0_pay56 (k0_pay8 L0) (k0_pay9 L1) A B C D) (constant S112x2048 .f32 0x00000000#32) (ix3 u p q)
      = kOutRe (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay6, k0_pay5, k0_pay4, k0_pay3, k0_pay2, k0_pay1, k0_pay56, k0_pay55, k0_pay54, k0_pay53, k0_pay52,
    k0_pay48, k0_pay47, drop8, drop9, col49, col50, tr51,
    shapeCast_ab_1ab_apply, shapeCast_1ab_ab_apply, divf_apply, subf_apply, addf_apply, mulf_apply, truncf_apply, sqrt_apply,
    broadcast_apply, mm_lin, mm_spread112, mm_gather112]
  rfl

/-- The imaginary parts stored on channels 144…255. -/
theorem im_apply (u : Fin 1) (p : Fin 112) (q : Fin 2048) :
    k0_pay7 R (k0_pay51 R) (k0_pay52 (k0_pay8 L0) (k0_pay9 L1) A B C D) (k0_pay53 XR) (k0_pay54 XI) (k0_pay55 R)
        (k0_pay56 (k0_pay8 L0) (k0_pay9 L1) A B C D) (constant S112x2048 .f32 0x00000000#32) (ix3 u p q)
      = kOutIm (fun p k => R (ix2 p k))
          (kGateRe (fun k i => A (ix3 0 k i)) (fun k i => B (ix3 0 k i)) (fun k => C (ix2 0 k)) (fun k => D (ix2 0 k))
            (fun i => L0 (ix3 0 i q)) (fun i => L1 (ix3 0 i q)))
          (kGateIm (fun k i => A (ix3 0 k i)) (fun k i => B (ix3 0 k i)) (fun k => C (ix2 0 k)) (fun k => D (ix2 0 k))
            (fun i => L0 (ix3 0 i q)) (fun i => L1 (ix3 0 i q)))
          (fun p => XR (ix3 0 p q)) (fun p => XI (ix3 0 p q)) p := by
  simp only [k0_pay7, k0_pay5, k0_pay4, k0_pay3, k0_pay2, k0_pay1, k0_pay56, k0_pay55, k0_pay54, k0_pay53, k0_pay52,
    k0_pay48, k0_pay47, drop8, drop9, col49, col50, tr51,
    shapeCast_ab_1ab_apply, shapeCast_1ab_ab_apply, divf_apply, subf_apply, addf_apply, mulf_apply, truncf_apply, sqrt_apply,
    broadcast_apply, mm_lin, mm_spread112, mm_gather112]
  rfl

end Cert.KerG3

end
-- ==== Proof.LibLoadUnit.lean ====
/-
  A load through a unit-stride rectangle, read at an entry: the array at the rectangle's offsets plus the entry's
  coordinates.
-/
import Idealize.ShloMosaic.Lib.Pipeline.FrameBody
import Idealize.ShloMosaic.Lib.ValueIdx

noncomputable section

namespace Cert.LibLoadUnit

open Idealize.ShloMosaic Idealize.ShloMosaic.ValueIdx

variable {Val : EltTy → Type} {e : EltTy}

/-- Rank 3: the entry (a, b, c) of the load is the array at (o0 + a, o1 + b, o2 + c). -/
theorem ld_unit3 {N0 N1 N2 n0 n1 n2 o0 o1 o2 : ℕ} (X : (⟨3, ![N0, N1, N2]⟩ : Shape).Idx → Val e)
    (inb : ∀ a, (![o0, o1, o2] : Fin 3 → ℕ) a + (![n0, n1, n2] : Fin 3 → ℕ) a ≤ (⟨3, ![N0, N1, N2]⟩ : Shape).size a)
    (a : Fin n0) (b : Fin n1) (c : Fin n2) (a' : Fin N0) (b' : Fin N1) (c' : Fin N2)
    (h0 : a'.val = o0 + a.val) (h1 : b'.val = o1 + b.val) (h2 : c'.val = o2 + c.val) :
    View.ld X (Rect.unit (s := ⟨3, ![N0, N1, N2]⟩) ![o0, o1, o2] ![n0, n1, n2] inb) (ix3 a b c) = X (ix3 a' b' c') := by
  show X _ = X _
  refine congrArg X (funext fun d => Fin.ext ?_)
  match d with
  | ⟨0, _⟩ => show o0 + 1 * a.val = a'.val; omega
  | ⟨1, _⟩ => show o1 + 1 * b.val = b'.val; omega
  | ⟨2, _⟩ => show o2 + 1 * c.val = c'.val; omega

/-- Rank 2. -/
theorem ld_unit2 {N0 N1 n0 n1 o0 o1 : ℕ} (X : (⟨2, ![N0, N1]⟩ : Shape).Idx → Val e)
    (inb : ∀ a, (![o0, o1] : Fin 2 → ℕ) a + (![n0, n1] : Fin 2 → ℕ) a ≤ (⟨2, ![N0, N1]⟩ : Shape).size a)
    (a : Fin n0) (b : Fin n1) (a' : Fin N0) (b' : Fin N1)
    (h0 : a'.val = o0 + a.val) (h1 : b'.val = o1 + b.val) :
    View.ld X (Rect.unit (s := ⟨2, ![N0, N1]⟩) ![o0, o1] ![n0, n1] inb) (ix2 a b) = X (ix2 a' b') := by
  show X _ = X _
  refine congrArg X (funext fun d => Fin.ext ?_)
  match d with
  | ⟨0, _⟩ => show o0 + 1 * a.val = a'.val; omega
  | ⟨1, _⟩ => show o1 + 1 * b.val = b'.val; omega

/-- The index a unit-stride rectangle of rank 3 places its entry (a, b, c) at. -/
theorem emb_unit3 {N0 N1 N2 n0 n1 n2 o0 o1 o2 : ℕ}
    (inb : ∀ a, (![o0, o1, o2] : Fin 3 → ℕ) a + (![n0, n1, n2] : Fin 3 → ℕ) a ≤ (⟨3, ![N0, N1, N2]⟩ : Shape).size a)
    (a : Fin n0) (b : Fin n1) (c : Fin n2) (a' : Fin N0) (b' : Fin N1) (c' : Fin N2)
    (h0 : a'.val = o0 + a.val) (h1 : b'.val = o1 + b.val) (h2 : c'.val = o2 + c.val) :
    (Rect.unit (s := ⟨3, ![N0, N1, N2]⟩) ![o0, o1, o2] ![n0, n1, n2] inb).emb (ix3 a b c) = ix3 a' b' c' := by
  refine funext fun d => Fin.ext ?_
  match d with
  | ⟨0, _⟩ => show o0 + 1 * a.val = a'.val; omega
  | ⟨1, _⟩ => show o1 + 1 * b.val = b'.val; omega
  | ⟨2, _⟩ => show o2 + 1 * c.val = c'.val; omega

end Cert.LibLoadUnit

end
-- ==== Proof.KerBlock.lean ====
/-
  One block of the output as ONE function of the block's inputs.

  At a grid point the body sees a [2, 256, 2048] block of the re/im-major input (2048 tokens), the three layers of
  weights and biases and the three membership matrices, and stores eight pieces: the sixteen scalar channels copied,
  real and imaginary, and for each group the real and the imaginary rows. Every stored entry is `blkFn` of the inputs
  at the entry's own index, and — once the inputs are known to be the token-major input, the weight layers 1…3 and the
  membership matrices — `blkFn` is the result function `Spec.Out`.
-/
import proofs.«132330_j16243566313947_1_alg».proof.Proof.KerForm
import proofs.«132330_j16243566313947_1_alg».proof.Proof.Gen.KernelIdeal.Frame
import proofs.«132330_j16243566313947_1_alg».proof.Proof.KerG1
import proofs.«132330_j16243566313947_1_alg».proof.Proof.KerG2
import proofs.«132330_j16243566313947_1_alg».proof.Proof.KerG3
import proofs.«132330_j16243566313947_1_alg».proof.Proof.LibLoadUnit

set_option maxRecDepth 16384

noncomputable section

open scoped BigOperators

namespace Cert.KerBlock

open Idealize.ShloMosaic Idealize.ShloMosaic.ValueIdx Cert.KernelIdeal Cert.KernelIdeal.Gen Cert.KerForm Cert.KerEntry Cert.LibLoadUnit

/-- The sixteen scalar features of lane `q`, real (`cc = 0`) or imaginary part. -/
def scal (x0 : Vec Ideal S2x256x2048 .f32) (cc : Fin 2) (q : Fin 2048) : Fin 16 → EReal :=
  fun i => x0 (ix3 cc (⟨i.val, Cert.Spec.lt256_of_lt16 i⟩ : Fin 256) q)

/-- The `sz` rows of a group starting at channel `base`, on lane `q`. -/
def rows (sz base : ℕ) (h : base + sz ≤ 256) (x0 : Vec Ideal S2x256x2048 .f32) (cc : Fin 2) (q : Fin 2048) : Fin sz → EReal :=
  fun p => x0 (ix3 cc (⟨base + p.val, by have := p.isLt; omega⟩ : Fin 256) q)

/-- A group's block entry: row `p` of the group, lane `q`, real or imaginary part, from layer `g` of the block's
    weights and the group's membership matrix `R`. -/
def grpBlk (sz base : ℕ) (h : base + sz ≤ 256) (g : Fin 3) (x0 : Vec Ideal S2x256x2048 .f32)
    (x1 x2 : Vec Ideal S3x16x16 .f32) (x3 x4 : Vec Ideal S3x16 .f32) (R : (⟨2, ![sz, 16]⟩ : Shape).Idx → EReal)
    (cc : Fin 2) (p : Fin sz) (q : Fin 2048) : EReal :=
  if cc.val = 0 then
    kOutRe (fun p k => R (ix2 p k))
      (kGateRe (fun k i => x1 (ix3 g k i)) (fun k i => x2 (ix3 g k i)) (fun k => x3 (ix2 g k)) (fun k => x4 (ix2 g k)) (scal x0 0 q) (scal x0 1 q))
      (kGateIm (fun k i => x1 (ix3 g k i)) (fun k i => x2 (ix3 g k i)) (fun k => x3 (ix2 g k)) (fun k => x4 (ix2 g k)) (scal x0 0 q) (scal x0 1 q))
      (rows sz base h x0 0 q) (rows sz base h x0 1 q) p
  else
    kOutIm (fun p k => R (ix2 p k))
      (kGateRe (fun k i => x1 (ix3 g k i)) (fun k i => x2 (ix3 g k i)) (fun k => x3 (ix2 g k)) (fun k => x4 (ix2 g k)) (scal x0 0 q) (scal x0 1 q))
      (kGateIm (fun k i => x1 (ix3 g k i)) (fun k i => x2 (ix3 g k i)) (fun k => x3 (ix2 g k)) (fun k => x4 (ix2 g k)) (scal x0 0 q) (scal x0 1 q))
      (rows sz base h x0 0 q) (rows sz base h x0 1 q) p

/-- THE BLOCK: entry (cc, ch, q) of what the body leaves in the output's staging buffer. -/
def blkFn (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (cc : Fin 2) (ch : Fin 256) (q : Fin 2048) : EReal :=
  if ch.val < 16 then x0 (ix3 cc ch q)
  else if h1 : ch.val < 64 then grpBlk 48 16 (by decide) 0 x0 x1 x2 x3 x4 x5 cc ⟨ch.val - 16, by omega⟩ q
  else if h2 : ch.val < 144 then grpBlk 80 64 (by decide) 1 x0 x1 x2 x3 x4 x6 cc ⟨ch.val - 64, by omega⟩ q
  else grpBlk 112 144 (by decide) 2 x0 x1 x2 x3 x4 x7 cc ⟨ch.val - 144, by have := ch.isLt; omega⟩ q

/-- The kernel-form outputs depend on their arguments only through the arguments' values. -/
theorem kOut_congr {sz : ℕ} {R R' : Fin sz → Fin 16 → EReal} {Wre Wre' Wim Wim' : Fin 16 → Fin 16 → EReal}
    {bre bre' bim bim' rex rex' imx imx' : Fin 16 → EReal} {xr xr' xi xi' : Fin sz → EReal} {p p' : Fin sz}
    (hR : ∀ p k, R p k = R' p k) (hWre : ∀ k i, Wre k i = Wre' k i) (hWim : ∀ k i, Wim k i = Wim' k i)
    (hbre : ∀ k, bre k = bre' k) (hbim : ∀ k, bim k = bim' k) (hrex : ∀ i, rex i = rex' i) (himx : ∀ i, imx i = imx' i)
    (hxr : ∀ p, xr p = xr' p) (hxi : ∀ p, xi p = xi' p) (hp : p = p') :
    kOutRe R (kGateRe Wre Wim bre bim rex imx) (kGateIm Wre Wim bre bim rex imx) xr xi p
        = kOutRe R' (kGateRe Wre' Wim' bre' bim' rex' imx') (kGateIm Wre' Wim' bre' bim' rex' imx') xr' xi' p'
      ∧ kOutIm R (kGateRe Wre Wim bre bim rex imx) (kGateIm Wre Wim bre bim rex imx) xr xi p
        = kOutIm R' (kGateRe Wre' Wim' bre' bim' rex' imx') (kGateIm Wre' Wim' bre' bim' rex' imx') xr' xi' p' := by
  obtain rfl : R = R' := funext fun p => funext fun k => hR p k
  obtain rfl : Wre = Wre' := funext fun k => funext fun i => hWre k i
  obtain rfl : Wim = Wim' := funext fun k => funext fun i => hWim k i
  obtain rfl : bre = bre' := funext hbre
  obtain rfl : bim = bim' := funext hbim
  obtain rfl : rex = rex' := funext hrex
  obtain rfl : imx = imx' := funext himx
  obtain rfl : xr = xr' := funext hxr
  obtain rfl : xi = xi' := funext hxi
  subst hp
  exact ⟨rfl, rfl⟩

theorem blkFn_congr (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) {cc cc' : Fin 2} {ch ch' : Fin 256} {q q' : Fin 2048}
    (h1 : cc = cc') (h2 : ch = ch') (h3 : q = q') :
    blkFn x0 x1 x2 x3 x4 x5 x6 x7 cc ch q = blkFn x0 x1 x2 x3 x4 x5 x6 x7 cc' ch' q' := by
  subst h1 h2 h3; rfl

/-- The scalar channels are copied. -/
theorem piece_scal (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (c0 : Fin 2) (u : Fin 1) (i : Fin 16) (q : Fin 2048) :
    blkFn x0 x1 x2 x3 x4 x5 x6 x7 c0 (⟨i.val, Cert.Spec.lt256_of_lt16 i⟩ : Fin 256) q = x0 (ix3 c0 (⟨i.val, Cert.Spec.lt256_of_lt16 i⟩ : Fin 256) q) := by
  unfold blkFn
  rw [if_pos (by show i.val < 16; exact i.isLt)]

theorem piece_s0 (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (i : Fin 16) (q : Fin 2048) :
    k0_pay10 (View.ld x0 (Rect.unit ![0, 0, 0] ![1, 16, 2048] inb_S2x256x2048_S1x16x2048_0_0_0)) (ix3 u i q)
      = blkFn x0 x1 x2 x3 x4 x5 x6 x7 (0 : Fin 2) (⟨i.val, Cert.Spec.lt256_of_lt16 i⟩ : Fin 256) q := by
  rw [piece_scal x0 x1 x2 x3 x4 x5 x6 x7 0 u i q]
  unfold k0_pay10
  refine (shapeCast_ab_1ab_apply _ shapeCasts_S16x2048_S1x16x2048 u i q).trans ?_
  refine (drop8 _ i q).trans ?_
  exact ld_unit3 x0 inb_S2x256x2048_S1x16x2048_0_0_0 (0 : Fin 1) i q (0 : Fin 2) (⟨i.val, Cert.Spec.lt256_of_lt16 i⟩ : Fin 256) q (by decide) (by show i.val = 0 + i.val; omega) (by omega)

theorem piece_s1 (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (i : Fin 16) (q : Fin 2048) :
    k0_pay11 (View.ld x0 (Rect.unit ![1, 0, 0] ![1, 16, 2048] inb_S2x256x2048_S1x16x2048_1_0_0)) (ix3 u i q)
      = blkFn x0 x1 x2 x3 x4 x5 x6 x7 (1 : Fin 2) (⟨i.val, Cert.Spec.lt256_of_lt16 i⟩ : Fin 256) q := by
  rw [piece_scal x0 x1 x2 x3 x4 x5 x6 x7 1 u i q]
  unfold k0_pay11
  refine (shapeCast_ab_1ab_apply _ shapeCasts_S16x2048_S1x16x2048 u i q).trans ?_
  refine (drop9 _ i q).trans ?_
  exact ld_unit3 x0 inb_S2x256x2048_S1x16x2048_1_0_0 (0 : Fin 1) i q (1 : Fin 2) (⟨i.val, Cert.Spec.lt256_of_lt16 i⟩ : Fin 256) q (by decide) (by show i.val = 0 + i.val; omega) (by omega)

/-- Group 1, real rows: the stored piece is the block function on channels 16…63. -/
theorem piece_g1_re (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 48) (q : Fin 2048) :
    k0_pay28 (k0_pay27 (k0_pay9 (View.ld x0 (Rect.unit ![1, 0, 0] S1x16x2048.size inb_S2x256x2048_S1x16x2048_1_0_0))) (k0_pay12 (View.ld x1 (Rect.unit ![0, 0, 0] S1x16x16.size inb_S3x16x16_S1x16x16_0_0_0))) (k0_pay13 (View.ld x2 (Rect.unit ![0, 0, 0] S1x16x16.size inb_S3x16x16_S1x16x16_0_0_0))) (k0_pay14 (View.ld x3 (Rect.unit ![0, 0] S1x16.size inb_S3x16_S1x16_0_0))) (k0_pay15 (View.ld x4 (Rect.unit ![0, 0] S1x16.size inb_S3x16_S1x16_0_0))) (View.ld x5 (Rect.unit ![0, 0] S48x16.size inb_S48x16_S48x16_0_0)) (k0_pay16 (View.ld x5 (Rect.unit ![0, 0] S48x16.size inb_S48x16_S48x16_0_0))) (k0_pay17 (View.ld x0 (Rect.unit ![0, 0, 0] S1x16x2048.size inb_S2x256x2048_S1x16x2048_0_0_0)) (View.ld x1 (Rect.unit ![0, 0, 0] S1x16x16.size inb_S3x16x16_S1x16x16_0_0_0)) (View.ld x3 (Rect.unit ![0, 0] S1x16.size inb_S3x16_S1x16_0_0)))
        (k0_pay18 (View.ld x0 (Rect.unit ![0, 0, 0] S1x16x2048.size inb_S2x256x2048_S1x16x2048_0_0_0)) (View.ld x2 (Rect.unit ![0, 0, 0] S1x16x16.size inb_S3x16x16_S1x16x16_0_0_0))) (k0_pay19 (View.ld x4 (Rect.unit ![0, 0] S1x16.size inb_S3x16_S1x16_0_0))) (View.ld x0 (Rect.unit ![0, 16, 0] S1x48x2048.size inb_S2x256x2048_S1x48x2048_0_16_0)) (View.ld x0 (Rect.unit ![1, 16, 0] S1x48x2048.size inb_S2x256x2048_S1x48x2048_1_16_0))) (ix3 u p q)
      = blkFn x0 x1 x2 x3 x4 x5 x6 x7 (0 : Fin 2) (⟨16 + p.val, by have := p.isLt; omega⟩ : Fin 256) q := by
  refine (Cert.KerG1.re_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![0, 0, 0] S1x16x16.size inb_S3x16x16_S1x16x16_0_0_0)) (View.ld x2 (Rect.unit ![0, 0, 0] S1x16x16.size inb_S3x16x16_S1x16x16_0_0_0)) (View.ld x3 (Rect.unit ![0, 0] S1x16.size inb_S3x16_S1x16_0_0)) (View.ld x4 (Rect.unit ![0, 0] S1x16.size inb_S3x16_S1x16_0_0)) (View.ld x5 (Rect.unit ![0, 0] S48x16.size inb_S48x16_S48x16_0_0)) (View.ld x0 (Rect.unit ![0, 16, 0] S1x48x2048.size inb_S2x256x2048_S1x48x2048_0_16_0)) (View.ld x0 (Rect.unit ![1, 16, 0] S1x48x2048.size inb_S2x256x2048_S1x48x2048_1_16_0)) u p q).trans ?_
  unfold blkFn
  rw [if_neg (by show ¬ (16 + p.val < 16); omega), dif_pos (by show 16 + p.val < 64; omega)]
  unfold grpBlk
  rw [if_pos (show (0 : Fin 2).val = 0 from rfl)]
  exact (kOut_congr
    (fun p k => ld_unit2 x5 inb_S48x16_S48x16_0_0 p k p k (by omega) (by omega))
    (fun k i => ld_unit3 x1 inb_S3x16x16_S1x16x16_0_0_0 (0 : Fin 1) k i (0 : Fin 3) k i (by decide) (by omega) (by omega))
    (fun k i => ld_unit3 x2 inb_S3x16x16_S1x16x16_0_0_0 (0 : Fin 1) k i (0 : Fin 3) k i (by decide) (by omega) (by omega))
    (fun k => ld_unit2 x3 inb_S3x16_S1x16_0_0 (0 : Fin 1) k (0 : Fin 3) k (by decide) (by omega))
    (fun k => ld_unit2 x4 inb_S3x16_S1x16_0_0 (0 : Fin 1) k (0 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x48x2048_0_16_0 (0 : Fin 1) p q (0 : Fin 2) (⟨16 + p.val, by have := p.isLt; omega⟩ : Fin 256) q (by decide) rfl (by omega))
    (fun p => ld_unit3 x0 inb_S2x256x2048_S1x48x2048_1_16_0 (0 : Fin 1) p q (1 : Fin 2) (⟨16 + p.val, by have := p.isLt; omega⟩ : Fin 256) q (by decide) rfl (by omega))
    (Fin.ext (by show p.val = 16 + p.val - 16; omega))).1

/-- Group 1, imaginary rows: the stored piece is the block function on channels 16…63. -/
theorem piece_g1_im (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 48) (q : Fin 2048) :
    k0_pay29 (k0_pay25 (k0_pay9 (View.ld x0 (Rect.unit ![1, 0, 0] S1x16x2048.size inb_S2x256x2048_S1x16x2048_1_0_0))) (k0_pay12 (View.ld x1 (Rect.unit ![0, 0, 0] S1x16x16.size inb_S3x16x16_S1x16x16_0_0_0))) (k0_pay13 (View.ld x2 (Rect.unit ![0, 0, 0] S1x16x16.size inb_S3x16x16_S1x16x16_0_0_0))) (k0_pay14 (View.ld x3 (Rect.unit ![0, 0] S1x16.size inb_S3x16_S1x16_0_0))) (k0_pay15 (View.ld x4 (Rect.unit ![0, 0] S1x16.size inb_S3x16_S1x16_0_0))) (View.ld x5 (Rect.unit ![0, 0] S48x16.size inb_S48x16_S48x16_0_0)) (k0_pay17 (View.ld x0 (Rect.unit ![0, 0, 0] S1x16x2048.size inb_S2x256x2048_S1x16x2048_0_0_0)) (View.ld x1 (Rect.unit ![0, 0, 0] S1x16x16.size inb_S3x16x16_S1x16x16_0_0_0)) (View.ld x3 (Rect.unit ![0, 0] S1x16.size inb_S3x16_S1x16_0_0)))
        (k0_pay18 (View.ld x0 (Rect.unit ![0, 0, 0] S1x16x2048.size inb_S2x256x2048_S1x16x2048_0_0_0)) (View.ld x2 (Rect.unit ![0, 0, 0] S1x16x16.size inb_S3x16x16_S1x16x16_0_0_0))) (k0_pay19 (View.ld x4 (Rect.unit ![0, 0] S1x16.size inb_S3x16_S1x16_0_0))) (View.ld x0 (Rect.unit ![0, 16, 0] S1x48x2048.size inb_S2x256x2048_S1x48x2048_0_16_0)) (View.ld x0 (Rect.unit ![1, 16, 0] S1x48x2048.size inb_S2x256x2048_S1x48x2048_1_16_0)))
      (k0_pay26 (k0_pay9 (View.ld x0 (Rect.unit ![1, 0, 0] S1x16x2048.size inb_S2x256x2048_S1x16x2048_1_0_0))) (k0_pay12 (View.ld x1 (Rect.unit ![0, 0, 0] S1x16x16.size inb_S3x16x16_S1x16x16_0_0_0))) (k0_pay13 (View.ld x2 (Rect.unit ![0, 0, 0] S1x16x16.size inb_S3x16x16_S1x16x16_0_0_0))) (k0_pay14 (View.ld x3 (Rect.unit ![0, 0] S1x16.size inb_S3x16_S1x16_0_0))) (k0_pay15 (View.ld x4 (Rect.unit ![0, 0] S1x16.size inb_S3x16_S1x16_0_0))) (View.ld x5 (Rect.unit ![0, 0] S48x16.size inb_S48x16_S48x16_0_0)) (k0_pay16 (View.ld x5 (Rect.unit ![0, 0] S48x16.size inb_S48x16_S48x16_0_0))) (k0_pay17 (View.ld x0 (Rect.unit ![0, 0, 0] S1x16x2048.size inb_S2x256x2048_S1x16x2048_0_0_0)) (View.ld x1 (Rect.unit ![0, 0, 0] S1x16x16.size inb_S3x16x16_S1x16x16_0_0_0)) (View.ld x3 (Rect.unit ![0, 0] S1x16.size inb_S3x16_S1x16_0_0)))
        (k0_pay18 (View.ld x0 (Rect.unit ![0, 0, 0] S1x16x2048.size inb_S2x256x2048_S1x16x2048_0_0_0)) (View.ld x2 (Rect.unit ![0, 0, 0] S1x16x16.size inb_S3x16x16_S1x16x16_0_0_0))) (k0_pay19 (View.ld x4 (Rect.unit ![0, 0] S1x16.size inb_S3x16_S1x16_0_0))) (View.ld x0 (Rect.unit ![0, 16, 0] S1x48x2048.size inb_S2x256x2048_S1x48x2048_0_16_0)) (View.ld x0 (Rect.unit ![1, 16, 0] S1x48x2048.size inb_S2x256x2048_S1x48x2048_1_16_0))) (ix3 u p q)
      = blkFn x0 x1 x2 x3 x4 x5 x6 x7 (1 : Fin 2) (⟨16 + p.val, by have := p.isLt; omega⟩ : Fin 256) q := by
  refine (Cert.KerG1.im_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![0, 0, 0] S1x16x16.size inb_S3x16x16_S1x16x16_0_0_0)) (View.ld x2 (Rect.unit ![0, 0, 0] S1x16x16.size inb_S3x16x16_S1x16x16_0_0_0)) (View.ld x3 (Rect.unit ![0, 0] S1x16.size inb_S3x16_S1x16_0_0)) (View.ld x4 (Rect.unit ![0, 0] S1x16.size inb_S3x16_S1x16_0_0)) (View.ld x5 (Rect.unit ![0, 0] S48x16.size inb_S48x16_S48x16_0_0)) (View.ld x0 (Rect.unit ![0, 16, 0] S1x48x2048.size inb_S2x256x2048_S1x48x2048_0_16_0)) (View.ld x0 (Rect.unit ![1, 16, 0] S1x48x2048.size inb_S2x256x2048_S1x48x2048_1_16_0)) u p q).trans ?_
  unfold blkFn
  rw [if_neg (by show ¬ (16 + p.val < 16); omega), dif_pos (by show 16 + p.val < 64; omega)]
  unfold grpBlk
  rw [if_neg (show ¬ (1 : Fin 2).val = 0 by decide)]
  exact (kOut_congr
    (fun p k => ld_unit2 x5 inb_S48x16_S48x16_0_0 p k p k (by omega) (by omega))
    (fun k i => ld_unit3 x1 inb_S3x16x16_S1x16x16_0_0_0 (0 : Fin 1) k i (0 : Fin 3) k i (by decide) (by omega) (by omega))
    (fun k i => ld_unit3 x2 inb_S3x16x16_S1x16x16_0_0_0 (0 : Fin 1) k i (0 : Fin 3) k i (by decide) (by omega) (by omega))
    (fun k => ld_unit2 x3 inb_S3x16_S1x16_0_0 (0 : Fin 1) k (0 : Fin 3) k (by decide) (by omega))
    (fun k => ld_unit2 x4 inb_S3x16_S1x16_0_0 (0 : Fin 1) k (0 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x48x2048_0_16_0 (0 : Fin 1) p q (0 : Fin 2) (⟨16 + p.val, by have := p.isLt; omega⟩ : Fin 256) q (by decide) rfl (by omega))
    (fun p => ld_unit3 x0 inb_S2x256x2048_S1x48x2048_1_16_0 (0 : Fin 1) p q (1 : Fin 2) (⟨16 + p.val, by have := p.isLt; omega⟩ : Fin 256) q (by decide) rfl (by omega))
    (Fin.ext (by show p.val = 16 + p.val - 16; omega))).2

/-- Group 2, real rows: the stored piece is the block function on channels 64…143. -/
theorem piece_g2_re (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 80) (q : Fin 2048) :
    k0_pay45 (View.ld x6 (Rect.unit ![0, 0] S80x16.size inb_S80x16_S80x16_0_0)) (k0_pay34 (View.ld x6 (Rect.unit ![0, 0] S80x16.size inb_S80x16_S80x16_0_0))) (k0_pay35 (k0_pay8 (View.ld x0 (Rect.unit ![0, 0, 0] S1x16x2048.size inb_S2x256x2048_S1x16x2048_0_0_0))) (View.ld x2 (Rect.unit ![1, 0, 0] S1x16x16.size inb_S3x16x16_S1x16x16_1_0_0)) (View.ld x4 (Rect.unit ![1, 0] S1x16.size inb_S3x16_S1x16_1_0))) (k0_pay36 (k0_pay9 (View.ld x0 (Rect.unit ![1, 0, 0] S1x16x2048.size inb_S2x256x2048_S1x16x2048_1_0_0))) (View.ld x1 (Rect.unit ![1, 0, 0] S1x16x16.size inb_S3x16x16_S1x16x16_1_0_0)) (View.ld x3 (Rect.unit ![1, 0] S1x16.size inb_S3x16_S1x16_1_0))) (k0_pay37 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![1, 0, 0] S1x16x16.size inb_S3x16x16_S1x16x16_1_0_0)) (View.ld x2 (Rect.unit ![1, 0, 0] S1x16x16.size inb_S3x16x16_S1x16x16_1_0_0)) (View.ld x3 (Rect.unit ![1, 0] S1x16.size inb_S3x16_S1x16_1_0)) (View.ld x4 (Rect.unit ![1, 0] S1x16.size inb_S3x16_S1x16_1_0))) (View.ld x0 (Rect.unit ![0, 64, 0] S1x80x2048.size inb_S2x256x2048_S1x80x2048_0_64_0)) (View.ld x0 (Rect.unit ![1, 64, 0] S1x80x2048.size inb_S2x256x2048_S1x80x2048_1_64_0)) (ix3 u p q)
      = blkFn x0 x1 x2 x3 x4 x5 x6 x7 (0 : Fin 2) (⟨64 + p.val, by have := p.isLt; omega⟩ : Fin 256) q := by
  refine (Cert.KerG2.re_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![1, 0, 0] S1x16x16.size inb_S3x16x16_S1x16x16_1_0_0)) (View.ld x2 (Rect.unit ![1, 0, 0] S1x16x16.size inb_S3x16x16_S1x16x16_1_0_0)) (View.ld x3 (Rect.unit ![1, 0] S1x16.size inb_S3x16_S1x16_1_0)) (View.ld x4 (Rect.unit ![1, 0] S1x16.size inb_S3x16_S1x16_1_0)) (View.ld x6 (Rect.unit ![0, 0] S80x16.size inb_S80x16_S80x16_0_0)) (View.ld x0 (Rect.unit ![0, 64, 0] S1x80x2048.size inb_S2x256x2048_S1x80x2048_0_64_0)) (View.ld x0 (Rect.unit ![1, 64, 0] S1x80x2048.size inb_S2x256x2048_S1x80x2048_1_64_0)) u p q).trans ?_
  unfold blkFn
  rw [if_neg (by show ¬ (64 + p.val < 16); omega), dif_neg (by show ¬ (64 + p.val < 64); omega), dif_pos (by show 64 + p.val < 144; omega)]
  unfold grpBlk
  rw [if_pos (show (0 : Fin 2).val = 0 from rfl)]
  exact (kOut_congr
    (fun p k => ld_unit2 x6 inb_S80x16_S80x16_0_0 p k p k (by omega) (by omega))
    (fun k i => ld_unit3 x1 inb_S3x16x16_S1x16x16_1_0_0 (0 : Fin 1) k i (1 : Fin 3) k i (by decide) (by omega) (by omega))
    (fun k i => ld_unit3 x2 inb_S3x16x16_S1x16x16_1_0_0 (0 : Fin 1) k i (1 : Fin 3) k i (by decide) (by omega) (by omega))
    (fun k => ld_unit2 x3 inb_S3x16_S1x16_1_0 (0 : Fin 1) k (1 : Fin 3) k (by decide) (by omega))
    (fun k => ld_unit2 x4 inb_S3x16_S1x16_1_0 (0 : Fin 1) k (1 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x80x2048_0_64_0 (0 : Fin 1) p q (0 : Fin 2) (⟨64 + p.val, by have := p.isLt; omega⟩ : Fin 256) q (by decide) rfl (by omega))
    (fun p => ld_unit3 x0 inb_S2x256x2048_S1x80x2048_1_64_0 (0 : Fin 1) p q (1 : Fin 2) (⟨64 + p.val, by have := p.isLt; omega⟩ : Fin 256) q (by decide) rfl (by omega))
    (Fin.ext (by show p.val = 64 + p.val - 64; omega))).1

/-- Group 2, imaginary rows: the stored piece is the block function on channels 64…143. -/
theorem piece_g2_im (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 80) (q : Fin 2048) :
    k0_pay46 (View.ld x6 (Rect.unit ![0, 0] S80x16.size inb_S80x16_S80x16_0_0)) (k0_pay34 (View.ld x6 (Rect.unit ![0, 0] S80x16.size inb_S80x16_S80x16_0_0))) (k0_pay35 (k0_pay8 (View.ld x0 (Rect.unit ![0, 0, 0] S1x16x2048.size inb_S2x256x2048_S1x16x2048_0_0_0))) (View.ld x2 (Rect.unit ![1, 0, 0] S1x16x16.size inb_S3x16x16_S1x16x16_1_0_0)) (View.ld x4 (Rect.unit ![1, 0] S1x16.size inb_S3x16_S1x16_1_0))) (k0_pay36 (k0_pay9 (View.ld x0 (Rect.unit ![1, 0, 0] S1x16x2048.size inb_S2x256x2048_S1x16x2048_1_0_0))) (View.ld x1 (Rect.unit ![1, 0, 0] S1x16x16.size inb_S3x16x16_S1x16x16_1_0_0)) (View.ld x3 (Rect.unit ![1, 0] S1x16.size inb_S3x16_S1x16_1_0))) (k0_pay37 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![1, 0, 0] S1x16x16.size inb_S3x16x16_S1x16x16_1_0_0)) (View.ld x2 (Rect.unit ![1, 0, 0] S1x16x16.size inb_S3x16x16_S1x16x16_1_0_0)) (View.ld x3 (Rect.unit ![1, 0] S1x16.size inb_S3x16_S1x16_1_0)) (View.ld x4 (Rect.unit ![1, 0] S1x16.size inb_S3x16_S1x16_1_0))) (View.ld x0 (Rect.unit ![0, 64, 0] S1x80x2048.size inb_S2x256x2048_S1x80x2048_0_64_0)) (View.ld x0 (Rect.unit ![1, 64, 0] S1x80x2048.size inb_S2x256x2048_S1x80x2048_1_64_0)) (ix3 u p q)
      = blkFn x0 x1 x2 x3 x4 x5 x6 x7 (1 : Fin 2) (⟨64 + p.val, by have := p.isLt; omega⟩ : Fin 256) q := by
  refine (Cert.KerG2.im_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![1, 0, 0] S1x16x16.size inb_S3x16x16_S1x16x16_1_0_0)) (View.ld x2 (Rect.unit ![1, 0, 0] S1x16x16.size inb_S3x16x16_S1x16x16_1_0_0)) (View.ld x3 (Rect.unit ![1, 0] S1x16.size inb_S3x16_S1x16_1_0)) (View.ld x4 (Rect.unit ![1, 0] S1x16.size inb_S3x16_S1x16_1_0)) (View.ld x6 (Rect.unit ![0, 0] S80x16.size inb_S80x16_S80x16_0_0)) (View.ld x0 (Rect.unit ![0, 64, 0] S1x80x2048.size inb_S2x256x2048_S1x80x2048_0_64_0)) (View.ld x0 (Rect.unit ![1, 64, 0] S1x80x2048.size inb_S2x256x2048_S1x80x2048_1_64_0)) u p q).trans ?_
  unfold blkFn
  rw [if_neg (by show ¬ (64 + p.val < 16); omega), dif_neg (by show ¬ (64 + p.val < 64); omega), dif_pos (by show 64 + p.val < 144; omega)]
  unfold grpBlk
  rw [if_neg (show ¬ (1 : Fin 2).val = 0 by decide)]
  exact (kOut_congr
    (fun p k => ld_unit2 x6 inb_S80x16_S80x16_0_0 p k p k (by omega) (by omega))
    (fun k i => ld_unit3 x1 inb_S3x16x16_S1x16x16_1_0_0 (0 : Fin 1) k i (1 : Fin 3) k i (by decide) (by omega) (by omega))
    (fun k i => ld_unit3 x2 inb_S3x16x16_S1x16x16_1_0_0 (0 : Fin 1) k i (1 : Fin 3) k i (by decide) (by omega) (by omega))
    (fun k => ld_unit2 x3 inb_S3x16_S1x16_1_0 (0 : Fin 1) k (1 : Fin 3) k (by decide) (by omega))
    (fun k => ld_unit2 x4 inb_S3x16_S1x16_1_0 (0 : Fin 1) k (1 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x80x2048_0_64_0 (0 : Fin 1) p q (0 : Fin 2) (⟨64 + p.val, by have := p.isLt; omega⟩ : Fin 256) q (by decide) rfl (by omega))
    (fun p => ld_unit3 x0 inb_S2x256x2048_S1x80x2048_1_64_0 (0 : Fin 1) p q (1 : Fin 2) (⟨64 + p.val, by have := p.isLt; omega⟩ : Fin 256) q (by decide) rfl (by omega))
    (Fin.ext (by show p.val = 64 + p.val - 64; omega))).2

/-- Group 3, real rows: the stored piece is the block function on channels 144…255. -/
theorem piece_g3_re (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 112) (q : Fin 2048) :
    k0_pay6 (View.ld x7 (Rect.unit ![0, 0] S112x16.size inb_S112x16_S112x16_0_0)) (k0_pay51 (View.ld x7 (Rect.unit ![0, 0] S112x16.size inb_S112x16_S112x16_0_0))) (k0_pay52 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0))) (k0_pay53 (View.ld x0 (Rect.unit ![0, 144, 0] S1x112x2048.size inb_S2x256x2048_S1x112x2048_0_144_0))) (k0_pay54 (View.ld x0 (Rect.unit ![1, 144, 0] S1x112x2048.size inb_S2x256x2048_S1x112x2048_1_144_0))) (k0_pay55 (View.ld x7 (Rect.unit ![0, 0] S112x16.size inb_S112x16_S112x16_0_0)))
        (k0_pay56 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0))) (constant S112x2048 .f32 0x00000000#32) (ix3 u p q)
      = blkFn x0 x1 x2 x3 x4 x5 x6 x7 (0 : Fin 2) (⟨144 + p.val, by have := p.isLt; omega⟩ : Fin 256) q := by
  refine (Cert.KerG3.re_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0)) (View.ld x7 (Rect.unit ![0, 0] S112x16.size inb_S112x16_S112x16_0_0)) (View.ld x0 (Rect.unit ![0, 144, 0] S1x112x2048.size inb_S2x256x2048_S1x112x2048_0_144_0)) (View.ld x0 (Rect.unit ![1, 144, 0] S1x112x2048.size inb_S2x256x2048_S1x112x2048_1_144_0)) u p q).trans ?_
  unfold blkFn
  rw [if_neg (by show ¬ (144 + p.val < 16); omega), dif_neg (by show ¬ (144 + p.val < 64); omega), dif_neg (by show ¬ (144 + p.val < 144); omega)]
  unfold grpBlk
  rw [if_pos (show (0 : Fin 2).val = 0 from rfl)]
  exact (kOut_congr
    (fun p k => ld_unit2 x7 inb_S112x16_S112x16_0_0 p k p k (by omega) (by omega))
    (fun k i => ld_unit3 x1 inb_S3x16x16_S1x16x16_2_0_0 (0 : Fin 1) k i (2 : Fin 3) k i (by decide) (by omega) (by omega))
    (fun k i => ld_unit3 x2 inb_S3x16x16_S1x16x16_2_0_0 (0 : Fin 1) k i (2 : Fin 3) k i (by decide) (by omega) (by omega))
    (fun k => ld_unit2 x3 inb_S3x16_S1x16_2_0 (0 : Fin 1) k (2 : Fin 3) k (by decide) (by omega))
    (fun k => ld_unit2 x4 inb_S3x16_S1x16_2_0 (0 : Fin 1) k (2 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x112x2048_0_144_0 (0 : Fin 1) p q (0 : Fin 2) (⟨144 + p.val, by have := p.isLt; omega⟩ : Fin 256) q (by decide) rfl (by omega))
    (fun p => ld_unit3 x0 inb_S2x256x2048_S1x112x2048_1_144_0 (0 : Fin 1) p q (1 : Fin 2) (⟨144 + p.val, by have := p.isLt; omega⟩ : Fin 256) q (by decide) rfl (by omega))
    (Fin.ext (by show p.val = 144 + p.val - 144; omega))).1

/-- Group 3, imaginary rows: the stored piece is the block function on channels 144…255. -/
theorem piece_g3_im (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (u : Fin 1) (p : Fin 112) (q : Fin 2048) :
    k0_pay7 (View.ld x7 (Rect.unit ![0, 0] S112x16.size inb_S112x16_S112x16_0_0)) (k0_pay51 (View.ld x7 (Rect.unit ![0, 0] S112x16.size inb_S112x16_S112x16_0_0))) (k0_pay52 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0))) (k0_pay53 (View.ld x0 (Rect.unit ![0, 144, 0] S1x112x2048.size inb_S2x256x2048_S1x112x2048_0_144_0))) (k0_pay54 (View.ld x0 (Rect.unit ![1, 144, 0] S1x112x2048.size inb_S2x256x2048_S1x112x2048_1_144_0))) (k0_pay55 (View.ld x7 (Rect.unit ![0, 0] S112x16.size inb_S112x16_S112x16_0_0)))
        (k0_pay56 (k0_pay8 (View.ld x0 (Rect.unit ![0, 0, 0] S1x16x2048.size inb_S2x256x2048_S1x16x2048_0_0_0))) (k0_pay9 (View.ld x0 (Rect.unit ![1, 0, 0] S1x16x2048.size inb_S2x256x2048_S1x16x2048_1_0_0))) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0))) (constant S112x2048 .f32 0x00000000#32) (ix3 u p q)
      = blkFn x0 x1 x2 x3 x4 x5 x6 x7 (1 : Fin 2) (⟨144 + p.val, by have := p.isLt; omega⟩ : Fin 256) q := by
  refine (Cert.KerG3.im_apply (View.ld x0 (Rect.unit ![0, 0, 0] S1x16x2048.size inb_S2x256x2048_S1x16x2048_0_0_0)) (View.ld x0 (Rect.unit ![1, 0, 0] S1x16x2048.size inb_S2x256x2048_S1x16x2048_1_0_0)) (View.ld x1 (Rect.unit ![2, 0, 0] S1x16x16.size inb_S3x16x16_S1x16x16_2_0_0)) (View.ld x2 (Rect.unit ![2, 0, 0] S1x16x16.size inb_S3x16x16_S1x16x16_2_0_0)) (View.ld x3 (Rect.unit ![2, 0] S1x16.size inb_S3x16_S1x16_2_0)) (View.ld x4 (Rect.unit ![2, 0] S1x16.size inb_S3x16_S1x16_2_0)) (View.ld x7 (Rect.unit ![0, 0] S112x16.size inb_S112x16_S112x16_0_0)) (View.ld x0 (Rect.unit ![0, 144, 0] S1x112x2048.size inb_S2x256x2048_S1x112x2048_0_144_0)) (View.ld x0 (Rect.unit ![1, 144, 0] S1x112x2048.size inb_S2x256x2048_S1x112x2048_1_144_0)) u p q).trans ?_
  unfold blkFn
  rw [if_neg (by show ¬ (144 + p.val < 16); omega), dif_neg (by show ¬ (144 + p.val < 64); omega), dif_neg (by show ¬ (144 + p.val < 144); omega)]
  unfold grpBlk
  rw [if_neg (show ¬ (1 : Fin 2).val = 0 by decide)]
  exact (kOut_congr
    (fun p k => ld_unit2 x7 inb_S112x16_S112x16_0_0 p k p k (by omega) (by omega))
    (fun k i => ld_unit3 x1 inb_S3x16x16_S1x16x16_2_0_0 (0 : Fin 1) k i (2 : Fin 3) k i (by decide) (by omega) (by omega))
    (fun k i => ld_unit3 x2 inb_S3x16x16_S1x16x16_2_0_0 (0 : Fin 1) k i (2 : Fin 3) k i (by decide) (by omega) (by omega))
    (fun k => ld_unit2 x3 inb_S3x16_S1x16_2_0 (0 : Fin 1) k (2 : Fin 3) k (by decide) (by omega))
    (fun k => ld_unit2 x4 inb_S3x16_S1x16_2_0 (0 : Fin 1) k (2 : Fin 3) k (by decide) (by omega))
    (fun i => ld_unit3 x0 inb_S2x256x2048_S1x16x2048_0_0_0 (0 : Fin 1) i q (0 : Fin 2) (⟨i.val, Cert.Spec.lt256_of_lt16 i⟩ : Fin 256) q (by decide) (by show i.val = 0 + i.val; omega) (by omega))
    (fun i => ld_unit3 x0 inb_S2x256x2048_S1x16x2048_1_0_0 (0 : Fin 1) i q (1 : Fin 2) (⟨i.val, Cert.Spec.lt256_of_lt16 i⟩ : Fin 256) q (by decide) (by show i.val = 0 + i.val; omega) (by omega))
    (fun p => ld_unit3 x0 inb_S2x256x2048_S1x112x2048_0_144_0 (0 : Fin 1) p q (0 : Fin 2) (⟨144 + p.val, by have := p.isLt; omega⟩ : Fin 256) q (by decide) rfl (by omega))
    (fun p => ld_unit3 x0 inb_S2x256x2048_S1x112x2048_1_144_0 (0 : Fin 1) p q (1 : Fin 2) (⟨144 + p.val, by have := p.isLt; omega⟩ : Fin 256) q (by decide) rfl (by omega))
    (Fin.ext (by show p.val = 144 + p.val - 144; omega))).2

/-- Every entry of the staging buffer after the body is `blkFn` of the block's inputs: the eight stored pieces are
    blocks of that one function, and they cover the buffer. -/
theorem out_apply (c : Dev nD) (i : grid0.Coords) (arg1 : Memref sig .tc .vmem S2x256x2048 .f32) (harg1 : arg1.IsWhole) (arg2 : Memref sig .tc .vmem S3x16x16 .f32) (harg2 : arg2.IsWhole) (arg3 : Memref sig .tc .vmem S3x16x16 .f32) (harg3 : arg3.IsWhole) (arg4 : Memref sig .tc .vmem S3x16 .f32) (harg4 : arg4.IsWhole) (arg5 : Memref sig .tc .vmem S3x16 .f32) (harg5 : arg5.IsWhole) (arg6 : Memref sig .tc .vmem S48x16 .f32) (harg6 : arg6.IsWhole) (arg7 : Memref sig .tc .vmem S80x16 .f32) (harg7 : arg7.IsWhole) (arg8 : Memref sig .tc .vmem S112x16 .f32) (harg8 : arg8.IsWhole) (arg9 : Memref sig .tc .vmem S2x256x2048 .f32) (harg9 : arg9.IsWhole)
    (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (cc : Fin 2) (ch : Fin 256) (q : Fin 2048) :
    out0_A_8 (F := Ideal) c i arg1 harg1 arg2 harg2 arg3 harg3 arg4 harg4 arg5 harg5 arg6 harg6 arg7 harg7 arg8 harg8 arg9 harg9 x0 x1 x2 x3 x4 x5 x6 x7 (ix3 cc ch q) = blkFn x0 x1 x2 x3 x4 x5 x6 x7 cc ch q := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  refine View.canon_apply_of_pieces (fun y : S2x256x2048.Idx => blkFn x0 x1 x2 x3 x4 x5 x6 x7 (y 0) (y 1) (y 2)) _ ?_ (ix3 cc ch q)
    (cover0_A_8 c i arg1 harg1 arg2 harg2 arg3 harg3 arg4 harg4 arg5 harg5 arg6 harg6 arg7 harg7 arg8 harg8 arg9 harg9 x0 x1 x2 x3 x4 x5 x6 x7 (ix3 cc ch q))
  unfold kernelRun0_A
  dsimp only
  sl_unfold_words
  simp only [View.readAt_eq_ld, harg1.read_unread, harg2.read_unread, harg3.read_unread, harg4.read_unread, harg5.read_unread,
    harg6.read_unread, harg7.read_unread, harg8.read_unread]
  intro pc hpc x
  simp only [List.mem_cons, List.not_mem_nil, or_false] at hpc
  rcases hpc with rfl | rfl | rfl | rfl | rfl | rfl | rfl | rfl
  · dsimp only at x ⊢
    obtain ⟨u, p, q, rfl⟩ : ∃ (u : Fin 1) (p : Fin 112) (q : Fin 2048), x = ix3 u p q := ⟨x 0, x 1, x 2, eq_ix3 x⟩
    refine (piece_g3_im x0 x1 x2 x3 x4 x5 x6 x7 u p q).trans ?_
    have he := emb_unit3 (N0 := 2) (N1 := 256) (N2 := 2048) inb_S2x256x2048_S1x112x2048_1_144_0 u p q (1 : Fin 2) (⟨144 + p.val, by have := p.isLt; omega⟩ : Fin 256) q (by have := u.isLt; show 1 = 1 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 112) (q : Fin 2048), x = ix3 u p q := ⟨x 0, x 1, x 2, eq_ix3 x⟩
    refine (piece_g3_re x0 x1 x2 x3 x4 x5 x6 x7 u p q).trans ?_
    have he := emb_unit3 (N0 := 2) (N1 := 256) (N2 := 2048) inb_S2x256x2048_S1x112x2048_0_144_0 u p q (0 : Fin 2) (⟨144 + p.val, by have := p.isLt; omega⟩ : Fin 256) q (by have := u.isLt; show 0 = 0 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 80) (q : Fin 2048), x = ix3 u p q := ⟨x 0, x 1, x 2, eq_ix3 x⟩
    refine (piece_g2_im x0 x1 x2 x3 x4 x5 x6 x7 u p q).trans ?_
    have he := emb_unit3 (N0 := 2) (N1 := 256) (N2 := 2048) inb_S2x256x2048_S1x80x2048_1_64_0 u p q (1 : Fin 2) (⟨64 + p.val, by have := p.isLt; omega⟩ : Fin 256) q (by have := u.isLt; show 1 = 1 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 80) (q : Fin 2048), x = ix3 u p q := ⟨x 0, x 1, x 2, eq_ix3 x⟩
    refine (piece_g2_re x0 x1 x2 x3 x4 x5 x6 x7 u p q).trans ?_
    have he := emb_unit3 (N0 := 2) (N1 := 256) (N2 := 2048) inb_S2x256x2048_S1x80x2048_0_64_0 u p q (0 : Fin 2) (⟨64 + p.val, by have := p.isLt; omega⟩ : Fin 256) q (by have := u.isLt; show 0 = 0 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 48) (q : Fin 2048), x = ix3 u p q := ⟨x 0, x 1, x 2, eq_ix3 x⟩
    refine (piece_g1_im x0 x1 x2 x3 x4 x5 x6 x7 u p q).trans ?_
    have he := emb_unit3 (N0 := 2) (N1 := 256) (N2 := 2048) inb_S2x256x2048_S1x48x2048_1_16_0 u p q (1 : Fin 2) (⟨16 + p.val, by have := p.isLt; omega⟩ : Fin 256) q (by have := u.isLt; show 1 = 1 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 48) (q : Fin 2048), x = ix3 u p q := ⟨x 0, x 1, x 2, eq_ix3 x⟩
    refine (piece_g1_re x0 x1 x2 x3 x4 x5 x6 x7 u p q).trans ?_
    have he := emb_unit3 (N0 := 2) (N1 := 256) (N2 := 2048) inb_S2x256x2048_S1x48x2048_0_16_0 u p q (0 : Fin 2) (⟨16 + p.val, by have := p.isLt; omega⟩ : Fin 256) q (by have := u.isLt; show 0 = 0 + u.val; omega) rfl (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 16) (q : Fin 2048), x = ix3 u p q := ⟨x 0, x 1, x 2, eq_ix3 x⟩
    refine (piece_s1 x0 x1 x2 x3 x4 x5 x6 x7 u p q).trans ?_
    have he := emb_unit3 (N0 := 2) (N1 := 256) (N2 := 2048) inb_S2x256x2048_S1x16x2048_1_0_0 u p q (1 : Fin 2) (⟨p.val, Cert.Spec.lt256_of_lt16 p⟩ : Fin 256) q (by have := u.isLt; show 1 = 1 + u.val; omega) (by show p.val = 0 + p.val; omega) (by omega)
    exact (congrArg (fun y : S2x256x2048.Idx => blkFn x0 x1 x2 x3 x4 x5 x6 x7 (y 0) (y 1) (y 2)) he).symm
  · dsimp only at x ⊢
    obtain ⟨u, p, q, rfl⟩ : ∃ (u : Fin 1) (p : Fin 16) (q : Fin 2048), x = ix3 u p q := ⟨x 0, x 1, x 2, eq_ix3 x⟩
    refine (piece_s0 x0 x1 x2 x3 x4 x5 x6 x7 u p q).trans ?_
    have he := emb_unit3 (N0 := 2) (N1 := 256) (N2 := 2048) inb_S2x256x2048_S1x16x2048_0_0_0 u p q (0 : Fin 2) (⟨p.val, Cert.Spec.lt256_of_lt16 p⟩ : Fin 256) q (by have := u.isLt; show 0 = 0 + u.val; omega) (by show p.val = 0 + p.val; omega) (by omega)
    exact (congrArg (fun y : S2x256x2048.Idx => blkFn x0 x1 x2 x3 x4 x5 x6 x7 (y 0) (y 1) (y 2)) he).symm

section Semantics

open Cert.Spec Cert.LibIndicatorSums

/-- A group's block entry on component `j` of feature `k` is the group's result entry, once the block's inputs are
    the token-major input, layer `g + 1` of the weights and the membership matrix. -/
theorem grpBlk_eq_grp {sz m base : ℕ} (hsz : sz = 16 * m) (hm : 0 < m) (hb : base + sz ≤ 256) (hb' : base + 16 * m ≤ 256) (g : Fin 3)
    (X : Fin 131072 → Fin 256 → Fin 2 → EReal) (Wre Wim : Fin 4 → Fin 16 → Fin 16 → EReal) (bre bim : Fin 4 → Fin 16 → EReal)
    (x0 : Vec Ideal S2x256x2048 .f32) (x1 x2 : Vec Ideal S3x16x16 .f32) (x3 x4 : Vec Ideal S3x16 .f32)
    (R : (⟨2, ![sz, 16]⟩ : Shape).Idx → EReal) (nq : Fin 2048 → Fin 131072)
    (h0 : ∀ (cc : Fin 2) (ch : Fin 256) (q : Fin 2048), x0 (ix3 cc ch q) = X (nq q) ch cc)
    (h1 : ∀ (g : Fin 3) (k i : Fin 16), x1 (ix3 g k i) = Wre ⟨g.val + 1, by omega⟩ k i)
    (h2 : ∀ (g : Fin 3) (k i : Fin 16), x2 (ix3 g k i) = Wim ⟨g.val + 1, by omega⟩ k i)
    (h3 : ∀ (g : Fin 3) (k : Fin 16), x3 (ix2 g k) = bre ⟨g.val + 1, by omega⟩ k)
    (h4 : ∀ (g : Fin 3) (k : Fin 16), x4 (ix2 g k) = bim ⟨g.val + 1, by omega⟩ k)
    (hR : ∀ (p : Fin sz) (k : Fin 16), R (ix2 p k) = if k.val = p.val / m then (1 : EReal) else 0)
    (cc : Fin 2) (k : Fin 16) (j : Fin m) (q : Fin 2048) :
    grpBlk sz base hb g x0 x1 x2 x3 x4 R cc (row hsz k j) q
      = grp m base hb' ⟨g.val + 1, by omega⟩ X Wre Wim bre bim (nq q) k j cc := by
  have e1 : (fun k i => x1 (ix3 g k i)) = Wre ⟨g.val + 1, by omega⟩ := funext fun k => funext fun i => h1 g k i
  have e2 : (fun k i => x2 (ix3 g k i)) = Wim ⟨g.val + 1, by omega⟩ := funext fun k => funext fun i => h2 g k i
  have e3 : (fun k => x3 (ix2 g k)) = bre ⟨g.val + 1, by omega⟩ := funext fun k => h3 g k
  have e4 : (fun k => x4 (ix2 g k)) = bim ⟨g.val + 1, by omega⟩ := funext fun k => h4 g k
  have es : ∀ c : Fin 2, scal x0 c q = fun i => X (nq q) ⟨i.val, lt256_of_lt16 i⟩ c := fun c => funext fun i => h0 c _ q
  have er : ∀ c : Fin 2, (fun (k : Fin 16) (j : Fin m) => rows sz base hb x0 c q (row hsz k j))
      = fun k j => X (nq q) (chan hb' k j) c := fun c => funext fun k => funext fun j => by
    unfold rows
    rw [h0]
    exact congrArg (fun ch => X (nq q) ch c) (Fin.ext (by show base + (k.val * m + j.val) = base + k.val * m + j.val; omega))
  unfold grpBlk grp
  rw [e1, e2, e3, e4, es 0, es 1]
  match cc with
  | ⟨0, _⟩ =>
    rw [if_pos rfl, kOutRe_row hsz hm (fun p k => R (ix2 p k)) hR, er 0, er 1]
    rfl
  | ⟨1, _⟩ =>
    rw [if_neg Nat.one_ne_zero, kOutIm_row hsz hm (fun p k => R (ix2 p k)) hR, er 0, er 1]
    rfl

end Semantics

/-- With the block's inputs identified, the block is the result function at the block's tokens. -/
theorem blkFn_eq_Out (X : Fin 131072 → Fin 256 → Fin 2 → EReal) (Wre Wim : Fin 4 → Fin 16 → Fin 16 → EReal)
    (bre bim : Fin 4 → Fin 16 → EReal) (x0 : Vec Ideal S2x256x2048 .f32) (x1 : Vec Ideal S3x16x16 .f32) (x2 : Vec Ideal S3x16x16 .f32) (x3 : Vec Ideal S3x16 .f32) (x4 : Vec Ideal S3x16 .f32) (x5 : Vec Ideal S48x16 .f32) (x6 : Vec Ideal S80x16 .f32) (x7 : Vec Ideal S112x16 .f32) (nq : Fin 2048 → Fin 131072)
    (h0 : ∀ (cc : Fin 2) (ch : Fin 256) (q : Fin 2048), x0 (ix3 cc ch q) = X (nq q) ch cc)
    (h1 : ∀ (g : Fin 3) (k i : Fin 16), x1 (ix3 g k i) = Wre ⟨g.val + 1, by omega⟩ k i)
    (h2 : ∀ (g : Fin 3) (k i : Fin 16), x2 (ix3 g k i) = Wim ⟨g.val + 1, by omega⟩ k i)
    (h3 : ∀ (g : Fin 3) (k : Fin 16), x3 (ix2 g k) = bre ⟨g.val + 1, by omega⟩ k)
    (h4 : ∀ (g : Fin 3) (k : Fin 16), x4 (ix2 g k) = bim ⟨g.val + 1, by omega⟩ k)
    (h5 : ∀ (p : Fin 48) (k : Fin 16), x5 (ix2 p k) = if k.val = p.val / 3 then (1 : EReal) else 0)
    (h6 : ∀ (p : Fin 80) (k : Fin 16), x6 (ix2 p k) = if k.val = p.val / 5 then (1 : EReal) else 0)
    (h7 : ∀ (p : Fin 112) (k : Fin 16), x7 (ix2 p k) = if k.val = p.val / 7 then (1 : EReal) else 0)
    (cc : Fin 2) (ch : Fin 256) (q : Fin 2048) :
    blkFn x0 x1 x2 x3 x4 x5 x6 x7 cc ch q = Cert.Spec.Out X Wre Wim bre bim (nq q) ch cc := by
  have hc := ch.isLt
  unfold blkFn
  by_cases h16 : ch.val < 16
  · rw [if_pos h16, Cert.Spec.Out_scalar _ _ _ _ _ _ _ _ h16, h0]
  rw [if_neg h16]
  by_cases h64 : ch.val < 64
  · rw [dif_pos h64]
    obtain ⟨k, j, hp⟩ := Cert.LibIndicatorSums.exists_row (sz := 48) (m := 3) rfl (by decide) ⟨ch.val - 16, by omega⟩
    rw [hp, grpBlk_eq_grp (m := 3) rfl (by decide) (by decide) (by decide) 0 X Wre Wim bre bim x0 x1 x2 x3 x4 x5 nq h0 h1 h2 h3 h4 h5]
    have hch : ch = Cert.Spec.chan (m := 3) (base := 16) (by decide) k j := Fin.ext (by
      have := congrArg Fin.val hp
      simp only [Cert.LibIndicatorSums.row] at this
      show ch.val = 16 + k.val * 3 + j.val
      omega)
    rw [hch, Cert.Spec.Out_g1]
    rfl
  rw [dif_neg h64]
  by_cases h144 : ch.val < 144
  · rw [dif_pos h144]
    obtain ⟨k, j, hp⟩ := Cert.LibIndicatorSums.exists_row (sz := 80) (m := 5) rfl (by decide) ⟨ch.val - 64, by omega⟩
    rw [hp, grpBlk_eq_grp (m := 5) rfl (by decide) (by decide) (by decide) 1 X Wre Wim bre bim x0 x1 x2 x3 x4 x6 nq h0 h1 h2 h3 h4 h6]
    have hch : ch = Cert.Spec.chan (m := 5) (base := 64) (by decide) k j := Fin.ext (by
      have := congrArg Fin.val hp
      simp only [Cert.LibIndicatorSums.row] at this
      show ch.val = 64 + k.val * 5 + j.val
      omega)
    rw [hch, Cert.Spec.Out_g2]
    rfl
  · rw [dif_neg h144]
    obtain ⟨k, j, hp⟩ := Cert.LibIndicatorSums.exists_row (sz := 112) (m := 7) rfl (by decide) ⟨ch.val - 144, by omega⟩
    rw [hp, grpBlk_eq_grp (m := 7) rfl (by decide) (by decide) (by decide) 2 X Wre Wim bre bim x0 x1 x2 x3 x4 x7 nq h0 h1 h2 h3 h4 h7]
    have hch : ch = Cert.Spec.chan (m := 7) (base := 144) (by decide) k j := Fin.ext (by
      have := congrArg Fin.val hp
      simp only [Cert.LibIndicatorSums.row] at this
      show ch.val = 144 + k.val * 7 + j.val
      omega)
    rw [hch, Cert.Spec.Out_g3]
    rfl

end Cert.KerBlock

end
-- ==== Proof.KerArrBlk.lean ====
/-
  One grid point of the kernel.

  The grid has 64 points. At point t the input window holds tokens 2048·t … 2048·t + 2047 of the token-major input
  (block (0, 0, t) of the [2, 256, 131072] array) and the seven parameter windows hold their whole arrays. With the
  windows' arrays identified — the token-major input, layers 1…3 of the weights and biases, the membership matrices —
  every entry the body leaves in the output's staging buffer is the result function at the entry's own
  (re/im, channel, token).
-/
import proofs.«132330_j16243566313947_1_alg».proof.Proof.KerGlueConst
import proofs.«132330_j16243566313947_1_alg».proof.Proof.KerGlueIn
import proofs.«132330_j16243566313947_1_alg».proof.Proof.KerBlock
import Idealize.ShloMosaic.Lib.Pipeline.Value

set_option maxRecDepth 16384

noncomputable section

namespace Cert.KerArr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The windows' blocks at a grid point -/

/-- The printed index maps, decided over the 64 points: the input and the output window sit at block (0, 0, t),
    every parameter window at block 0. -/
theorem idx_facts : ∀ t : Fin cfg0.N,
    (win0_0.index t (0 : Fin 3) = 0 ∧ win0_0.index t (1 : Fin 3) = 0 ∧ win0_0.index t (2 : Fin 3) = t.val)
    ∧ (win0_8.index t (0 : Fin 3) = 0 ∧ win0_8.index t (1 : Fin 3) = 0 ∧ win0_8.index t (2 : Fin 3) = t.val)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- A point's number is below 64. -/
theorem t_lt (t : Fin cfg0.N) : t.val < 64 := lt_of_lt_of_eq t.isLt N_0

/-- Token number q of block t. -/
def nq (t : Fin cfg0.N) (q : Fin 2048) : Fin 131072 := ⟨t.val * 2048 + q.val, by have := t_lt t; have := q.isLt; omega⟩

/-- The input window's block at point t, entry (c, ch, q), is the array's entry (c, ch, 2048·t + q). -/
theorem iblk0_apply (c : Dev nD) (t : Fin cfg0.N) (cc : Fin 2) (ch : Fin 256) (q : Fin 2048) :
    (iblk m c 0 t : Vec Ideal S2x256x2048 .f32) (ix3 cc ch q)
      = (V m c main_v1 : S2x256x131072.Idx → EReal) (ix3 cc ch (nq t q)) := by
  obtain ⟨⟨e0, e1, e2⟩, -⟩ := idx_facts t
  unfold iblk
  rw [View.read_apply]
  show V m c main_v1 _ = V m c main_v1 _
  congr 1
  funext a
  apply Fin.ext
  match a with
  | ⟨0, _⟩ => show win0_0.index t (0 : Fin 3) * 2 + 1 * cc.val = cc.val; rw [e0]; omega
  | ⟨1, _⟩ => show win0_0.index t (1 : Fin 3) * 256 + 1 * ch.val = ch.val; rw [e1]; omega
  | ⟨2, _⟩ => show win0_0.index t (2 : Fin 3) * 2048 + 1 * q.val = t.val * 2048 + q.val; rw [e2]; omega

/-- The real weights' window holds its whole array at every point. -/
theorem iblk1_apply (c : Dev nD) (t : Fin cfg0.N) (g : Fin 3) (k : Fin 16) (i : Fin 16) :
    (iblk m c 1 t : Vec Ideal S3x16x16 .f32) (ix3 g k i) = (V m c main_v2 : S3x16x16.Idx → EReal) (ix3 g k i) := by
  obtain ⟨-, -, ⟨e0, e1, e2⟩, -⟩ := idx_facts t
  unfold iblk
  rw [View.read_apply]
  show V m c main_v2 _ = V m c main_v2 _
  congr 1
  funext a
  apply Fin.ext
  match a with
  | ⟨0, _⟩ => show win0_1.index t (0 : Fin 3) * 3 + 1 * g.val = g.val; rw [e0]; omega
  | ⟨1, _⟩ => show win0_1.index t (1 : Fin 3) * 16 + 1 * k.val = k.val; rw [e1]; omega
  | ⟨2, _⟩ => show win0_1.index t (2 : Fin 3) * 16 + 1 * i.val = i.val; rw [e2]; omega

/-- The imaginary weights' window holds its whole array at every point. -/
theorem iblk2_apply (c : Dev nD) (t : Fin cfg0.N) (g : Fin 3) (k : Fin 16) (i : Fin 16) :
    (iblk m c 2 t : Vec Ideal S3x16x16 .f32) (ix3 g k i) = (V m c main_v3 : S3x16x16.Idx → EReal) (ix3 g k i) := by
  obtain ⟨-, -, -, ⟨e0, e1, e2⟩, -⟩ := idx_facts t
  unfold iblk
  rw [View.read_apply]
  show V m c main_v3 _ = V m c main_v3 _
  congr 1
  funext a
  apply Fin.ext
  match a with
  | ⟨0, _⟩ => show win0_2.index t (0 : Fin 3) * 3 + 1 * g.val = g.val; rw [e0]; omega
  | ⟨1, _⟩ => show win0_2.index t (1 : Fin 3) * 16 + 1 * k.val = k.val; rw [e1]; omega
  | ⟨2, _⟩ => show win0_2.index t (2 : Fin 3) * 16 + 1 * i.val = i.val; rw [e2]; omega

/-- The real biases' window holds its whole array at every point. -/
theorem iblk3_apply (c : Dev nD) (t : Fin cfg0.N) (p : Fin 3) (k : Fin 16) :
    (iblk m c 3 t : Vec Ideal S3x16 .f32) (ix2 p k) = (V m c main_v4 : S3x16.Idx → EReal) (ix2 p k) := by
  obtain ⟨-, -, -, -, ⟨e0, e1⟩, -⟩ := idx_facts t
  unfold iblk
  rw [View.read_apply]
  show V m c main_v4 _ = V m c main_v4 _
  congr 1
  funext a
  apply Fin.ext
  match a with
  | ⟨0, _⟩ => show win0_3.index t (0 : Fin 2) * 3 + 1 * p.val = p.val; rw [e0]; omega
  | ⟨1, _⟩ => show win0_3.index t (1 : Fin 2) * 16 + 1 * k.val = k.val; rw [e1]; omega

/-- The imaginary biases' window holds its whole array at every point. -/
theorem iblk4_apply (c : Dev nD) (t : Fin cfg0.N) (p : Fin 3) (k : Fin 16) :
    (iblk m c 4 t : Vec Ideal S3x16 .f32) (ix2 p k) = (V m c main_v5 : S3x16.Idx → EReal) (ix2 p k) := by
  obtain ⟨-, -, -, -, -, ⟨e0, e1⟩, -⟩ := idx_facts t
  unfold iblk
  rw [View.read_apply]
  show V m c main_v5 _ = V m c main_v5 _
  congr 1
  funext a
  apply Fin.ext
  match a with
  | ⟨0, _⟩ => show win0_4.index t (0 : Fin 2) * 3 + 1 * p.val = p.val; rw [e0]; omega
  | ⟨1, _⟩ => show win0_4.index t (1 : Fin 2) * 16 + 1 * k.val = k.val; rw [e1]; omega

/-- The first membership matrix's window holds its whole array at every point. -/
theorem iblk5_apply (c : Dev nD) (t : Fin cfg0.N) (p : Fin 48) (k : Fin 16) :
    (iblk m c 5 t : Vec Ideal S48x16 .f32) (ix2 p k) = (V m c main_cst : S48x16.Idx → EReal) (ix2 p k) := by
  obtain ⟨-, -, -, -, -, -, ⟨e0, e1⟩, -⟩ := idx_facts t
  unfold iblk
  rw [View.read_apply]
  show V m c main_cst _ = V m c main_cst _
  congr 1
  funext a
  apply Fin.ext
  match a with
  | ⟨0, _⟩ => show win0_5.index t (0 : Fin 2) * 48 + 1 * p.val = p.val; rw [e0]; omega
  | ⟨1, _⟩ => show win0_5.index t (1 : Fin 2) * 16 + 1 * k.val = k.val; rw [e1]; omega

/-- The second membership matrix's window holds its whole array at every point. -/
theorem iblk6_apply (c : Dev nD) (t : Fin cfg0.N) (p : Fin 80) (k : Fin 16) :
    (iblk m c 6 t : Vec Ideal S80x16 .f32) (ix2 p k) = (V m c main_cst_0 : S80x16.Idx → EReal) (ix2 p k) := by
  obtain ⟨-, -, -, -, -, -, -, ⟨e0, e1⟩, -⟩ := idx_facts t
  unfold iblk
  rw [View.read_apply]
  show V m c main_cst_0 _ = V m c main_cst_0 _
  congr 1
  funext a
  apply Fin.ext
  match a with
  | ⟨0, _⟩ => show win0_6.index t (0 : Fin 2) * 80 + 1 * p.val = p.val; rw [e0]; omega
  | ⟨1, _⟩ => show win0_6.index t (1 : Fin 2) * 16 + 1 * k.val = k.val; rw [e1]; omega

/-- The third membership matrix's window holds its whole array at every point. -/
theorem iblk7_apply (c : Dev nD) (t : Fin cfg0.N) (p : Fin 112) (k : Fin 16) :
    (iblk m c 7 t : Vec Ideal S112x16 .f32) (ix2 p k) = (V m c main_cst_1 : S112x16.Idx → EReal) (ix2 p k) := by
  obtain ⟨-, -, -, -, -, -, -, -, ⟨e0, e1⟩⟩ := idx_facts t
  unfold iblk
  rw [View.read_apply]
  show V m c main_cst_1 _ = V m c main_cst_1 _
  congr 1
  funext a
  apply Fin.ext
  match a with
  | ⟨0, _⟩ => show win0_7.index t (0 : Fin 2) * 112 + 1 * p.val = p.val; rw [e0]; omega
  | ⟨1, _⟩ => show win0_7.index t (1 : Fin 2) * 16 + 1 * k.val = k.val; rw [e1]; omega

/-! ## What each point writes back -/

/-- The output array: the result function at (token, channel, re/im), read in the array's own order (re/im, channel, token). -/
def O (c : Dev nD) : S2x256x131072.Idx → EReal := fun j =>
  Cert.Spec.Out (Cert.Spec.Xof (m ((c : Thread nD τ).loc main_arg0)))
    (Cert.Spec.W3 (m ((c : Thread nD τ).loc main_arg1))) (Cert.Spec.W3 (m ((c : Thread nD τ).loc main_arg3)))
    (Cert.Spec.B2 (m ((c : Thread nD τ).loc main_arg2))) (Cert.Spec.B2 (m ((c : Thread nD τ).loc main_arg4)))
    (j 2) (j 1) (j 0)

/-- Entry (c, ch, q) of what the body leaves in the output's staging buffer at point t is the result function at token 2048·t + q. -/
theorem out_point (c : Dev nD) (t : Fin cfg0.N) (cc : Fin 2) (ch : Fin 256) (q : Fin 2048) :
    (outsAt0 m c t : Vec Ideal S2x256x2048 .f32) (ix3 cc ch q) = O m c (ix3 cc ch (nq t q)) := by
  unfold outsAt0
  refine (Cert.KerBlock.out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) cc ch q).trans ?_
  exact Cert.KerBlock.blkFn_eq_Out (Cert.Spec.Xof (m ((c : Thread nD τ).loc main_arg0)))
    (Cert.Spec.W3 (m ((c : Thread nD τ).loc main_arg1))) (Cert.Spec.W3 (m ((c : Thread nD τ).loc main_arg3)))
    (Cert.Spec.B2 (m ((c : Thread nD τ).loc main_arg2))) (Cert.Spec.B2 (m ((c : Thread nD τ).loc main_arg4)))
    (iblk m c 0 t) (iblk m c 1 t) (iblk m c 2 t) (iblk m c 3 t) (iblk m c 4 t) (iblk m c 5 t) (iblk m c 6 t) (iblk m c 7 t) (nq t)
    (fun cc ch q => (iblk0_apply m c t cc ch q).trans (Cert.KerGlue.V_v1 m c cc ch (nq t q)))
    (fun g k i => (iblk1_apply m c t g k i).trans (Cert.KerGlue.V_v2 m c g k i))
    (fun g k i => (iblk2_apply m c t g k i).trans (Cert.KerGlue.V_v3 m c g k i))
    (fun g k => (iblk3_apply m c t g k).trans (Cert.KerGlue.V_v4 m c g k))
    (fun g k => (iblk4_apply m c t g k).trans (Cert.KerGlue.V_v5 m c g k))
    (fun p k => (iblk5_apply m c t p k).trans (Cert.KerGlue.V_cst m c p k))
    (fun p k => (iblk6_apply m c t p k).trans (Cert.KerGlue.V_cst0 m c p k))
    (fun p k => (iblk7_apply m c t p k).trans (Cert.KerGlue.V_cst1 m c p k))
    cc ch q

end Cert.KerArr

end
-- ==== Proof.KerArr.lean ====
/-
  From the blocks to the array, and the kernel's result.

  At point t the output window writes back block (0, 0, t) of the [2, 256, 131072] output array, and every written entry
  is the result function at the entry's own (re/im, channel, token). The 64 blocks tile the token axis, so the output
  array is the result function everywhere; the lines after the region move it back to the input's layout.
-/
import proofs.«132330_j16243566313947_1_alg».proof.Proof.KerGlueOut
import proofs.«132330_j16243566313947_1_alg».proof.Proof.KerArrBlk
import Idealize.ShloMosaic.Lib.Pipeline.Value

set_option maxRecDepth 16384

noncomputable section

namespace Cert.KerArr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- WHAT POINT t WRITES BACK is block t of the output array O. -/
theorem flushed_eq (c : Dev nD) (t : Fin cfg0.N) :
    (dats m 0 c).flushed 8 t = ((cfg0.win 8).blk t).view.read (Elt Ideal) (O m c) := by
  show (cfg0.win 8).cut (grid0.coords t) ((dats m 0 c).after 8 t) = _
  rw [after0_8]
  obtain ⟨-, ⟨e0, e1, e2⟩, -⟩ := idx_facts t
  funext j
  rw [View.read_apply]
  have hL : (cfg0.win 8).cut (grid0.coords t) (outsAt0 m c t) j
      = (outsAt0 m c t : Vec Ideal S2x256x2048 .f32) (ix3 (j 0) (j 1) (j 2)) := by
    show outsAt0 m c t _ = outsAt0 m c t _
    exact congrArg (outsAt0 m c t) (funext fun a => by
      match a with
      | ⟨0, _⟩ => rfl
      | ⟨1, _⟩ => rfl
      | ⟨2, _⟩ => rfl)
  refine hL.trans ((out_point m c t (j 0) (j 1) (j 2)).trans ?_)
  show O m c _ = O m c _
  refine congrArg (O m c) (funext fun a => Fin.ext ?_)
  match a with
  | ⟨0, _⟩ => show (j 0).val = win0_8.index t (0 : Fin 3) * 2 + 1 * (j 0).val; rw [e0]; omega
  | ⟨1, _⟩ => show (j 1).val = win0_8.index t (1 : Fin 3) * 256 + 1 * (j 1).val; rw [e1]; omega
  | ⟨2, _⟩ => show t.val * 2048 + (j 2).val = win0_8.index t (2 : Fin 3) * 2048 + 1 * (j 2).val; rw [e2]; omega

/-! ## The 64 blocks tile the array -/

/-- Every index (c, ch, n) of the output array lies in the block of point n / 2048. -/
theorem cover (i : S2x256x131072.Idx) :
    ∃ t : Fin cfg0.N, (cfg0.win 8).flush t = true ∧ i ∈ ((cfg0.win 8).blk t).view.set := by
  have h0 : (i 0).val < 2 := (i 0).isLt
  have h1 : (i 1).val < 256 := (i 1).isLt
  have h2 : (i 2).val < 131072 := (i 2).isLt
  have hN : cfg0.N = 64 := N_0
  let t : Fin cfg0.N := ⟨(i 2).val / 2048, by rw [hN]; omega⟩
  have ht : t.val = (i 2).val / 2048 := rfl
  obtain ⟨-, ⟨e0, e1, e2⟩, -⟩ := idx_facts t
  refine ⟨t, flush0_8 t, ?_⟩
  show i ∈ ((View.whole main_v6).slice (win0_8.rect t)).set
  rw [View.set_slice_whole, Rect.mem_set_unit]
  intro a
  match a with
  | ⟨0, _⟩ => show win0_8.index t (0 : Fin 3) * 2 ≤ (i 0).val ∧ (i 0).val < win0_8.index t (0 : Fin 3) * 2 + 2; rw [e0]; omega
  | ⟨1, _⟩ => show win0_8.index t (1 : Fin 3) * 256 ≤ (i 1).val ∧ (i 1).val < win0_8.index t (1 : Fin 3) * 256 + 256; rw [e1]; omega
  | ⟨2, _⟩ => show win0_8.index t (2 : Fin 3) * 2048 ≤ (i 2).val ∧ (i 2).val < win0_8.index t (2 : Fin 3) * 2048 + 2048; rw [e2, ht]; omega

/-- THE OUTPUT ARRAY after the region is O. -/
theorem final (c : Dev nD) : ((dats m 0 c).arrAt 8 cfg0.N : S2x256x131072.Idx → EReal) = O m c :=
  (dats m 0 c).arrAt_eq_of_cover 8 (O m c) (fun t _ => flushed_eq m c t) (cover)

/-! ## The kernel's result -/

/-- The result buffer after the whole program is the result function of the five argument arrays. -/
theorem kernel_result (c : Dev nD) :
    (Pipeline.afterTail₀ cfgs (dats m) 0 (V0 m) [hostOps1] c main_v8 : S4x256x128x256x2.Idx → EReal)
      = Cert.Spec.ResultOf (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KerGlue.tail_v8 m c (O m c) (final m c)]
  rfl

/-- THE KERNEL'S RUN: every weakly fair execution terminates with the result buffer at the result function of the
    arguments, and the arguments unchanged. -/
theorem kernel_run : θ_run defs (onTc (τ := τ) (main (F := Ideal))) ⟨m, fun _ => 0, ρ⟩ (fun r => ∀ c : Dev nD,
      r.2.mem ((c.tc : Thread nD τ).loc main_v8) = Cert.Spec.ResultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KerArr

end
-- ==== Proof.RefLayout.lean ====
/-
  The reference's layout operations read at an index given by coordinates.

  The reference moves the token axes of x together (a transpose and a reshape of [4, 256, 128, 256, 2] into the
  token-major [131072, 256, 2]), cuts channel ranges and the real or imaginary plane out of that view, regroups a
  range of 16·m channels as 16 features of m components, spreads per-feature values over the components, and at the
  end undoes the regrouping and the token-major view. None of these operations moves a value: each lemma below names
  the one entry of the operand that an entry of the result reads.
-/
import Idealize.ShloMosaic.Lib.ValueLayout
import proofs.«132330_j16243566313947_1_alg».proof.Proof.Tokens

noncomputable section

namespace Cert.RefSide

open Idealize.ShloMosaic Idealize.ShloMosaic.ValueIdx Cert.Spec

variable {α : Type}

/-! ## The token-major view and its inverse -/

/-- The transpose [0, 2, 3, 1, 4] followed by the reshape to [131072, 256, 2] is the token-major view: entry
    (n, ch, c) is x at (batch of n, ch, time of n, frequency of n, c). -/
theorem tokenMajor_apply (x : (⟨5, ![4, 256, 128, 256, 2]⟩ : Shape).Idx → EReal)
    (ht : (⟨5, ![4, 256, 128, 256, 2]⟩ : Shape).Transposes [0, 2, 3, 1, 4] ⟨5, ![4, 128, 256, 256, 2]⟩)
    (hc : (⟨5, ![4, 128, 256, 256, 2]⟩ : Shape).ShapeCasts ⟨3, ![131072, 256, 2]⟩)
    (n : Fin 131072) (ch : Fin 256) (c : Fin 2) :
    shapeCast ⟨3, ![131072, 256, 2]⟩ (transpose ⟨5, ![4, 128, 256, 256, 2]⟩ [0, 2, 3, 1, 4] x ht) hc (ix3 n ch c)
      = Xof x n ch c := by
  refine (shapeCast_apply _ hc (ix3 n ch c) (ix5 (tokB n) (tokT n) (tokF n) ch c) ?_).trans ?_
  · rw [Shape.rowMajor_val_five, Shape.rowMajor_val_three]
    show ((((n.val / 32768) * 128 + n.val / 256 % 128) * 256 + n.val % 256) * 256 + ch.val) * 2 + c.val
      = (n.val * 256 + ch.val) * 2 + c.val
    omega
  · exact transpose_apply _ x ht _ (ix5 (tokB n) ch (tokT n) (tokF n) c) fun b => by
      match b with
      | ⟨0, _⟩ => rfl
      | ⟨1, _⟩ => rfl
      | ⟨2, _⟩ => rfl
      | ⟨3, _⟩ => rfl
      | ⟨4, _⟩ => rfl

/-- The reshape of a token-major array to [4, 128, 256, 256, 2] followed by the transpose [0, 3, 1, 2, 4] puts
    entry (token (b, t, f), ch, c) at (b, ch, t, f, c). -/
theorem tokenMajor_back_apply (r : (⟨3, ![131072, 256, 2]⟩ : Shape).Idx → α)
    (hc : (⟨3, ![131072, 256, 2]⟩ : Shape).ShapeCasts ⟨5, ![4, 128, 256, 256, 2]⟩)
    (ht : (⟨5, ![4, 128, 256, 256, 2]⟩ : Shape).Transposes [0, 3, 1, 2, 4] ⟨5, ![4, 256, 128, 256, 2]⟩)
    (b : Fin 4) (ch : Fin 256) (t : Fin 128) (f : Fin 256) (c : Fin 2) :
    transpose ⟨5, ![4, 256, 128, 256, 2]⟩ [0, 3, 1, 2, 4] (shapeCast ⟨5, ![4, 128, 256, 256, 2]⟩ r hc) ht (ix5 b ch t f c)
      = r (ix3 (tok b t f) ch c) := by
  refine (transpose_apply _ _ ht _ (ix5 b t f ch c) fun a => by
      match a with
      | ⟨0, _⟩ => rfl
      | ⟨1, _⟩ => rfl
      | ⟨2, _⟩ => rfl
      | ⟨3, _⟩ => rfl
      | ⟨4, _⟩ => rfl).trans ?_
  refine shapeCast_apply r hc _ _ ?_
  rw [Shape.rowMajor_val_five, Shape.rowMajor_val_three]
  show (((b.val * 128 + t.val) * 256 + f.val) * 256 + ch.val) * 2 + c.val
    = ((((b.val * 128 + t.val) * 256 + f.val) * 256 + ch.val) * 2 + c.val)
  rfl

/-! ## Trailing unit axes dropped -/

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, b, m, 1] array cast to [a, b, m] reads, at (i, j, l), the operand at (i, j, l, 0). -/
theorem shapeCast_abm1_abm_apply {a b m : ℕ} (x : (⟨4, ![a, b, m, 1]⟩ : Shape).Idx → α)
    (h : (⟨4, ![a, b, m, 1]⟩ : Shape).ShapeCasts ⟨3, ![a, b, m]⟩) (i : Fin a) (j : Fin b) (l : Fin m) :
    shapeCast ⟨3, ![a, b, m]⟩ x h (ix3 i j l) = x (ix4 i j l (0 : Fin 1)) :=
  shapeCast_apply x h _ _ (by
    rw [Shape.rowMajor_val_four, Shape.rowMajor_val_three]
    show ((i.val * b + j.val) * m + l.val) * 1 + 0 = (i.val * b + j.val) * m + l.val
    rw [Nat.mul_one, Nat.add_zero])

/-! ## The scalar features' real and imaginary planes -/

/-- The first sixteen channels of a token-major array, then plane `cc` of the last axis, then the unit axis dropped:
    entry (n, i) is the array at (n, i, cc). -/
theorem scalarPlane_apply (v : (⟨3, ![131072, 256, 2]⟩ : Shape).Idx → α)
    (h1 : (⟨3, ![131072, 256, 2]⟩ : Shape).Slices ![0, 0, 0] ⟨3, ![131072, 16, 2]⟩)
    (cc : ℕ) (h2 : (⟨3, ![131072, 16, 2]⟩ : Shape).Slices ![0, 0, cc] ⟨3, ![131072, 16, 1]⟩)
    (h3 : (⟨3, ![131072, 16, 1]⟩ : Shape).ShapeCasts ⟨2, ![131072, 16]⟩)
    (n : Fin 131072) (i : Fin 16) (c : Fin 2) (hc : c.val = cc) :
    shapeCast ⟨2, ![131072, 16]⟩ (extractStridedSlice ⟨3, ![131072, 16, 1]⟩ ![0, 0, cc]
      (extractStridedSlice ⟨3, ![131072, 16, 2]⟩ ![0, 0, 0] v h1) h2) h3 (ix2 n i)
      = v (ix3 n ⟨i.val, lt256_of_lt16 i⟩ c) := by
  refine (shapeCast_ab1_ab_apply _ h3 n i).trans ?_
  refine (extractStridedSlice_apply _ _ h2 _ (ix3 n i c) fun a => by
    match a with
    | ⟨0, _⟩ => exact (Nat.zero_add _).symm
    | ⟨1, _⟩ => exact (Nat.zero_add _).symm
    | ⟨2, _⟩ => exact hc).trans ?_
  exact extractStridedSlice_apply _ v h1 _ (ix3 n ⟨i.val, lt256_of_lt16 i⟩ c) fun a => by
    match a with
    | ⟨0, _⟩ => exact (Nat.zero_add _).symm
    | ⟨1, _⟩ => exact (Nat.zero_add _).symm
    | ⟨2, _⟩ => exact (Nat.zero_add _).symm

/-- The first sixteen channels of a token-major array: entry (n, i, c) is the array at (n, i, c). -/
theorem scalarPart_apply (v : (⟨3, ![131072, 256, 2]⟩ : Shape).Idx → α)
    (h1 : (⟨3, ![131072, 256, 2]⟩ : Shape).Slices ![0, 0, 0] ⟨3, ![131072, 16, 2]⟩)
    (n : Fin 131072) (i : Fin 16) (c : Fin 2) :
    extractStridedSlice ⟨3, ![131072, 16, 2]⟩ ![0, 0, 0] v h1 (ix3 n i c) = v (ix3 n ⟨i.val, lt256_of_lt16 i⟩ c) :=
  extractStridedSlice_apply _ v h1 _ (ix3 n ⟨i.val, lt256_of_lt16 i⟩ c) fun a => by
    match a with
    | ⟨0, _⟩ => exact (Nat.zero_add _).symm
    | ⟨1, _⟩ => exact (Nat.zero_add _).symm
    | ⟨2, _⟩ => exact (Nat.zero_add _).symm

/-! ## A range of 16·m channels regrouped as 16 features of m components, and back -/

/-- Component `j` of feature `k` sits at position k·m + j of the group's w = 16·m channels. -/
theorem feat_lt {m w : ℕ} (hw : w = 16 * m) (k : Fin 16) (j : Fin m) : k.val * m + j.val < w := by
  have hk := k.isLt
  have hj := j.isLt
  have h1 : (k.val + 1) * m ≤ 16 * m := Nat.mul_le_mul_right m (by omega)
  rw [Nat.add_mul, Nat.one_mul] at h1
  omega

/-- The channels base … base + w − 1 of a token-major array, regrouped as [131072, 16, m, 2]: entry (n, k, j, c) is
    the array at (n, channel base + k·m + j, c). -/
theorem groupPart_apply {m w : ℕ} (base : ℕ) (hw : w = 16 * m) (hb : base + 16 * m ≤ 256)
    (v : (⟨3, ![131072, 256, 2]⟩ : Shape).Idx → α)
    (h1 : (⟨3, ![131072, 256, 2]⟩ : Shape).Slices ![0, base, 0] ⟨3, ![131072, w, 2]⟩)
    (h2 : (⟨3, ![131072, w, 2]⟩ : Shape).ShapeCasts ⟨4, ![131072, 16, m, 2]⟩)
    (n : Fin 131072) (k : Fin 16) (j : Fin m) (c : Fin 2) :
    shapeCast ⟨4, ![131072, 16, m, 2]⟩ (extractStridedSlice ⟨3, ![131072, w, 2]⟩ ![0, base, 0] v h1) h2 (ix4 n k j c)
      = v (ix3 n (chan hb k j) c) := by
  refine (shapeCast_apply _ h2 _ (ix3 n ⟨k.val * m + j.val, feat_lt hw k j⟩ c) ?_).trans ?_
  · rw [Shape.rowMajor_val_four, Shape.rowMajor_val_three]
    show (n.val * w + (k.val * m + j.val)) * 2 + c.val = ((n.val * 16 + k.val) * m + j.val) * 2 + c.val
    subst hw
    ring
  · exact extractStridedSlice_apply _ v h1 _ (ix3 n (chan hb k j) c) fun a => by
      match a with
      | ⟨0, _⟩ => exact (Nat.zero_add _).symm
      | ⟨1, _⟩ => exact Nat.add_assoc _ _ _
      | ⟨2, _⟩ => exact (Nat.zero_add _).symm

/-- A [131072, 16, m, 2] array flattened to [131072, w, 2]: the entry at (n, k·m + j, c) is the array at (n, k, j, c). -/
theorem groupBack_apply {m w : ℕ} (hw : w = 16 * m) (y : (⟨4, ![131072, 16, m, 2]⟩ : Shape).Idx → α)
    (h : (⟨4, ![131072, 16, m, 2]⟩ : Shape).ShapeCasts ⟨3, ![131072, w, 2]⟩)
    (n : Fin 131072) (k : Fin 16) (j : Fin m) (c : Fin 2) (q : Fin w) (hq : q.val = k.val * m + j.val) :
    shapeCast ⟨3, ![131072, w, 2]⟩ y h (ix3 n q c) = y (ix4 n k j c) := by
  refine shapeCast_apply y h _ _ ?_
  rw [Shape.rowMajor_val_four, Shape.rowMajor_val_three]
  show ((n.val * 16 + k.val) * m + j.val) * 2 + c.val = (n.val * w + q.val) * 2 + c.val
  rw [hq]
  subst hw
  ring

/-! ## Per-feature values spread over components and planes -/

/-- A [131072, 16] array with a unit axis appended reads, at (n, k, u), the array at (n, k). -/
theorem bcast_ab_ab1_apply (h : (⟨2, ![131072, 16]⟩ : Shape).BroadcastsInDim ⟨3, ![131072, 16, 1]⟩ ![0, 1])
    (x : (⟨2, ![131072, 16]⟩ : Shape).Idx → α) (n : Fin 131072) (k : Fin 16) (u : Fin 1) :
    broadcastInDim ⟨3, ![131072, 16, 1]⟩ ![0, 1] h x (ix3 n k u) = x (ix2 n k) :=
  broadcastInDim_apply _ h x _ (ix2 n k) fun a => by
    match a with
    | ⟨0, _⟩ => rfl
    | ⟨1, _⟩ => rfl

/-- A [131072, 16, 1] array spread over m components reads, at (n, k, j), the array at (n, k, 0). -/
theorem bcast_ab1_abm_apply {m : ℕ} (h : (⟨3, ![131072, 16, 1]⟩ : Shape).BroadcastsInDim ⟨3, ![131072, 16, m]⟩ ![0, 1, 2])
    (x : (⟨3, ![131072, 16, 1]⟩ : Shape).Idx → α) (n : Fin 131072) (k : Fin 16) (j : Fin m) :
    broadcastInDim ⟨3, ![131072, 16, m]⟩ ![0, 1, 2] h x (ix3 n k j) = x (ix3 n k (0 : Fin 1)) :=
  broadcastInDim_apply _ h x _ (ix3 n k (0 : Fin 1)) fun a => by
    match a with
    | ⟨0, _⟩ => rfl
    | ⟨1, _⟩ => rfl
    | ⟨2, _⟩ => rfl

/-- A [131072, 16, m] array with a unit axis appended reads, at (n, k, j, u), the array at (n, k, j). -/
theorem bcast_abm_abm1_apply {m : ℕ} (h : (⟨3, ![131072, 16, m]⟩ : Shape).BroadcastsInDim ⟨4, ![131072, 16, m, 1]⟩ ![0, 1, 2])
    (x : (⟨3, ![131072, 16, m]⟩ : Shape).Idx → α) (n : Fin 131072) (k : Fin 16) (j : Fin m) (u : Fin 1) :
    broadcastInDim ⟨4, ![131072, 16, m, 1]⟩ ![0, 1, 2] h x (ix4 n k j u) = x (ix3 n k j) :=
  broadcastInDim_apply _ h x _ (ix3 n k j) fun a => by
    match a with
    | ⟨0, _⟩ => rfl
    | ⟨1, _⟩ => rfl
    | ⟨2, _⟩ =>
      show j.val = if m = 1 then 0 else j.val
      split
      · have := j.isLt; omega
      · rfl

/-- A [131072, 16] array with two unit axes appended reads, at (n, k, u, u'), the array at (n, k). -/
theorem bcast_ab_ab11_apply (h : (⟨2, ![131072, 16]⟩ : Shape).BroadcastsInDim ⟨4, ![131072, 16, 1, 1]⟩ ![0, 1])
    (x : (⟨2, ![131072, 16]⟩ : Shape).Idx → α) (n : Fin 131072) (k : Fin 16) (u u' : Fin 1) :
    broadcastInDim ⟨4, ![131072, 16, 1, 1]⟩ ![0, 1] h x (ix4 n k u u') = x (ix2 n k) :=
  broadcastInDim_apply _ h x _ (ix2 n k) fun a => by
    match a with
    | ⟨0, _⟩ => rfl
    | ⟨1, _⟩ => rfl

/-- A [131072, 16, 1, 1] array spread over m components and two planes reads, at (n, k, j, c), the array at
    (n, k, 0, 0). -/
theorem bcast_ab11_abmc_apply {m : ℕ}
    (h : (⟨4, ![131072, 16, 1, 1]⟩ : Shape).BroadcastsInDim ⟨4, ![131072, 16, m, 2]⟩ ![0, 1, 2, 3])
    (x : (⟨4, ![131072, 16, 1, 1]⟩ : Shape).Idx → α) (n : Fin 131072) (k : Fin 16) (j : Fin m) (c : Fin 2) :
    broadcastInDim ⟨4, ![131072, 16, m, 2]⟩ ![0, 1, 2, 3] h x (ix4 n k j c) = x (ix4 n k (0 : Fin 1) (0 : Fin 1)) :=
  broadcastInDim_apply _ h x _ (ix4 n k (0 : Fin 1) (0 : Fin 1)) fun a => by
    match a with
    | ⟨0, _⟩ => rfl
    | ⟨1, _⟩ => rfl
    | ⟨2, _⟩ => rfl
    | ⟨3, _⟩ => rfl

end Cert.RefSide

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«132330_j16243566313947_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.RefGate.lean ====
/-
  The reference's affine layers and gates read at an index.

  For group g the reference takes row-block g of a weight stack (a 16×16 matrix W, used transposed) and row g of a
  bias stack (a vector b spread over the tokens), and forms  v·Wᵀ + b  for v the real or the imaginary parts of the
  sixteen scalar features: entry (n, k) is  Σ_i v(n, i)·W(k, i) + b(k).  The gate's real part is the difference of the
  real layer on the real parts and the imaginary layer on the imaginary parts, its imaginary part the sum of the
  imaginary layer on the real parts and the real layer on the imaginary parts.
-/
import proofs.«132330_j16243566313947_1_alg».proof.Proof.RefLayout
import proofs.«132330_j16243566313947_1_alg».proof.Proof.LibDotGeneralPlain
import proofs.«132330_j16243566313947_1_alg».proof.Proof.LibHostBroadcast

noncomputable section

open scoped BigOperators

namespace Cert.RefSide

open Idealize.ShloMosaic Idealize.ShloMosaic.ValueIdx Cert.Spec

/-- Row-block `go` of a [4, 16, 16] stack, as a 16×16 matrix, transposed: entry (i, k) is the stack at (go, k, i). -/
theorem weightT_apply (go : ℕ) (g : Fin 4) (hg : g.val = go) (w : FVec Ideal ⟨3, ![4, 16, 16]⟩ .f32)
    (hs : (⟨3, ![4, 16, 16]⟩ : Shape).Slices ![go, 0, 0] ⟨3, ![1, 16, 16]⟩)
    (hc : (⟨3, ![1, 16, 16]⟩ : Shape).ShapeCasts ⟨2, ![16, 16]⟩)
    (ht : (⟨2, ![16, 16]⟩ : Shape).Transposes [1, 0] ⟨2, ![16, 16]⟩) (i k : Fin 16) :
    transpose ⟨2, ![16, 16]⟩ [1, 0] (shapeCast ⟨2, ![16, 16]⟩ (extractStridedSlice ⟨3, ![1, 16, 16]⟩ ![go, 0, 0] w hs) hc) ht
      (ix2 i k) = W3 w g k i := by
  refine (transpose_ix2_apply _ ht i k).trans ?_
  refine (shapeCast_1ab_ab_apply _ hc k i).trans ?_
  exact extractStridedSlice_apply _ w hs _ (ix3 g k i) fun a => by
    match a with
    | ⟨0, _⟩ => exact hg.trans (Nat.add_zero _).symm
    | ⟨1, _⟩ => exact (Nat.zero_add _).symm
    | ⟨2, _⟩ => exact (Nat.zero_add _).symm

/-- Row `go` of a [4, 16] stack, as a vector, placed as a row and spread over the tokens: entry (n, k) is the stack at
    (go, k). -/
theorem biasRow_apply (go : ℕ) (g : Fin 4) (hg : g.val = go) (b : FVec Ideal ⟨2, ![4, 16]⟩ .f32)
    (hs : (⟨2, ![4, 16]⟩ : Shape).Slices ![go, 0] ⟨2, ![1, 16]⟩)
    (hc : (⟨2, ![1, 16]⟩ : Shape).ShapeCasts ⟨1, ![16]⟩)
    (hb1 : (⟨1, ![16]⟩ : Shape).BroadcastsInDim ⟨2, ![1, 16]⟩ ![1])
    (hb2 : (⟨2, ![1, 16]⟩ : Shape).BroadcastsInDim ⟨2, ![131072, 16]⟩ ![0, 1]) (n : Fin 131072) (k : Fin 16) :
    broadcastInDim ⟨2, ![131072, 16]⟩ ![0, 1] hb2 (broadcastInDim ⟨2, ![1, 16]⟩ ![1] hb1
      (shapeCast ⟨1, ![16]⟩ (extractStridedSlice ⟨2, ![1, 16]⟩ ![go, 0] b hs) hc)) (ix2 n k) = B2 b g k := by
  refine (Cert.LibHostBroadcast.bcast_1b_ab_apply _ rfl hb2 _ n k).trans ?_
  refine (Cert.LibHostBroadcast.bcast_b_1b_apply _ rfl hb1 _ (0 : Fin 1) k).trans ?_
  refine (shapeCast_1a_a_apply _ hc k).trans ?_
  exact extractStridedSlice_apply _ b hs _ (ix2 g k) fun a => by
    match a with
    | ⟨0, _⟩ => exact hg.trans (Nat.add_zero _).symm
    | ⟨1, _⟩ => exact (Nat.zero_add _).symm

/-- One affine layer of group `g` on a [131072, 16] array v: entry (n, k) is the layer of Spec on the row n of v. -/
theorem affine_apply (go : ℕ) (g : Fin 4) (hg : g.val = go)
    (v : FVec Ideal ⟨2, ![131072, 16]⟩ .f32) (w : FVec Ideal ⟨3, ![4, 16, 16]⟩ .f32) (b : FVec Ideal ⟨2, ![4, 16]⟩ .f32)
    (D : DotDims ⟨2, ![131072, 16]⟩ ⟨2, ![16, 16]⟩ ⟨2, ![131072, 16]⟩) (hD : D = DotDims.plain 131072 16 16)
    (hs1 : (⟨3, ![4, 16, 16]⟩ : Shape).Slices ![go, 0, 0] ⟨3, ![1, 16, 16]⟩)
    (hc1 : (⟨3, ![1, 16, 16]⟩ : Shape).ShapeCasts ⟨2, ![16, 16]⟩)
    (ht : (⟨2, ![16, 16]⟩ : Shape).Transposes [1, 0] ⟨2, ![16, 16]⟩)
    (hs2 : (⟨2, ![4, 16]⟩ : Shape).Slices ![go, 0] ⟨2, ![1, 16]⟩)
    (hc2 : (⟨2, ![1, 16]⟩ : Shape).ShapeCasts ⟨1, ![16]⟩)
    (hb1 : (⟨1, ![16]⟩ : Shape).BroadcastsInDim ⟨2, ![1, 16]⟩ ![1])
    (hb2 : (⟨2, ![1, 16]⟩ : Shape).BroadcastsInDim ⟨2, ![131072, 16]⟩ ![0, 1]) (n : Fin 131072) (k : Fin 16) :
    addf (Host.dotGeneral D none v
        (transpose ⟨2, ![16, 16]⟩ [1, 0] (shapeCast ⟨2, ![16, 16]⟩ (extractStridedSlice ⟨3, ![1, 16, 16]⟩ ![go, 0, 0] w hs1) hc1) ht))
      (broadcastInDim ⟨2, ![131072, 16]⟩ ![0, 1] hb2 (broadcastInDim ⟨2, ![1, 16]⟩ ![1] hb1
        (shapeCast ⟨1, ![16]⟩ (extractStridedSlice ⟨2, ![1, 16]⟩ ![go, 0] b hs2) hc2))) (ix2 n k)
      = lin (W3 w g) (B2 b g) (fun i => v (ix2 n i)) k := by
  rw [addf_apply, biasRow_apply go g hg b hs2 hc2 hb1 hb2 n k]
  show FloatOps.dotGeneral D none .single v _ (ix2 n k) + _ = _
  rw [Cert.LibDotGeneralPlain.dotGeneral_plain_apply D hD]
  unfold lin
  congr 1
  exact Finset.sum_congr rfl fun i _ => by rw [weightT_apply go g hg w hs1 hc1 ht i k]

end Cert.RefSide

end
-- ==== Proof.RefGates.lean ====
/-
  The reference's complex gate of a group, read at an index.

  With L_re and L_im the two affine layers of group g, the gate of feature k of token n is
  (L_re(re x₀) − L_im(im x₀)) + i·(L_im(re x₀) + L_re(im x₀)), each part kept with a trailing unit axis.
-/
import proofs.«132330_j16243566313947_1_alg».proof.Proof.RefGate

noncomputable section

namespace Cert.RefSide

open Idealize.ShloMosaic Idealize.ShloMosaic.ValueIdx Cert.Spec

/-- The gate's real part: the real layer on the real parts minus the imaginary layer on the imaginary parts. -/
theorem gateRe_apply (go : ℕ) (g : Fin 4) (hg : g.val = go)
    (vr vi : FVec Ideal ⟨2, ![131072, 16]⟩ .f32) (wre wim : FVec Ideal ⟨3, ![4, 16, 16]⟩ .f32)
    (bre bim : FVec Ideal ⟨2, ![4, 16]⟩ .f32)
    (D : DotDims ⟨2, ![131072, 16]⟩ ⟨2, ![16, 16]⟩ ⟨2, ![131072, 16]⟩) (hD : D = DotDims.plain 131072 16 16)
    (hs1 : (⟨3, ![4, 16, 16]⟩ : Shape).Slices ![go, 0, 0] ⟨3, ![1, 16, 16]⟩)
    (hc1 : (⟨3, ![1, 16, 16]⟩ : Shape).ShapeCasts ⟨2, ![16, 16]⟩)
    (ht : (⟨2, ![16, 16]⟩ : Shape).Transposes [1, 0] ⟨2, ![16, 16]⟩)
    (hs2 : (⟨2, ![4, 16]⟩ : Shape).Slices ![go, 0] ⟨2, ![1, 16]⟩)
    (hc2 : (⟨2, ![1, 16]⟩ : Shape).ShapeCasts ⟨1, ![16]⟩)
    (hb1 : (⟨1, ![16]⟩ : Shape).BroadcastsInDim ⟨2, ![1, 16]⟩ ![1])
    (hb2 : (⟨2, ![1, 16]⟩ : Shape).BroadcastsInDim ⟨2, ![131072, 16]⟩ ![0, 1])
    (hb : (⟨2, ![131072, 16]⟩ : Shape).BroadcastsInDim ⟨3, ![131072, 16, 1]⟩ ![0, 1])
    (n : Fin 131072) (k : Fin 16) (u : Fin 1) :
    broadcastInDim ⟨3, ![131072, 16, 1]⟩ ![0, 1] hb
      (subf (addf (Host.dotGeneral D none vr
          (transpose ⟨2, ![16, 16]⟩ [1, 0] (shapeCast ⟨2, ![16, 16]⟩ (extractStridedSlice ⟨3, ![1, 16, 16]⟩ ![go, 0, 0] wre hs1) hc1) ht))
        (broadcastInDim ⟨2, ![131072, 16]⟩ ![0, 1] hb2 (broadcastInDim ⟨2, ![1, 16]⟩ ![1] hb1
          (shapeCast ⟨1, ![16]⟩ (extractStridedSlice ⟨2, ![1, 16]⟩ ![go, 0] bre hs2) hc2))))
        (addf (Host.dotGeneral D none vi
          (transpose ⟨2, ![16, 16]⟩ [1, 0] (shapeCast ⟨2, ![16, 16]⟩ (extractStridedSlice ⟨3, ![1, 16, 16]⟩ ![go, 0, 0] wim hs1) hc1) ht))
        (broadcastInDim ⟨2, ![131072, 16]⟩ ![0, 1] hb2 (broadcastInDim ⟨2, ![1, 16]⟩ ![1] hb1
          (shapeCast ⟨1, ![16]⟩ (extractStridedSlice ⟨2, ![1, 16]⟩ ![go, 0] bim hs2) hc2))))) (ix3 n k u)
      = gateRe (W3 wre g) (W3 wim g) (B2 bre g) (B2 bim g) (fun i => vr (ix2 n i)) (fun i => vi (ix2 n i)) k := by
  rw [bcast_ab_ab1_apply hb _ n k u, subf_apply,
    affine_apply go g hg vr wre bre D hD hs1 hc1 ht hs2 hc2 hb1 hb2 n k,
    affine_apply go g hg vi wim bim D hD hs1 hc1 ht hs2 hc2 hb1 hb2 n k]
  rfl

/-- The gate's imaginary part: the imaginary layer on the real parts plus the real layer on the imaginary parts. -/
theorem gateIm_apply (go : ℕ) (g : Fin 4) (hg : g.val = go)
    (vr vi : FVec Ideal ⟨2, ![131072, 16]⟩ .f32) (wre wim : FVec Ideal ⟨3, ![4, 16, 16]⟩ .f32)
    (bre bim : FVec Ideal ⟨2, ![4, 16]⟩ .f32)
    (D : DotDims ⟨2, ![131072, 16]⟩ ⟨2, ![16, 16]⟩ ⟨2, ![131072, 16]⟩) (hD : D = DotDims.plain 131072 16 16)
    (hs1 : (⟨3, ![4, 16, 16]⟩ : Shape).Slices ![go, 0, 0] ⟨3, ![1, 16, 16]⟩)
    (hc1 : (⟨3, ![1, 16, 16]⟩ : Shape).ShapeCasts ⟨2, ![16, 16]⟩)
    (ht : (⟨2, ![16, 16]⟩ : Shape).Transposes [1, 0] ⟨2, ![16, 16]⟩)
    (hs2 : (⟨2, ![4, 16]⟩ : Shape).Slices ![go, 0] ⟨2, ![1, 16]⟩)
    (hc2 : (⟨2, ![1, 16]⟩ : Shape).ShapeCasts ⟨1, ![16]⟩)
    (hb1 : (⟨1, ![16]⟩ : Shape).BroadcastsInDim ⟨2, ![1, 16]⟩ ![1])
    (hb2 : (⟨2, ![1, 16]⟩ : Shape).BroadcastsInDim ⟨2, ![131072, 16]⟩ ![0, 1])
    (hb : (⟨2, ![131072, 16]⟩ : Shape).BroadcastsInDim ⟨3, ![131072, 16, 1]⟩ ![0, 1])
    (n : Fin 131072) (k : Fin 16) (u : Fin 1) :
    broadcastInDim ⟨3, ![131072, 16, 1]⟩ ![0, 1] hb
      (addf (addf (Host.dotGeneral D none vr
          (transpose ⟨2, ![16, 16]⟩ [1, 0] (shapeCast ⟨2, ![16, 16]⟩ (extractStridedSlice ⟨3, ![1, 16, 16]⟩ ![go, 0, 0] wim hs1) hc1) ht))
        (broadcastInDim ⟨2, ![131072, 16]⟩ ![0, 1] hb2 (broadcastInDim ⟨2, ![1, 16]⟩ ![1] hb1
          (shapeCast ⟨1, ![16]⟩ (extractStridedSlice ⟨2, ![1, 16]⟩ ![go, 0] bim hs2) hc2))))
        (addf (Host.dotGeneral D none vi
          (transpose ⟨2, ![16, 16]⟩ [1, 0] (shapeCast ⟨2, ![16, 16]⟩ (extractStridedSlice ⟨3, ![1, 16, 16]⟩ ![go, 0, 0] wre hs1) hc1) ht))
        (broadcastInDim ⟨2, ![131072, 16]⟩ ![0, 1] hb2 (broadcastInDim ⟨2, ![1, 16]⟩ ![1] hb1
          (shapeCast ⟨1, ![16]⟩ (extractStridedSlice ⟨2, ![1, 16]⟩ ![go, 0] bre hs2) hc2))))) (ix3 n k u)
      = gateIm (W3 wre g) (W3 wim g) (B2 bre g) (B2 bim g) (fun i => vr (ix2 n i)) (fun i => vi (ix2 n i)) k := by
  rw [bcast_ab_ab1_apply hb _ n k u, addf_apply,
    affine_apply go g hg vr wim bim D hD hs1 hc1 ht hs2 hc2 hb1 hb2 n k,
    affine_apply go g hg vi wre bre D hD hs1 hc1 ht hs2 hc2 hb1 hb2 n k]
  rfl

end Cert.RefSide

end
-- ==== Proof.RefGroup.lean ====
/-
  One group of the reference, read at an index: the modulated features, their energies, and the normalisation.

  A group is a [131072, 16, m, 2] array xl (token, feature, component, real or imaginary plane) with one complex gate
  per token and feature, kept as two [131072, 16, 1] arrays. The reference multiplies every component by the gate as a
  complex number, stacks the real and the imaginary products along the last axis, sums the squares of the result over
  the components and the planes, and divides the result by ε plus the fourth root of that sum. Everything below is
  generic in the number m of components.
-/
import proofs.«132330_j16243566313947_1_alg».proof.Proof.RefLayout
import proofs.«132330_j16243566313947_1_alg».proof.Proof.LibHostBroadcast
import Idealize.ShloMosaic.PureOps.Ideal.Laws

noncomputable section

open scoped BigOperators

namespace Cert.RefSide

open Idealize.ShloMosaic Idealize.ShloMosaic.ValueIdx Cert.Spec

variable {m : ℕ}

/-- Plane `cc` of a [131072, 16, m, 2] array with the unit axis dropped: entry (n, k, j) is the array at (n, k, j, cc). -/
theorem plane_apply {α : Type} (cc : ℕ) (xl : (⟨4, ![131072, 16, m, 2]⟩ : Shape).Idx → α)
    (hs : (⟨4, ![131072, 16, m, 2]⟩ : Shape).Slices ![0, 0, 0, cc] ⟨4, ![131072, 16, m, 1]⟩)
    (hc : (⟨4, ![131072, 16, m, 1]⟩ : Shape).ShapeCasts ⟨3, ![131072, 16, m]⟩)
    (n : Fin 131072) (k : Fin 16) (j : Fin m) (c : Fin 2) (hcc : c.val = cc) :
    shapeCast ⟨3, ![131072, 16, m]⟩ (extractStridedSlice ⟨4, ![131072, 16, m, 1]⟩ ![0, 0, 0, cc] xl hs) hc (ix3 n k j)
      = xl (ix4 n k j c) := by
  refine (shapeCast_abm1_abm_apply _ hc n k j).trans ?_
  exact extractStridedSlice_apply _ xl hs _ (ix4 n k j c) fun a => by
    match a with
    | ⟨0, _⟩ => exact (Nat.zero_add _).symm
    | ⟨1, _⟩ => exact (Nat.zero_add _).symm
    | ⟨2, _⟩ => exact (Nat.zero_add _).symm
    | ⟨3, _⟩ => exact hcc

/-- THE MODULATED FEATURES. The two products (xr·are − xi·aim and xi·are + xr·aim, each over [131072, 16, m]) stacked
    along a new last axis: entry (n, k, j, c) is the real (c = 0) or the imaginary part of component j of feature k
    times the gate of feature k. -/
theorem modulated_apply (xl : FVec Ideal ⟨4, ![131072, 16, m, 2]⟩ .f32) (gre gim : FVec Ideal ⟨3, ![131072, 16, 1]⟩ .f32)
    (hs0 : (⟨4, ![131072, 16, m, 2]⟩ : Shape).Slices ![0, 0, 0, 0] ⟨4, ![131072, 16, m, 1]⟩)
    (hs1 : (⟨4, ![131072, 16, m, 2]⟩ : Shape).Slices ![0, 0, 0, 1] ⟨4, ![131072, 16, m, 1]⟩)
    (hc : (⟨4, ![131072, 16, m, 1]⟩ : Shape).ShapeCasts ⟨3, ![131072, 16, m]⟩)
    (hb : (⟨3, ![131072, 16, 1]⟩ : Shape).BroadcastsInDim ⟨3, ![131072, 16, m]⟩ ![0, 1, 2])
    (hb3 : (⟨3, ![131072, 16, m]⟩ : Shape).BroadcastsInDim ⟨4, ![131072, 16, m, 1]⟩ ![0, 1, 2])
    (hcat : Shape.Concatenates [(⟨4, ![131072, 16, m, 1]⟩ : Shape), ⟨4, ![131072, 16, m, 1]⟩] ⟨4, ![131072, 16, m, 2]⟩ 3)
    (n : Fin 131072) (k : Fin 16) (j : Fin m) (c : Fin 2) :
    concatenate ⟨4, ![131072, 16, m, 2]⟩ 3
      [⟨⟨4, ![131072, 16, m, 1]⟩, broadcastInDim ⟨4, ![131072, 16, m, 1]⟩ ![0, 1, 2] hb3
          (subf (mulf (shapeCast ⟨3, ![131072, 16, m]⟩ (extractStridedSlice ⟨4, ![131072, 16, m, 1]⟩ ![0, 0, 0, 0] xl hs0) hc)
                  (broadcastInDim ⟨3, ![131072, 16, m]⟩ ![0, 1, 2] hb gre))
                (mulf (shapeCast ⟨3, ![131072, 16, m]⟩ (extractStridedSlice ⟨4, ![131072, 16, m, 1]⟩ ![0, 0, 0, 1] xl hs1) hc)
                  (broadcastInDim ⟨3, ![131072, 16, m]⟩ ![0, 1, 2] hb gim)))⟩,
       ⟨⟨4, ![131072, 16, m, 1]⟩, broadcastInDim ⟨4, ![131072, 16, m, 1]⟩ ![0, 1, 2] hb3
          (addf (mulf (shapeCast ⟨3, ![131072, 16, m]⟩ (extractStridedSlice ⟨4, ![131072, 16, m, 1]⟩ ![0, 0, 0, 1] xl hs1) hc)
                  (broadcastInDim ⟨3, ![131072, 16, m]⟩ ![0, 1, 2] hb gre))
                (mulf (shapeCast ⟨3, ![131072, 16, m]⟩ (extractStridedSlice ⟨4, ![131072, 16, m, 1]⟩ ![0, 0, 0, 0] xl hs0) hc)
                  (broadcastInDim ⟨3, ![131072, 16, m]⟩ ![0, 1, 2] hb gim)))⟩] hcat (ix4 n k j c)
      = if c.val = 0 then modRe (gre (ix3 n k (0 : Fin 1))) (gim (ix3 n k (0 : Fin 1))) (xl (ix4 n k j 0)) (xl (ix4 n k j 1))
        else modIm (gre (ix3 n k (0 : Fin 1))) (gim (ix3 n k (0 : Fin 1))) (xl (ix4 n k j 0)) (xl (ix4 n k j 1)) := by
  have e0 := plane_apply 0 xl hs0 hc n k j 0 rfl
  have e1 := plane_apply 1 xl hs1 hc n k j 1 rfl
  have ere := bcast_ab1_abm_apply hb gre n k j
  have eim := bcast_ab1_abm_apply hb gim n k j
  match c with
  | ⟨0, _⟩ =>
    rw [if_pos rfl]
    refine (concatenate_pair_apply_left _ _ _ hcat _ rfl (ix4 n k j (0 : Fin 1)) fun b => by
      match b with
      | ⟨0, _⟩ => rfl
      | ⟨1, _⟩ => rfl
      | ⟨2, _⟩ => rfl
      | ⟨3, _⟩ => rfl).trans ?_
    rw [bcast_abm_abm1_apply hb3 _ n k j, subf_apply, mulf_apply, mulf_apply, e0, e1, ere, eim]
    rfl
  | ⟨1, _⟩ =>
    rw [if_neg Nat.one_ne_zero]
    refine (concatenate_pair_apply_right _ _ _ hcat _ rfl rfl (ix4 n k j (0 : Fin 1)) (fun b hb => by
      match b with
      | ⟨0, _⟩ => rfl
      | ⟨1, _⟩ => rfl
      | ⟨2, _⟩ => rfl
      | ⟨3, _⟩ => exact absurd rfl hb) rfl).trans ?_
    rw [bcast_abm_abm1_apply hb3 _ n k j, addf_apply, mulf_apply, mulf_apply, e0, e1, ere, eim]
    rfl

/-- THE SUM OVER THE COMPONENTS AND THE PLANES. The indices of a [131072, 16, m, 2] array that lose to (n, k) when the
    last two axes are dropped are the (n, k, j, c): a sum over them is the double sum over j and c. -/
theorem sum_filter_drop23 (h : (⟨4, ![131072, 16, m, 2]⟩ : Shape).ReducesTo [2, 3] ⟨2, ![131072, 16]⟩)
    (f : (⟨4, ![131072, 16, m, 2]⟩ : Shape).Idx → EReal) (n : Fin 131072) (k : Fin 16) :
    ∑ i ∈ Finset.univ.filter (fun i => h.drop i = ix2 n k), f i = ∑ j : Fin m, ∑ c : Fin 2, f (ix4 n k j c) := by
  have hd0 : ∀ i : (⟨4, ![131072, 16, m, 2]⟩ : Shape).Idx, (h.drop i 0).val = (i 0).val := fun _ => rfl
  have hd1 : ∀ i : (⟨4, ![131072, 16, m, 2]⟩ : Shape).Idx, (h.drop i 1).val = (i 1).val := fun _ => rfl
  rw [← Finset.sum_product' Finset.univ Finset.univ fun j c => f (ix4 n k j c)]
  refine Finset.sum_bij' (fun i _ => (i 2, i 3)) (fun p _ => ix4 n k p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a
    match a with
    | ⟨0, _⟩ => exact Fin.ext (hd0 _)
    | ⟨1, _⟩ => exact Fin.ext (hd1 _)
  · intro i hi
    have hi' := (Finset.mem_filter.1 hi).2
    have h0 : (i 0).val = n.val := (hd0 i).symm.trans (congrArg (fun q => (q 0).val) hi')
    have h1 : (i 1).val = k.val := (hd1 i).symm.trans (congrArg (fun q => (q 1).val) hi')
    funext a
    match a with
    | ⟨0, _⟩ => exact Fin.ext h0.symm
    | ⟨1, _⟩ => exact Fin.ext h1.symm
    | ⟨2, _⟩ => rfl
    | ⟨3, _⟩ => rfl
  · intro p _; rfl
  · intro i hi
    have hi' := (Finset.mem_filter.1 hi).2
    have h0 : (i 0).val = n.val := (hd0 i).symm.trans (congrArg (fun q => (q 0).val) hi')
    have h1 : (i 1).val = k.val := (hd1 i).symm.trans (congrArg (fun q => (q 1).val) hi')
    congr 1
    funext a
    match a with
    | ⟨0, _⟩ => exact Fin.ext h0
    | ⟨1, _⟩ => exact Fin.ext h1
    | ⟨2, _⟩ => rfl
    | ⟨3, _⟩ => rfl

/-- THE ENERGY. The host's sum over axes 2 and 3 of the squares of a [131072, 16, m, 2] array, from the initial
    value zero: entry (n, k) is the sum over the components of the squares of the two planes. -/
theorem sumSquares_apply (Y : FVec Ideal ⟨4, ![131072, 16, m, 2]⟩ .f32)
    (hred : (⟨4, ![131072, 16, m, 2]⟩ : Shape).ReducesTo [2, 3] ⟨2, ![131072, 16]⟩)
    (hu : 0 < (⟨0, ![]⟩ : Shape).numel) (n : Fin 131072) (k : Fin 16) :
    Host.reduceAdd (mulf Y Y) (constant (F := Ideal) ⟨0, ![]⟩ .f32 0x00000000#32) hred hu (ix2 n k)
      = ∑ j : Fin m, (Y (ix4 n k j 0) * Y (ix4 n k j 0) + Y (ix4 n k j 1) * Y (ix4 n k j 1)) := by
  show Ideal.hostReduceAdd hred (mulf Y Y) (Ideal.ofBits .f32 0x00000000#32) (ix2 n k) = _
  unfold Ideal.hostReduceAdd
  rw [Ideal.ofBits_zero_f32, zero_add, sum_filter_drop23 hred _ n k]
  exact Finset.sum_congr rfl fun j _ => by rw [Fin.sum_univ_two]; rfl

/-- THE NORMALISATION. A [131072, 16, m, 2] array divided by ε plus the fourth root of its energy, the divisor spread
    back over the components and the planes. -/
theorem normalized_apply (Y : FVec Ideal ⟨4, ![131072, 16, m, 2]⟩ .f32)
    (hred : (⟨4, ![131072, 16, m, 2]⟩ : Shape).ReducesTo [2, 3] ⟨2, ![131072, 16]⟩)
    (hu : 0 < (⟨0, ![]⟩ : Shape).numel)
    (hb2 : (⟨2, ![131072, 16]⟩ : Shape).BroadcastsInDim ⟨4, ![131072, 16, 1, 1]⟩ ![0, 1])
    (hbs : (⟨0, ![]⟩ : Shape).BroadcastsInDim ⟨4, ![131072, 16, 1, 1]⟩ ![])
    (hb4 : (⟨4, ![131072, 16, 1, 1]⟩ : Shape).BroadcastsInDim ⟨4, ![131072, 16, m, 2]⟩ ![0, 1, 2, 3])
    (n : Fin 131072) (k : Fin 16) (j : Fin m) (c : Fin 2) :
    Host.divf Y (broadcastInDim ⟨4, ![131072, 16, m, 2]⟩ ![0, 1, 2, 3] hb4
        (addf (broadcastInDim ⟨4, ![131072, 16, 1, 1]⟩ ![] hbs (constant (F := Ideal) ⟨0, ![]⟩ .f32 0x3727C5AC#32))
          (broadcastInDim ⟨4, ![131072, 16, 1, 1]⟩ ![0, 1] hb2
            (Host.sqrt (Host.sqrt (Host.reduceAdd (mulf Y Y) (constant (F := Ideal) ⟨0, ![]⟩ .f32 0x00000000#32) hred hu))))))
      (ix4 n k j c)
      = Ideal.div (Y (ix4 n k j c))
          (eps + Ideal.sqrt (Ideal.sqrt (∑ j' : Fin m, (Y (ix4 n k j' 0) * Y (ix4 n k j' 0) + Y (ix4 n k j' 1) * Y (ix4 n k j' 1))))) := by
  unfold Host.divf
  rw [Ideal.hostDivf_def]
  refine congrArg (Ideal.div (Y (ix4 n k j c))) ?_
  rw [bcast_ab11_abmc_apply hb4 _ n k j c, addf_apply, Cert.LibHostBroadcast.bcast_scalar_apply _ hbs,
    bcast_ab_ab11_apply hb2 _ n k, constant_apply]
  unfold Host.sqrt
  rw [Ideal.hostUnary_sqrt_def, Ideal.hostUnary_sqrt_def, sumSquares_apply Y hred hu n k, eps]

end Cert.RefSide

end
-- ==== Proof.RefOut.lean ====
/-
  A group's output entry, and the four channel ranges laid side by side.

  A group's normalised features, flattened back to its range of 16·m channels, read at channel k·m + j the entry
  (k, j) of the group: the modulated value divided by ε plus the fourth root of the feature's energy. The reference's
  result, token-major, is the scalar features followed by the three groups' ranges (16, 48, 80 and 112 channels).
-/
import proofs.«132330_j16243566313947_1_alg».proof.Proof.RefGroup

noncomputable section

open scoped BigOperators

namespace Cert.RefSide

open Idealize.ShloMosaic Idealize.ShloMosaic.ValueIdx Cert.Spec

/-- THE OUTPUT ENTRY OF A GROUP. If, for the token n and the feature k, the array Y holds at (n, k, j, c) the real
    (c = 0) or imaginary part of the gate (are + i·aim) times component j (xr j + i·xi j), then Y normalised and
    flattened to w = 16·m channels holds at (n, k·m + j, c) that value divided by ε plus the fourth root of the
    feature's energy. -/
theorem groupOut_apply {m w : ℕ} (hw : w = 16 * m) (Y : FVec Ideal ⟨4, ![131072, 16, m, 2]⟩ .f32)
    (are aim : EReal) (xr xi : Fin m → EReal) (n : Fin 131072) (k : Fin 16)
    (hY : ∀ (j : Fin m) (c : Fin 2), Y (ix4 n k j c)
      = if c.val = 0 then modRe are aim (xr j) (xi j) else modIm are aim (xr j) (xi j))
    (hred : (⟨4, ![131072, 16, m, 2]⟩ : Shape).ReducesTo [2, 3] ⟨2, ![131072, 16]⟩)
    (hu : 0 < (⟨0, ![]⟩ : Shape).numel)
    (hb2 : (⟨2, ![131072, 16]⟩ : Shape).BroadcastsInDim ⟨4, ![131072, 16, 1, 1]⟩ ![0, 1])
    (hbs : (⟨0, ![]⟩ : Shape).BroadcastsInDim ⟨4, ![131072, 16, 1, 1]⟩ ![])
    (hb4 : (⟨4, ![131072, 16, 1, 1]⟩ : Shape).BroadcastsInDim ⟨4, ![131072, 16, m, 2]⟩ ![0, 1, 2, 3])
    (hback : (⟨4, ![131072, 16, m, 2]⟩ : Shape).ShapeCasts ⟨3, ![131072, w, 2]⟩)
    (j : Fin m) (c : Fin 2) (q : Fin w) (hq : q.val = k.val * m + j.val) :
    shapeCast ⟨3, ![131072, w, 2]⟩ (Host.divf Y (broadcastInDim ⟨4, ![131072, 16, m, 2]⟩ ![0, 1, 2, 3] hb4
        (addf (broadcastInDim ⟨4, ![131072, 16, 1, 1]⟩ ![] hbs (constant (F := Ideal) ⟨0, ![]⟩ .f32 0x3727C5AC#32))
          (broadcastInDim ⟨4, ![131072, 16, 1, 1]⟩ ![0, 1] hb2
            (Host.sqrt (Host.sqrt (Host.reduceAdd (mulf Y Y) (constant (F := Ideal) ⟨0, ![]⟩ .f32 0x00000000#32) hred hu)))))))
      hback (ix3 n q c)
      = Ideal.div (if c.val = 0 then modRe are aim (xr j) (xi j) else modIm are aim (xr j) (xi j)) (denom are aim xr xi) := by
  have y0 : ∀ j', Y (ix4 n k j' 0) = modRe are aim (xr j') (xi j') := fun j' => (hY j' 0).trans (if_pos rfl)
  have y1 : ∀ j', Y (ix4 n k j' 1) = modIm are aim (xr j') (xi j') := fun j' => (hY j' 1).trans (if_neg Nat.one_ne_zero)
  have hE : (∑ j' : Fin m, (Y (ix4 n k j' 0) * Y (ix4 n k j' 0) + Y (ix4 n k j' 1) * Y (ix4 n k j' 1)))
      = energy are aim xr xi := by
    unfold energy
    exact Finset.sum_congr rfl fun j' _ => by rw [y0 j', y1 j']
  rw [groupBack_apply hw _ hback n k j c q hq, normalized_apply Y hred hu hb2 hbs hb4 n k j c, hY j c, hE]
  rfl

/-! ## The four channel ranges side by side -/

/-- Channels 0 … 15 of the result are the first piece. -/
theorem assemble0_apply {α : Type} (p0 : (⟨3, ![131072, 16, 2]⟩ : Shape).Idx → α) (p1 : (⟨3, ![131072, 48, 2]⟩ : Shape).Idx → α)
    (p2 : (⟨3, ![131072, 80, 2]⟩ : Shape).Idx → α) (p3 : (⟨3, ![131072, 112, 2]⟩ : Shape).Idx → α)
    (hcat : Shape.Concatenates [(⟨3, ![131072, 16, 2]⟩ : Shape), ⟨3, ![131072, 48, 2]⟩, ⟨3, ![131072, 80, 2]⟩, ⟨3, ![131072, 112, 2]⟩] ⟨3, ![131072, 256, 2]⟩ 1)
    (n : Fin 131072) (ch : Fin 256) (c : Fin 2) (q : Fin 16) (hq : 0 + q.val = ch.val) :
    concatenate ⟨3, ![131072, 256, 2]⟩ 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat (ix3 n ch c)
      = p0 (ix3 n q c) :=
  concatenate_apply_piece 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat _ 0
    (by show (0 : ℕ) < 4; omega) ⟨3, ![131072, 16, 2]⟩ p0 rfl rfl 0 rfl (ix3 n q c)
    (fun b hb => by
      match b with
      | ⟨0, _⟩ => rfl
      | ⟨1, _⟩ => exact absurd rfl hb
      | ⟨2, _⟩ => rfl) hq

/-- Channels 16 … 63 of the result are the second piece. -/
theorem assemble1_apply {α : Type} (p0 : (⟨3, ![131072, 16, 2]⟩ : Shape).Idx → α) (p1 : (⟨3, ![131072, 48, 2]⟩ : Shape).Idx → α)
    (p2 : (⟨3, ![131072, 80, 2]⟩ : Shape).Idx → α) (p3 : (⟨3, ![131072, 112, 2]⟩ : Shape).Idx → α)
    (hcat : Shape.Concatenates [(⟨3, ![131072, 16, 2]⟩ : Shape), ⟨3, ![131072, 48, 2]⟩, ⟨3, ![131072, 80, 2]⟩, ⟨3, ![131072, 112, 2]⟩] ⟨3, ![131072, 256, 2]⟩ 1)
    (n : Fin 131072) (ch : Fin 256) (c : Fin 2) (q : Fin 48) (hq : 16 + q.val = ch.val) :
    concatenate ⟨3, ![131072, 256, 2]⟩ 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat (ix3 n ch c)
      = p1 (ix3 n q c) :=
  concatenate_apply_piece 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat _ 1
    (by show (1 : ℕ) < 4; omega) ⟨3, ![131072, 48, 2]⟩ p1 rfl rfl 16 rfl (ix3 n q c)
    (fun b hb => by
      match b with
      | ⟨0, _⟩ => rfl
      | ⟨1, _⟩ => exact absurd rfl hb
      | ⟨2, _⟩ => rfl) hq

/-- Channels 64 … 143 of the result are the third piece. -/
theorem assemble2_apply {α : Type} (p0 : (⟨3, ![131072, 16, 2]⟩ : Shape).Idx → α) (p1 : (⟨3, ![131072, 48, 2]⟩ : Shape).Idx → α)
    (p2 : (⟨3, ![131072, 80, 2]⟩ : Shape).Idx → α) (p3 : (⟨3, ![131072, 112, 2]⟩ : Shape).Idx → α)
    (hcat : Shape.Concatenates [(⟨3, ![131072, 16, 2]⟩ : Shape), ⟨3, ![131072, 48, 2]⟩, ⟨3, ![131072, 80, 2]⟩, ⟨3, ![131072, 112, 2]⟩] ⟨3, ![131072, 256, 2]⟩ 1)
    (n : Fin 131072) (ch : Fin 256) (c : Fin 2) (q : Fin 80) (hq : 64 + q.val = ch.val) :
    concatenate ⟨3, ![131072, 256, 2]⟩ 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat (ix3 n ch c)
      = p2 (ix3 n q c) :=
  concatenate_apply_piece 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat _ 2
    (by show (2 : ℕ) < 4; omega) ⟨3, ![131072, 80, 2]⟩ p2 rfl rfl 64 rfl (ix3 n q c)
    (fun b hb => by
      match b with
      | ⟨0, _⟩ => rfl
      | ⟨1, _⟩ => exact absurd rfl hb
      | ⟨2, _⟩ => rfl) hq

/-- Channels 144 … 255 of the result are the fourth piece. -/
theorem assemble3_apply {α : Type} (p0 : (⟨3, ![131072, 16, 2]⟩ : Shape).Idx → α) (p1 : (⟨3, ![131072, 48, 2]⟩ : Shape).Idx → α)
    (p2 : (⟨3, ![131072, 80, 2]⟩ : Shape).Idx → α) (p3 : (⟨3, ![131072, 112, 2]⟩ : Shape).Idx → α)
    (hcat : Shape.Concatenates [(⟨3, ![131072, 16, 2]⟩ : Shape), ⟨3, ![131072, 48, 2]⟩, ⟨3, ![131072, 80, 2]⟩, ⟨3, ![131072, 112, 2]⟩] ⟨3, ![131072, 256, 2]⟩ 1)
    (n : Fin 131072) (ch : Fin 256) (c : Fin 2) (q : Fin 112) (hq : 144 + q.val = ch.val) :
    concatenate ⟨3, ![131072, 256, 2]⟩ 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat (ix3 n ch c)
      = p3 (ix3 n q c) :=
  concatenate_apply_piece 1 [⟨⟨3, ![131072, 16, 2]⟩, p0⟩, ⟨⟨3, ![131072, 48, 2]⟩, p1⟩, ⟨⟨3, ![131072, 80, 2]⟩, p2⟩, ⟨⟨3, ![131072, 112, 2]⟩, p3⟩] hcat _ 3
    (by show (3 : ℕ) < 4; omega) ⟨3, ![131072, 112, 2]⟩ p3 rfl rfl 144 rfl (ix3 n q c)
    (fun b hb => by
      match b with
      | ⟨0, _⟩ => rfl
      | ⟨1, _⟩ => exact absurd rfl hb
      | ⟨2, _⟩ => rfl) hq

end Cert.RefSide

end
-- ==== Proof.RefResult.lean ====
/-
  The reference's result is the function of Spec, entry by entry.

  The reference's run ends with its result at one composed term of the five arguments. Read at an index (b, ch, t, f, c)
  that term is, for the token n = (b, t, f): the argument x itself on the scalar channels, and on a channel of a group
  the group's modulated component divided by ε plus the fourth root of the feature's energy.
-/
import proofs.«132330_j16243566313947_1_alg».proof.Proof.Gen.ReferenceIdeal.Run
import proofs.«132330_j16243566313947_1_alg».proof.Proof.RefGates
import proofs.«132330_j16243566313947_1_alg».proof.Proof.RefOut

set_option maxRecDepth 8192

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Spec

variable (V0 : Valuation τ sig (Elt Ideal))

/-- The five arguments, at their literal shapes. -/
abbrev argX : (⟨5, ![4, 256, 128, 256, 2]⟩ : Shape).Idx → EReal := V0 (Proc.devRef .tc main_arg0)
abbrev argWre : (⟨3, ![4, 16, 16]⟩ : Shape).Idx → EReal := V0 (Proc.devRef .tc main_arg1)
abbrev argBre : (⟨2, ![4, 16]⟩ : Shape).Idx → EReal := V0 (Proc.devRef .tc main_arg2)
abbrev argWim : (⟨3, ![4, 16, 16]⟩ : Shape).Idx → EReal := V0 (Proc.devRef .tc main_arg3)
abbrev argBim : (⟨2, ![4, 16]⟩ : Shape).Idx → EReal := V0 (Proc.devRef .tc main_arg4)

/-- The token-major view of the argument x. -/
abbrev X : Fin 131072 → Fin 256 → Fin 2 → EReal := Xof (argX V0)

/-- The gate of feature k of token n in group g, real and imaginary part. -/
abbrev gRe (g : Fin 4) (n : Fin 131072) (k : Fin 16) : EReal :=
  gateRe (W3 (argWre V0) g) (W3 (argWim V0) g) (B2 (argBre V0) g) (B2 (argBim V0) g)
    (fun i => X V0 n ⟨i.val, lt256_of_lt16 i⟩ 0) (fun i => X V0 n ⟨i.val, lt256_of_lt16 i⟩ 1) k
abbrev gIm (g : Fin 4) (n : Fin 131072) (k : Fin 16) : EReal :=
  gateIm (W3 (argWre V0) g) (W3 (argWim V0) g) (B2 (argBre V0) g) (B2 (argBim V0) g)
    (fun i => X V0 n ⟨i.val, lt256_of_lt16 i⟩ 0) (fun i => X V0 n ⟨i.val, lt256_of_lt16 i⟩ 1) k

/-! ## The token-major view and the scalar features -/

theorem v1_apply (n : Fin 131072) (ch : Fin 256) (c : Fin 2) : res_main_v1 V0 (ix3 n ch c) = X V0 n ch c := by
  unfold res_main_v1
  exact tokenMajor_apply _ _ _ n ch c

theorem v2_apply (n : Fin 131072) (i : Fin 16) (c : Fin 2) :
    res_main_v2 V0 (ix3 n i c) = X V0 n ⟨i.val, lt256_of_lt16 i⟩ c := by
  unfold res_main_v2
  exact (scalarPart_apply _ _ n i c).trans (v1_apply V0 n _ c)

theorem v4_apply (n : Fin 131072) (i : Fin 16) : res_main_v4 V0 (ix2 n i) = X V0 n ⟨i.val, lt256_of_lt16 i⟩ 0 := by
  unfold res_main_v4 res_main_v2
  exact (scalarPlane_apply _ _ 0 _ _ n i 0 rfl).trans (v1_apply V0 n _ 0)

theorem v6_apply (n : Fin 131072) (i : Fin 16) : res_main_v6 V0 (ix2 n i) = X V0 n ⟨i.val, lt256_of_lt16 i⟩ 1 := by
  unfold res_main_v6 res_main_v2
  exact (scalarPlane_apply _ _ 1 _ _ n i 1 rfl).trans (v1_apply V0 n _ 1)

/-! ## Group 1: 3 components per feature, channels 16 … 63 -/

/-- The group's channels regrouped as features and components. -/
theorem v8_apply (n : Fin 131072) (k : Fin 16) (j : Fin 3) (c : Fin 2) :
    res_main_v8 V0 (ix4 n k j c) = X V0 n (chan (m := 3) (base := 16) (by decide) k j) c := by
  unfold res_main_v8
  exact (groupPart_apply 16 rfl (by decide) _ _ _ n k j c).trans (v1_apply V0 n _ c)

/-- The group's gate, real part. -/
theorem v46_apply (n : Fin 131072) (k : Fin 16) (u : Fin 1) : res_main_v46 V0 (ix3 n k u) = gRe V0 1 n k := by
  unfold res_main_v46
  refine (gateRe_apply 1 1 rfl (res_main_v4 V0) (res_main_v6 V0) (argWre V0) (argWim V0) (argBre V0) (argBim V0)
    _ rfl _ _ _ _ _ _ _ _ n k u).trans ?_
  simp only [v4_apply, v6_apply]

/-- The group's gate, imaginary part. -/
theorem v48_apply (n : Fin 131072) (k : Fin 16) (u : Fin 1) : res_main_v48 V0 (ix3 n k u) = gIm V0 1 n k := by
  unfold res_main_v48
  refine (gateIm_apply 1 1 rfl (res_main_v4 V0) (res_main_v6 V0) (argWre V0) (argWim V0) (argBre V0) (argBim V0)
    _ rfl _ _ _ _ _ _ _ _ n k u).trans ?_
  simp only [v4_apply, v6_apply]

/-- The group's modulated features. -/
theorem v69_apply (n : Fin 131072) (k : Fin 16) (j : Fin 3) (c : Fin 2) :
    res_main_v69 V0 (ix4 n k j c)
      = if c.val = 0 then modRe (gRe V0 1 n k) (gIm V0 1 n k)
            (X V0 n (chan (m := 3) (base := 16) (by decide) k j) 0) (X V0 n (chan (m := 3) (base := 16) (by decide) k j) 1)
        else modIm (gRe V0 1 n k) (gIm V0 1 n k)
            (X V0 n (chan (m := 3) (base := 16) (by decide) k j) 0) (X V0 n (chan (m := 3) (base := 16) (by decide) k j) 1) := by
  unfold res_main_v69
  refine (modulated_apply (res_main_v8 V0) (res_main_v46 V0) (res_main_v48 V0) _ _ _ _ _ _ n k j c).trans ?_
  rw [v8_apply, v8_apply, v46_apply, v48_apply]

/-! ## Group 2: 5 components per feature, channels 64 … 143 -/

/-- The group's channels regrouped as features and components. -/
theorem v81_apply (n : Fin 131072) (k : Fin 16) (j : Fin 5) (c : Fin 2) :
    res_main_v81 V0 (ix4 n k j c) = X V0 n (chan (m := 5) (base := 64) (by decide) k j) c := by
  unfold res_main_v81
  exact (groupPart_apply 64 rfl (by decide) _ _ _ n k j c).trans (v1_apply V0 n _ c)

/-- The group's gate, real part. -/
theorem v119_apply (n : Fin 131072) (k : Fin 16) (u : Fin 1) : res_main_v119 V0 (ix3 n k u) = gRe V0 2 n k := by
  unfold res_main_v119
  refine (gateRe_apply 2 2 rfl (res_main_v4 V0) (res_main_v6 V0) (argWre V0) (argWim V0) (argBre V0) (argBim V0)
    _ rfl _ _ _ _ _ _ _ _ n k u).trans ?_
  simp only [v4_apply, v6_apply]

/-- The group's gate, imaginary part. -/
theorem v121_apply (n : Fin 131072) (k : Fin 16) (u : Fin 1) : res_main_v121 V0 (ix3 n k u) = gIm V0 2 n k := by
  unfold res_main_v121
  refine (gateIm_apply 2 2 rfl (res_main_v4 V0) (res_main_v6 V0) (argWre V0) (argWim V0) (argBre V0) (argBim V0)
    _ rfl _ _ _ _ _ _ _ _ n k u).trans ?_
  simp only [v4_apply, v6_apply]

/-- The group's modulated features. -/
theorem v142_apply (n : Fin 131072) (k : Fin 16) (j : Fin 5) (c : Fin 2) :
    res_main_v142 V0 (ix4 n k j c)
      = if c.val = 0 then modRe (gRe V0 2 n k) (gIm V0 2 n k)
            (X V0 n (chan (m := 5) (base := 64) (by decide) k j) 0) (X V0 n (chan (m := 5) (base := 64) (by decide) k j) 1)
        else modIm (gRe V0 2 n k) (gIm V0 2 n k)
            (X V0 n (chan (m := 5) (base := 64) (by decide) k j) 0) (X V0 n (chan (m := 5) (base := 64) (by decide) k j) 1) := by
  unfold res_main_v142
  refine (modulated_apply (res_main_v81 V0) (res_main_v119 V0) (res_main_v121 V0) _ _ _ _ _ _ n k j c).trans ?_
  rw [v81_apply, v81_apply, v119_apply, v121_apply]

/-! ## Group 3: 7 components per feature, channels 144 … 255 -/

/-- The group's channels regrouped as features and components. -/
theorem v154_apply (n : Fin 131072) (k : Fin 16) (j : Fin 7) (c : Fin 2) :
    res_main_v154 V0 (ix4 n k j c) = X V0 n (chan (m := 7) (base := 144) (by decide) k j) c := by
  unfold res_main_v154
  exact (groupPart_apply 144 rfl (by decide) _ _ _ n k j c).trans (v1_apply V0 n _ c)

/-- The group's gate, real part. -/
theorem v192_apply (n : Fin 131072) (k : Fin 16) (u : Fin 1) : res_main_v192 V0 (ix3 n k u) = gRe V0 3 n k := by
  unfold res_main_v192
  refine (gateRe_apply 3 3 rfl (res_main_v4 V0) (res_main_v6 V0) (argWre V0) (argWim V0) (argBre V0) (argBim V0)
    _ rfl _ _ _ _ _ _ _ _ n k u).trans ?_
  simp only [v4_apply, v6_apply]

/-- The group's gate, imaginary part. -/
theorem v194_apply (n : Fin 131072) (k : Fin 16) (u : Fin 1) : res_main_v194 V0 (ix3 n k u) = gIm V0 3 n k := by
  unfold res_main_v194
  refine (gateIm_apply 3 3 rfl (res_main_v4 V0) (res_main_v6 V0) (argWre V0) (argWim V0) (argBre V0) (argBim V0)
    _ rfl _ _ _ _ _ _ _ _ n k u).trans ?_
  simp only [v4_apply, v6_apply]

/-- The group's modulated features. -/
theorem v215_apply (n : Fin 131072) (k : Fin 16) (j : Fin 7) (c : Fin 2) :
    res_main_v215 V0 (ix4 n k j c)
      = if c.val = 0 then modRe (gRe V0 3 n k) (gIm V0 3 n k)
            (X V0 n (chan (m := 7) (base := 144) (by decide) k j) 0) (X V0 n (chan (m := 7) (base := 144) (by decide) k j) 1)
        else modIm (gRe V0 3 n k) (gIm V0 3 n k)
            (X V0 n (chan (m := 7) (base := 144) (by decide) k j) 0) (X V0 n (chan (m := 7) (base := 144) (by decide) k j) 1) := by
  unfold res_main_v215
  refine (modulated_apply (res_main_v154 V0) (res_main_v192 V0) (res_main_v194 V0) _ _ _ _ _ _ n k j c).trans ?_
  rw [v154_apply, v154_apply, v192_apply, v194_apply]

/-! ## The result -/

/-- THE REFERENCE'S RESULT: the buffer its run ends with is the result function of the five arguments. -/
theorem result_val4 : val4 V0 (Proc.devRef .tc main_v228) = ResultOf (V0 (Proc.devRef .tc main_arg0)) (V0 (Proc.devRef .tc main_arg1))
      (V0 (Proc.devRef .tc main_arg2)) (V0 (Proc.devRef .tc main_arg3)) (V0 (Proc.devRef .tc main_arg4)) := by
  refine (val4_main_v228 V0).trans ?_
  funext i
  obtain ⟨b, ch, t, f, c, rfl⟩ : ∃ b ch t f c, i = ix5 b ch t f c := ⟨i 0, i 1, i 2, i 3, i 4, eq_ix5 i⟩
  refine (tokenMajor_back_apply _ _ _ b ch t f c).trans ?_
  show _ = Out (X V0) (W3 (argWre V0)) (W3 (argWim V0)) (B2 (argBre V0)) (B2 (argBim V0)) (tok b t f) ch c
  generalize tok b t f = n
  rcases chan_cases ch with h | ⟨k, j, rfl⟩ | ⟨k, j, rfl⟩ | ⟨k, j, rfl⟩
  · refine (assemble0_apply _ _ _ _ _ n ch c ⟨ch.val, h⟩ (Nat.zero_add _)).trans ?_
    rw [Out_scalar _ _ _ _ _ n ch c h]
    exact v2_apply V0 n ⟨ch.val, h⟩ c
  · refine (assemble1_apply _ _ _ _ _ n _ c ⟨k.val * 3 + j.val, feat_lt rfl k j⟩ (Nat.add_assoc _ _ _).symm).trans ?_
    refine (groupOut_apply rfl (res_main_v69 V0) (gRe V0 1 n k) (gIm V0 1 n k)
      (fun j => X V0 n (chan (m := 3) (base := 16) (by decide) k j) 0)
      (fun j => X V0 n (chan (m := 3) (base := 16) (by decide) k j) 1) n k
      (fun j c => v69_apply V0 n k j c) _ _ _ _ _ _ j c _ rfl).trans ?_
    rw [Out_g1]
    unfold grp tokOut
    rfl
  · refine (assemble2_apply _ _ _ _ _ n _ c ⟨k.val * 5 + j.val, feat_lt rfl k j⟩ (Nat.add_assoc _ _ _).symm).trans ?_
    refine (groupOut_apply rfl (res_main_v142 V0) (gRe V0 2 n k) (gIm V0 2 n k)
      (fun j => X V0 n (chan (m := 5) (base := 64) (by decide) k j) 0)
      (fun j => X V0 n (chan (m := 5) (base := 64) (by decide) k j) 1) n k
      (fun j c => v142_apply V0 n k j c) _ _ _ _ _ _ j c _ rfl).trans ?_
    rw [Out_g2]
    unfold grp tokOut
    rfl
  · refine (assemble3_apply _ _ _ _ _ n _ c ⟨k.val * 7 + j.val, feat_lt rfl k j⟩ (Nat.add_assoc _ _ _).symm).trans ?_
    refine (groupOut_apply rfl (res_main_v215 V0) (gRe V0 3 n k) (gIm V0 3 n k)
      (fun j => X V0 n (chan (m := 7) (base := 144) (by decide) k j) 0)
      (fun j => X V0 n (chan (m := 7) (base := 144) (by decide) k j) 1) n k
      (fun j c => v215_apply V0 n k j c) _ _ _ _ _ _ j c _ rfl).trans ?_
    rw [Out_g3]
    unfold grp tokOut
    rfl

/-- The same with the run's composed term written out: the term `Value.run` states for the result buffer. -/
theorem result_eq : transpose S4x256x128x256x2 [0, 3, 1, 2, 4] (shapeCast _ (concatenate S131072x256x2 1 [⟨S131072x16x2, (res_main_v2 V0)⟩, ⟨S131072x48x2, (shapeCast _ (Host.divf (res_main_v69 V0) (broadcastInDim S131072x16x3x2 ![0, 1, 2, 3] bcast_S131072x16x1x1_S131072x16x3x2_0_1_2_3 (addf (broadcastInDim S131072x16x1x1 ![] bcast_S_S131072x16x1x1 (constant S_ .f32 0x3727C5AC#32)) (broadcastInDim S131072x16x1x1 ![0, 1] bcast_S131072x16_S131072x16x1x1_0_1 (Host.sqrt (Host.sqrt (Host.reduceAdd (mulf (res_main_v69 V0) (res_main_v69 V0)) (constant S_ .f32 0x00000000#32) reducesTo_S131072x16x3x2_S131072x16_d2_3 h_S_))))))) shapeCasts_S131072x16x3x2_S131072x48x2)⟩, ⟨S131072x80x2, (shapeCast _ (Host.divf (res_main_v142 V0) (broadcastInDim S131072x16x5x2 ![0, 1, 2, 3] bcast_S131072x16x1x1_S131072x16x5x2_0_1_2_3 (addf (broadcastInDim S131072x16x1x1 ![] bcast_S_S131072x16x1x1 (constant S_ .f32 0x3727C5AC#32)) (broadcastInDim S131072x16x1x1 ![0, 1] bcast_S131072x16_S131072x16x1x1_0_1 (Host.sqrt (Host.sqrt (Host.reduceAdd (mulf (res_main_v142 V0) (res_main_v142 V0)) (constant S_ .f32 0x00000000#32) reducesTo_S131072x16x5x2_S131072x16_d2_3 h_S_))))))) shapeCasts_S131072x16x5x2_S131072x80x2)⟩, ⟨S131072x112x2, (shapeCast _ (Host.divf (res_main_v215 V0) (broadcastInDim S131072x16x7x2 ![0, 1, 2, 3] bcast_S131072x16x1x1_S131072x16x7x2_0_1_2_3 (addf (broadcastInDim S131072x16x1x1 ![] bcast_S_S131072x16x1x1 (constant S_ .f32 0x3727C5AC#32)) (broadcastInDim S131072x16x1x1 ![0, 1] bcast_S131072x16_S131072x16x1x1_0_1 (Host.sqrt (Host.sqrt (Host.reduceAdd (mulf (res_main_v215 V0) (res_main_v215 V0)) (constant S_ .f32 0x00000000#32) reducesTo_S131072x16x7x2_S131072x16_d2_3 h_S_))))))) shapeCasts_S131072x16x7x2_S131072x112x2)⟩] concatenates_S131072x16x2_S131072x48x2_S131072x80x2_S131072x112x2_S131072x256x2_d1) shapeCasts_S131072x256x2_S4x128x256x256x2) transposes_S4x128x256x256x2_S4x256x128x256x2_0_3_1_2_4
    = ResultOf (V0 (Proc.devRef .tc main_arg0)) (V0 (Proc.devRef .tc main_arg1))
      (V0 (Proc.devRef .tc main_arg2)) (V0 (Proc.devRef .tc main_arg3)) (V0 (Proc.devRef .tc main_arg4)) :=
  (val4_main_v228 V0).symm.trans (result_val4 V0)

end Cert.RefSide

end
-- ==== Proof.Assemble.lean ====
/-
  The reference's frame, and the equality of the two programs' results from the kernel's run.

  The reference's run ends with its result at the result function of its five arguments and leaves the arguments
  unchanged; so it runs, and if the kernel's run ends with its result at the same function of its own arguments,
  then from memories that agree on the arguments the two programs end with equal results.
-/
import proofs.«132330_j16243566313947_1_alg».proof.Defs
import proofs.«132330_j16243566313947_1_alg».proof.Proof.Gen.KernelIdeal
import proofs.«132330_j16243566313947_1_alg».proof.Proof.Gen.ReferenceIdeal
import proofs.«132330_j16243566313947_1_alg».proof.Proof.Gen.Pre_finite_inputs
import proofs.«132330_j16243566313947_1_alg».proof.Proof.RefResult
import proofs.«132330_j16243566313947_1_alg».proof.Proof.Tokens

set_option maxRecDepth 8192

noncomputable section

namespace Cert.Assemble

open Idealize.ShloMosaic Idealize.ShloMosaic.TcCoe Idealize.SL.Sem Idealize.ShloMosaic.StableHlo

/-- The reference runs and leaves its arguments unchanged: the last five conjuncts of its run. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- If the kernel's run ends with its result at the result function of its arguments (and the arguments unchanged),
    then the kernel and the reference, run from memories that agree on the arguments, end with equal results: both
    are the result function of the same five arrays. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v8)
            = Cert.Spec.ResultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
                (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨_, hk m ρ, ?_⟩
  refine (θ_run Cert.ReferenceIdeal.defs _ _).mono (fun _ h c => ⟨(h c).1.trans ?_, (h c).2⟩) (Cert.ReferenceIdeal.Value.run (F := Ideal) m' ρ')
  refine (Cert.RefSide.result_eq (launchContents m' c)).trans ?_
  show Cert.Spec.ResultOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

end Cert.Assemble

end
-- ==== Proof.lean ====
/-
  The kernel and its reference compute the same function of (x, Wre, bre, Wim, bim) over the extended reals.

  x : [4, 256, 128, 256, 2] carries, per token (batch, time, frequency), 256 complex channels. The first sixteen
  channels (scalar features) are copied. The other 240 form three groups of sixteen features with 3, 5 and 7 components;
  for a group, two affine 16→16 layers applied to the real and to the imaginary parts of the scalar features give one
  complex gate per feature, each component is multiplied by the gate, and the feature is divided by ε plus the fourth
  root of its energy (Spec.lean; the result in x's own layout is `Spec.ResultOf`, Tokens.lean).

  The reference does this token-major, with host operations only: its run's result is `ResultOf` of the arguments
  (RefLayout … RefResult). The kernel works re/im-major on blocks of 2048 tokens: it spreads a feature's gate and
  divisor over the feature's rows, and gathers a feature's energy from its rows, by products with the 0/1 membership
  matrix of the group (LibIndicatorSums, KerForm); the entries of the eight pieces it stores are one function of the
  block's inputs (KerEntry, KerG1 … KerG3, KerBlock), the 64 blocks tile the output array (KerArrBlk, KerArr), and the
  reshape and transpose around the call put the tokens back in x's layout (KerGlueIn, KerGlueOut, KerGlueConst). Both
  sides differ only in the order of the two factors of each product and in how the finite sums are indexed, so no
  finiteness of the inputs is used. The three frames are the programs' generated runs; the idealized kernel is the
  kernel's own text read at the exact values (no rewrite to account for).
-/
import proofs.«132330_j16243566313947_1_alg».proof.Defs
import proofs.«132330_j16243566313947_1_alg».proof.Proof.Gen.Kernel
import proofs.«132330_j16243566313947_1_alg».proof.Proof.Gen.Kernel.Skeleton
import proofs.«132330_j16243566313947_1_alg».proof.Proof.Gen.Kernel.Launch
import proofs.«132330_j16243566313947_1_alg».proof.Proof.Gen.Kernel.Points
import proofs.«132330_j16243566313947_1_alg».proof.Proof.Gen.Kernel.Frame
import proofs.«132330_j16243566313947_1_alg».proof.Proof.Gen.KernelIdeal
import proofs.«132330_j16243566313947_1_alg».proof.Proof.Gen.KernelIdeal.Skeleton
import proofs.«132330_j16243566313947_1_alg».proof.Proof.Gen.KernelIdeal.Launch
import proofs.«132330_j16243566313947_1_alg».proof.Proof.Gen.KernelIdeal.Points
import proofs.«132330_j16243566313947_1_alg».proof.Proof.Gen.KernelIdeal.Frame
import proofs.«132330_j16243566313947_1_alg».proof.Proof.Gen.ReferenceIdeal
import proofs.«132330_j16243566313947_1_alg».proof.Proof.Gen.ReferenceIdeal.Run
import proofs.«132330_j16243566313947_1_alg».proof.Proof.Gen.Pre_finite_inputs
import proofs.«132330_j16243566313947_1_alg».proof.Proof.KerArr
import proofs.«132330_j16243566313947_1_alg».proof.Proof.Assemble
import Idealize.ShloMosaic.Adequacy
import Idealize.ShloMosaic.Init

noncomputable section

namespace Cert.Proof

open Idealize.ShloMosaic Idealize.SL.Sem Cert.Kernel

/-- The five claims: the three programs run and keep their arguments; nothing was rewritten in idealizing the kernel;
    and from memories agreeing on the arguments both idealized programs end with `Spec.ResultOf` of the arguments. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Assemble.frame_ref,
  trivial,
  Cert.Assemble.algebraic_of (fun m ρ => Cert.KerArr.kernel_run m ρ)⟩

end Cert.Proof

end
